-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x256 : Shape := ⟨3, ![4096, 8, 256]⟩
abbrev S4096x4096 : Shape := ⟨2, ![4096, 4096]⟩
abbrev S_ : Shape := ⟨0, ![]⟩

class Facts : Prop where
  bcast_S_S4096x8x256 : S_.BroadcastsInDim S4096x8x256 (![] : Fin 0 → Fin S4096x8x256.rank)
  reducesTo_S4096x8x256_S_d0_1_2 : S4096x8x256.ReducesTo [0, 1, 2] S_
  h_S_ : 0 < S_.numel

variable [Facts]

def fn {F : FTy → Type} [FloatOps F] (main_arg0 : FVec F S4096x8x256 .f32) (main_arg1 : FVec F S4096x8x256 .f32) (main_arg2 : IVec S4096x4096 32) : IVec S_ 1 :=
  let main_v0 : FVec F S4096x8x256 .f32 := Host.absf main_arg0
  let main_cst : FVec F S_ .f32 := constant S_ .f32 0x7F800000#32
  let main_v1 : FVec F S4096x8x256 .f32 := broadcastInDim S4096x8x256 ![] bcast_S_S4096x8x256 main_cst
  let main_v2 : IVec S4096x8x256 1 := cmpf .olt main_v0 main_v1
  let main_c : IVec S_ 1 := constantI S_ 1 1#1
  let main_v3 : IVec S_ 1 := (fun x v => Host.reduce IntOp.andi x v reducesTo_S4096x8x256_S_d0_1_2 h_S_) main_v2 main_c
  let main_v4 : FVec F S4096x8x256 .f32 := Host.absf main_arg1
  let main_cst_0 : FVec F S_ .f32 := constant S_ .f32 0x7F800000#32
  let main_v5 : FVec F S4096x8x256 .f32 := broadcastInDim S4096x8x256 ![] bcast_S_S4096x8x256 main_cst_0
  let main_v6 : IVec S4096x8x256 1 := cmpf .olt main_v4 main_v5
  let main_c_1 : IVec S_ 1 := constantI S_ 1 1#1
  let main_v7 : IVec S_ 1 := (fun x v => Host.reduce IntOp.andi x v reducesTo_S4096x8x256_S_d0_1_2 h_S_) main_v6 main_c_1
  let main_v8 : IVec S_ 1 := andi main_v3 main_v7
  main_v8
-- ==== Kernel.lean ====
abbrev S4096x8x256 : Shape := ⟨3, ![4096, 8, 256]⟩
abbrev S4096x4096 : Shape := ⟨2, ![4096, 4096]⟩
abbrev S4096x256 : Shape := ⟨2, ![4096, 256]⟩
abbrev S1024x8x256 : Shape := ⟨3, ![1024, 8, 256]⟩
abbrev S1024x256 : Shape := ⟨2, ![1024, 256]⟩
abbrev S1024 : Shape := ⟨1, ![1024]⟩
abbrev S1024x1 : Shape := ⟨2, ![1024, 1]⟩
abbrev S4096x1 : Shape := ⟨2, ![4096, 1]⟩
abbrev S512x256 : Shape := ⟨2, ![512, 256]⟩
abbrev S512x1024 : Shape := ⟨2, ![512, 1024]⟩
abbrev S512x1 : Shape := ⟨2, ![512, 1]⟩
abbrev S256x1024 : Shape := ⟨2, ![256, 1024]⟩
abbrev S512 : Shape := ⟨1, ![512]⟩
abbrev S_ : Shape := ⟨0, ![]⟩

abbrev nBuf : Space → Nat
  | .hbm => 20
  | .vmem => 20
  | .smem => 0
  | _ => 0

abbrev bufTy : (tb : Table) → Fin (tcTables nBuf tb) → BufTy
  | .hbm, ⟨0, _⟩ => ⟨S4096x8x256, .f32⟩
  | .hbm, ⟨1, _⟩ => ⟨S4096x8x256, .f32⟩
  | .hbm, ⟨2, _⟩ => ⟨S4096x4096, .i32⟩
  | .hbm, ⟨3, _⟩ => ⟨S4096x256, .bf16⟩
  | .hbm, ⟨4, _⟩ => ⟨S4096x256, .bf16⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .i1⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x8x256, .f32⟩
  | .local _ .vmem, ⟨1, _⟩ => ⟨S1024x8x256, .f32⟩
  | .local _ .vmem, ⟨2, _⟩ => ⟨S1024x256, .bf16⟩
  | .local _ .vmem, ⟨3, _⟩ => ⟨S1024x256, .bf16⟩
  | .local _ .vmem, ⟨4, _⟩ => ⟨S1024x8x256, .f32⟩
  | .local _ .vmem, ⟨5, _⟩ => ⟨S1024x8x256, .f32⟩
  | .local _ .vmem, ⟨6, _⟩ => ⟨S1024x256, .bf16⟩
  | .local _ .vmem, ⟨7, _⟩ => ⟨S1024x256, .bf16⟩
  | .local _ .vmem, ⟨8, _⟩ => ⟨S512x256, .bf16⟩
  | .local _ .vmem, ⟨9, _⟩ => ⟨S512x256, .bf16⟩
  | .local _ .vmem, ⟨10, _⟩ => ⟨S4096x256, .bf16⟩
  | .local _ .vmem, ⟨11, _⟩ => ⟨S512x1024, .i32⟩
  | .local _ .vmem, ⟨12, _⟩ => ⟨S512x1024, .i32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | _, _ => ⟨S4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg4_1 : Ref sig .tc := ⟨.vmem, 16, rfl⟩
abbrev cc2_scratch0 : Ref sig .tc := ⟨.vmem, 17, rfl⟩
abbrev cc2_scratch1 : Ref sig .tc := ⟨.vmem, 18, rfl⟩
abbrev cc2_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev cc2_sem4_0 : DmaSem sig := 15
abbrev cc2_sem4_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 4], ![false, false]⟩

def k2_mult1 (i : grid2.Coords) : BitVec 32 :=
  let arg1 : BitVec 32 := BitVec.ofNat 32 (i 1).val
  let c1024_i32 : BitVec 32 := 1024#32
  let v4 : BitVec 32 := Scalar.muli arg1 c1024_i32
  v4
def k2_off1 (i : grid2.Coords) : Fin 2 → Nat :=
  let arg1 : BitVec 32 := BitVec.ofNat 32 (i 1).val
  let c1024_i32 : BitVec 32 := 1024#32
  let v4 : BitVec 32 := Scalar.muli arg1 c1024_i32
  let v7 : BitVec 32 := v4
  let v8 : Index := Scalar.indexCast v7
  let c0_2 : Index := 0#32
  ![v8.toNat, 0]
def k2_cond4 (i : grid2.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_11 : BitVec 32 := 0#32
  let v30 : BitVec 1 := Scalar.cmpi .ne v29 c0_i32_11
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S512x1024 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x8x256_S1024x8x256_0_0_0 : ∀ a, (![0, 0, 0] : Fin 3 → Nat) a + S1024x8x256.size a ≤ S1024x8x256.size a
  h_S1024x8x256 : 0 < S1024x8x256.numel
  reduces_S1024x8x256_S1024x256 : S1024x8x256.Reduces [1] S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1024x256_S1024x256 : S1024x256.ShapeCasts S1024x256
  transposes_S1024x256_p1_0_S256x1024 : S1024x256.Transposes [1, 0] S256x1024
  inb_S512x1024_S512x1024_0_0 : ∀ a, (![0, 0] : Fin 2 → Nat) a + S512x1024.size a ≤ S512x1024.size a
  h_S512x1024 : 0 < S512x1024.numel
  iota_S512x1024_d0_w32 : S512x1024.Iotas .tc 32 [0]
  iota_S512x1024_d1_w32 : S512x1024.Iotas .tc 32 [1]
  reduces_S512x1024_S512 : S512x1024.Reduces [1] S512
  shapeCasts_S512_S512x1 : S512.ShapeCasts S512x1
  natLt_1_32 : 1 < 32
  reducesTo_S4096x1_S_d0_1 : S4096x1.ReducesTo [0, 1] S_
  h_S_ : 0 < S_.numel
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x256.size a ≤ S4096x8x256.size a
  hwx0_0 : ∀ i : grid0.Coords, EltTy.bits .f32 = 32 ∨ (Rect.block (s := S4096x8x256) S1024x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8x256.size a ≤ S4096x8x256.size a
  hwx1_0 : ∀ i : grid1.Coords, EltTy.bits .f32 = 32 ∨ (Rect.block (s := S4096x8x256) S1024x8x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S4096x256.size a
  hwx1_1 : ∀ i : grid1.Coords, EltTy.bits .bf16 = 32 ∨ (Rect.block (s := S4096x256) S1024x256.size (cc1_transform_1 i) (hinb1_1 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S1024x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .bf16 = 32 ∨ (Rect.block (s := S4096x256) S512x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .bf16 = 32 ∨ (Rect.block (s := S4096x256) S4096x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x4096.size a
  hwx2_2 : ∀ i : grid2.Coords, EltTy.bits .i32 = 32 ∨ (Rect.block (s := S4096x4096) S512x1024.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .f32 = 32 ∨ (Rect.block (s := S4096x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1024x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x8x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_0) S512x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S512x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond4 i == 1#1) | 4 => fun i => !(k2_cond4 i == 1#1) | ⟨_ + 5, h⟩ => absurd h (Nat.not_lt.2 (Nat.le_add_left _ _))

class Facts : Prop extends Facts₀ where

variable [Facts]
-- ==== ReferenceIdeal.lean ====
abbrev S4096x8x256 : Shape := ⟨3, ![4096, 8, 256]⟩
abbrev S4096x4096 : Shape := ⟨2, ![4096, 4096]⟩
abbrev S_ : Shape := ⟨0, ![]⟩
abbrev S4096x256 : Shape := ⟨2, ![4096, 256]⟩
abbrev S4096 : Shape := ⟨1, ![4096]⟩
abbrev S4096x1 : Shape := ⟨2, ![4096, 1]⟩
abbrev S256x4096 : Shape := ⟨2, ![256, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x8x256, .f32⟩
  | .hbm, ⟨1, _⟩ => ⟨S4096x8x256, .f32⟩
  | .hbm, ⟨2, _⟩ => ⟨S4096x4096, .i32⟩
  | .hbm, ⟨3, _⟩ => ⟨S_, .f32⟩
  | .hbm, ⟨4, _⟩ => ⟨S4096x256, .f32⟩
  | .hbm, ⟨5, _⟩ => ⟨S_, .f32⟩
  | .hbm, ⟨6, _⟩ => ⟨S4096x256, .f32⟩
  | .hbm, ⟨7, _⟩ => ⟨S4096x256, .f32⟩
  | .hbm, ⟨8, _⟩ => ⟨S_, .f32⟩
  | .hbm, ⟨9, _⟩ => ⟨S4096x256, .f32⟩
  | .hbm, ⟨10, _⟩ => ⟨S_, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .i32⟩
  | .hbm, ⟨39, _⟩ => ⟨S4096x4096, .i32⟩
  | .hbm, ⟨40, _⟩ => ⟨S_, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .i32⟩
  | .hbm, ⟨45, _⟩ => ⟨S4096x4096, .i32⟩
  | .hbm, ⟨46, _⟩ => ⟨S4096x4096, .i1⟩
  | .hbm, ⟨47, _⟩ => ⟨S4096x4096, .i1⟩
  | .hbm, ⟨48, _⟩ => ⟨S4096x4096, .i1⟩
  | .hbm, ⟨49, _⟩ => ⟨S4096x4096, .i1⟩
  | .hbm, ⟨50, _⟩ => ⟨S4096x4096, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x4096, .f32⟩
  | .hbm, ⟨63, _⟩ => ⟨S4096x4096, .f32⟩
  | .hbm, ⟨64, _⟩ => ⟨S4096x4096, .i32⟩
  | .hbm, ⟨65, _⟩ => ⟨S_, .i32⟩
  | .hbm, ⟨66, _⟩ => ⟨S_, .i32⟩
  | .hbm, ⟨67, _⟩ => ⟨S_, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S_, .f32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_cst_12 : Ref sig .tc := ⟨.hbm, 71, rfl⟩
abbrev main_v42 : Ref sig .tc := ⟨.hbm, 72, rfl⟩
abbrev main_c_13 : Ref sig .tc := ⟨.hbm, 73, rfl⟩
abbrev main_v43 : Ref sig .tc := ⟨.hbm, 74, rfl⟩
abbrev main_c_14 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_15 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  reducesTo_S4096x8x256_S4096x256_d1 : S4096x8x256.ReducesTo [1] S4096x256
  h_S_ : 0 < S_.numel
  bcast_S_S4096x256 : S_.BroadcastsInDim S4096x256 (![] : Fin 0 → Fin S4096x256.rank)
  reducesTo_S4096x256_S4096_d1 : S4096x256.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  natLt_1_32 : 1 < 32
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.PoolFrameK.lean ====
/-
  The two pooling regions of @main, each as a pipeline with proof data: what a grid point is handed, what
  it leaves, and that the printed body does so.

  Both regions run the same body on a grid of 4 points. Point t is handed block t of the argument array:
  1024 rows, each of 8 slots of 256 lanes. It loads the block whole, loads the output buffer whole (the
  value is never used), and stores into the output buffer, whole, one value per row and lane: the
  normalised slot mean of that row (Gen.k0_pay1 / Gen.k1_pay1 of the block). The pipeline then writes the
  1024 x 256 buffer back as block t of the result array.

  Everything is stated at a parameter V, the TensorCore's buffer contents when the region is entered, and at
  any float interpretation F.
-/
import proofs.«105816_j90091234001463_2_alg».proof.Proof.Gen.Kernel.Launch
import proofs.«105816_j90091234001463_2_alg».proof.Proof.Gen.Kernel.Skeleton
import proofs.«105816_j90091234001463_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of the 1024 x 8 x 256 input buffer are all zero, -/
theorem zeroOff3 : (![0, 0, 0] : Fin 3 → Nat) = fun _ => 0 := by
  funext a; match a with | ⟨0, _⟩ => rfl | ⟨1, _⟩ => rfl | ⟨2, _⟩ => rfl

/-- and so are those of the 1024 x 256 output buffer. -/
theorem zeroOff2 : (![0, 0] : Fin 2 → Nat) = fun _ => 0 := by
  funext a; match a with | ⟨0, _⟩ => rfl | ⟨1, _⟩ => rfl

variable (V : (c : Dev nD) → (b : Ref sig .tc) → Buf (Elt F) ((c : Thread nD τ).loc b))

/-! # Region K: the rows of main_arg0 pooled into main_v0 -/

/-- The rows point t pools: block t of the argument array as the region finds it. -/
def rows0 (c : Dev nD) (t : Fin cfg0.N) : ((cfg0.win 0).xblock (cfg0.grid.coords t)).Idx → Elt F (cfg0.win 0).elt :=
  ((cfg0.win 0).blk t).view.read (Elt F) (V c (Pipeline.arrRef spec0 0))

/-- What the body leaves in the output buffer when the input buffer reads x: the pooled, normalised rows. -/
def pooled0 (x : Vec F S1024x8x256 .f32) : Vec F S1024x256 .bf16 := k0_pay1 x

set_option maxHeartbeats 1000000 in
/-- The printed body, on whole staging memrefs, the input's reading x and the output's holding anything, returns with the
    input's as it was and the output's reading the pooled rows of x. The load of the output buffer before the store reads
    whatever was there and its value is dropped; the one store fills the buffer, so what was there is gone. -/
theorem pool_body0 (c : Dev nD) (E : Set ℕ) (i : grid0.Coords)
    (inp : Memref sig .tc .vmem S1024x8x256 .f32) (hinp : inp.IsWhole)
    (outp : Memref sig .tc .vmem S1024x256 .bf16) (houtp : outp.IsWhole)
    (x : Vec F S1024x8x256 .f32) (Q : PUnit → sProp 𝕄) :
    iprop(owns (c : Thread nD τ) inp fullShare x ∗ (∃ d, owns (c : Thread nD τ) outp fullShare d)
        ∗ (iprop(owns (c : Thread nD τ) inp fullShare x ∗ owns (c : Thread nD τ) outp fullShare (pooled0 x)) -∗ Q ⟨⟩))
      ⊢ wp frame (wpE (defs₀ (F := F)) Variants.none c none) E (cc0__pool_norm_kernel i inp hinp outp houtp) Q := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero zeroOff2 inb_S1024x256_S1024x256_0_0 y⟩),
    View.canon_unit_zero zeroOff2]
  exact congrArg k0_pay1 (View.ld_unit_zero zeroOff3 inb_S1024x8x256_S1024x8x256_0_0_0 (View.read (Elt F) inp.view f0))

/-! ## The proof data -/

/-- Region K's proof data on core c: the arrays as the region finds them; after the body at point t the input buffer still
    at its rows and the output buffer at their pooled rows; the invariant is the scoped rest and the generator register,
    which the body never touches; full shares; nothing owed. -/
def dat0 (c : Dev nD) : Dat τ (Elt F) Unit ℕ (UR sig nD τ) ℕ cfg0 c where
  A w := V c (Pipeline.arrRef spec0 w)
  after w t := match w with
    | ⟨0, _⟩ => rows0 V c t
    | ⟨1, _⟩ => pooled0 (rows0 V c t)
  Φ _ := Pipeline.ΦA spec0 c
  q _ := fullShare
  owed _ := 0

theorem arrays_dat0 (c : Dev nD) (w : Fin cfg0.W) : (dat0 V c).A w = V c (Pipeline.arrRef spec0 w) := by
  dsimp only [dat0]

theorem input_after_body0 (c : Dev nD) (t : Fin cfg0.N) : (dat0 V c).after 0 t = rows0 V c t := by dsimp only [dat0]
theorem output_after_body0 (c : Dev nD) (t : Fin cfg0.N) : (dat0 V c).after 1 t = pooled0 (rows0 V c t) := by dsimp only [dat0]

/-- The input window is fetched at every point, and its blocks are whole, so when the body starts its buffer reads the
    point's rows whatever it held before. -/
theorem input_before_body0 (c : Dev nD) (t : Fin cfg0.N) (d) : (dat0 V c).before 0 t d = rows0 V c t := by
  rw [(dat0 V c).before_fetched 0 t (fetch0_0 t) d]
  unfold Dat.fetched Dat.blockOf rows0
  rw [arrays_dat0]
  rfl

/-! ## The body obligation -/

/-- At every point the pipeline calls the body with the invariant, the core's debts and each window's current staging
    buffer; the input's reads the point's rows, so the body's triple applies, and the invariant and the debts pass
    through unread. -/
theorem body_obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.castSucc ∗ (dat0 V c).owesAt () t.castSucc
            ∗ owns (c : Thread nD τ) (st0_0 t) fullShare ((dat0 V c).after 0 t)
            ∗ owns (c : Thread nD τ) (st0_1 t) fullShare ((dat0 V c).after 1 t)))
  simp only [input_before_body0]
  rw [input_after_body0, output_after_body0]
  iintro ⟨HΦ, Ho, ⟨%d0, H0⟩, ⟨%d1, H1⟩⟩
  iapply (pool_body0 c Set.univ _ _ _ _ _ (rows0 V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! # Region K: the rows of main_arg1 pooled into main_v1 -/

/-- The rows point t pools: block t of the argument array as the region finds it. -/
def rows1 (c : Dev nD) (t : Fin cfg1.N) : ((cfg1.win 0).xblock (cfg1.grid.coords t)).Idx → Elt F (cfg1.win 0).elt :=
  ((cfg1.win 0).blk t).view.read (Elt F) (V c (Pipeline.arrRef spec1 0))

/-- What the body leaves in the output buffer when the input buffer reads x: the pooled, normalised rows. -/
def pooled1 (x : Vec F S1024x8x256 .f32) : Vec F S1024x256 .bf16 := k1_pay1 x

set_option maxHeartbeats 1000000 in
/-- The printed body, on whole staging memrefs, the input's reading x and the output's holding anything, returns with the
    input's as it was and the output's reading the pooled rows of x. The load of the output buffer before the store reads
    whatever was there and its value is dropped; the one store fills the buffer, so what was there is gone. -/
theorem pool_body1 (c : Dev nD) (E : Set ℕ) (i : grid1.Coords)
    (inp : Memref sig .tc .vmem S1024x8x256 .f32) (hinp : inp.IsWhole)
    (outp : Memref sig .tc .vmem S1024x256 .bf16) (houtp : outp.IsWhole)
    (x : Vec F S1024x8x256 .f32) (Q : PUnit → sProp 𝕄) :
    iprop(owns (c : Thread nD τ) inp fullShare x ∗ (∃ d, owns (c : Thread nD τ) outp fullShare d)
        ∗ (iprop(owns (c : Thread nD τ) inp fullShare x ∗ owns (c : Thread nD τ) outp fullShare (pooled1 x)) -∗ Q ⟨⟩))
      ⊢ wp frame (wpE (defs₀ (F := F)) Variants.none c none) E (cc1__pool_norm_kernel i inp hinp outp houtp) Q := by
  simp only [cc1__pool_norm_kernel_eq_skeleton]; unfold cc1__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero zeroOff2 inb_S1024x256_S1024x256_0_0 y⟩),
    View.canon_unit_zero zeroOff2]
  exact congrArg k1_pay1 (View.ld_unit_zero zeroOff3 inb_S1024x8x256_S1024x8x256_0_0_0 (View.read (Elt F) inp.view f0))

/-! ## The proof data -/

/-- Region K's proof data on core c: the arrays as the region finds them; after the body at point t the input buffer still
    at its rows and the output buffer at their pooled rows; the invariant is the scoped rest and the generator register,
    which the body never touches; full shares; nothing owed. -/
def dat1 (c : Dev nD) : Dat τ (Elt F) Unit ℕ (UR sig nD τ) ℕ cfg1 c where
  A w := V c (Pipeline.arrRef spec1 w)
  after w t := match w with
    | ⟨0, _⟩ => rows1 V c t
    | ⟨1, _⟩ => pooled1 (rows1 V c t)
  Φ _ := Pipeline.ΦA spec1 c
  q _ := fullShare
  owed _ := 0

theorem arrays_dat1 (c : Dev nD) (w : Fin cfg1.W) : (dat1 V c).A w = V c (Pipeline.arrRef spec1 w) := by
  dsimp only [dat1]

theorem input_after_body1 (c : Dev nD) (t : Fin cfg1.N) : (dat1 V c).after 0 t = rows1 V c t := by dsimp only [dat1]
theorem output_after_body1 (c : Dev nD) (t : Fin cfg1.N) : (dat1 V c).after 1 t = pooled1 (rows1 V c t) := by dsimp only [dat1]

/-- The input window is fetched at every point, and its blocks are whole, so when the body starts its buffer reads the
    point's rows whatever it held before. -/
theorem input_before_body1 (c : Dev nD) (t : Fin cfg1.N) (d) : (dat1 V c).before 0 t d = rows1 V c t := by
  rw [(dat1 V c).before_fetched 0 t (fetch1_0 t) d]
  unfold Dat.fetched Dat.blockOf rows1
  rw [arrays_dat1]
  rfl

/-! ## The body obligation -/

/-- At every point the pipeline calls the body with the invariant, the core's debts and each window's current staging
    buffer; the input's reads the point's rows, so the body's triple applies, and the invariant and the debts pass
    through unread. -/
theorem body_obligation1 (c : Dev nD) :
    BodyObligation (dat1 (F := F) V c) (defs₀ (F := F)) Variants.none () Set.univ := fun t => by
  rw [bigSep_W1, bigSep_W1]
  show iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) (fun _ =>
          iprop((dat1 V c).Φ t.castSucc ∗ (dat1 V c).owesAt () t.castSucc
            ∗ owns (c : Thread nD τ) (st1_0 t) fullShare ((dat1 V c).after 0 t)
            ∗ owns (c : Thread nD τ) (st1_1 t) fullShare ((dat1 V c).after 1 t)))
  simp only [input_before_body1]
  rw [input_after_body1, output_after_body1]
  iintro ⟨HΦ, Ho, ⟨%d0, H0⟩, ⟨%d1, H1⟩⟩
  iapply (pool_body1 c Set.univ _ _ _ _ _ (rows1 V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.Kernel.Hand

end
-- ==== Proof.LossStepK.lean ====
/- One grid point of the loss kernel as a function on its three row accumulators (the exponential sums, the positive
   similarities, the positive counts): which of the body's four conditionals hold at a point, and what the body's own
   arithmetic makes of the accumulators and the point's input blocks. -/
import proofs.«105816_j90091234001463_2_alg».proof.Proof.Gen.Kernel.Skeleton
import Idealize.ShloMosaic.Lib.Pipeline.FrameBody

noncomputable section

namespace Cert.Kernel.Hand

open Cert.Kernel Cert.Kernel.Gen
open Idealize.ShloMosaic

variable {F : FTy → Type} [FloatOps F]

/-- The first column tile of a row block (grid coordinate 1 is 0): the accumulators are reset there. -/
abbrev isFirst (i : grid2.Coords) : Prop :=
  (Scalar.cmpi .ne (Scalar.extui (Scalar.cmpi .eq (BitVec.ofNat 32 (i 1).val) 0#32)) 0#32) = 1#1

/-- The tile's row range [512·i₀, 512·i₀+512) and column range [1024·i₁, 1024·i₁+1024) overlap: the diagonal may cross it. -/
abbrev onDiag (i : grid2.Coords) : Prop :=
  (Scalar.cmpi .ne (Scalar.extui (Scalar.andi
      (Scalar.cmpi .slt (Scalar.muli (BitVec.ofNat 32 (i 0).val) 512#32) (Scalar.addi (Scalar.muli (BitVec.ofNat 32 (i 1).val) 1024#32) 1024#32))
      (Scalar.cmpi .slt (Scalar.muli (BitVec.ofNat 32 (i 1).val) 1024#32) (Scalar.addi (Scalar.muli (BitVec.ofNat 32 (i 0).val) 512#32) 512#32)))) 0#32) = 1#1

/-- The negation of the overlap test, as the body computes it (xor with true). -/
abbrev offDiag (i : grid2.Coords) : Prop :=
  (Scalar.cmpi .ne (Scalar.extui (Scalar.xori (Scalar.andi
      (Scalar.cmpi .slt (Scalar.muli (BitVec.ofNat 32 (i 0).val) 512#32) (Scalar.addi (Scalar.muli (BitVec.ofNat 32 (i 1).val) 1024#32) 1024#32))
      (Scalar.cmpi .slt (Scalar.muli (BitVec.ofNat 32 (i 1).val) 1024#32) (Scalar.addi (Scalar.muli (BitVec.ofNat 32 (i 0).val) 512#32) 512#32))) 1#1)) 0#32) = 1#1

/-- The last column tile of a row block (grid coordinate 1 is 3): the row losses are written there. -/
abbrev isLast (i : grid2.Coords) : Prop := k2_cond4 i = 1#1

/-- The row block of the first operand, whole. -/
abbrev wholeA : Rect S512x256 := Rect.unit (s := S512x256) ![0, 0] S512x256.size inb_S512x256_S512x256_0_0
/-- The label tile, whole. -/
abbrev wholeL : Rect S512x1024 := Rect.unit (s := S512x1024) ![0, 0] S512x1024.size inb_S512x1024_S512x1024_0_0
/-- The tile of the resident second operand the point reads: rows 1024·i₁ … 1024·i₁+1023. -/
abbrev tileR (i : grid2.Coords) : Rect S4096x256 := Rect.unit (s := S4096x256) (k2_off1 i) S1024x256.size (k2_off1_inb i)

/-- The three row accumulators: exponential sums, positive similarities, positive counts. -/
abbrev Acc (F : FTy → Type) : Type := Vec F S512x1 .f32 × Vec F S512x1 .f32 × Vec F S512x1 .f32

/-- The accumulators after the reset. -/
def accZero : Acc F := (k2_pay1 (F := F), k2_pay2 (F := F), k2_pay3 (F := F))

/-- A tile the diagonal may cross: the diagonal entries are masked out of all three partial sums. -/
def accOn (i : grid2.Coords) (a : Vec F S512x256 .bf16) (b : Vec F S4096x256 .bf16) (l : Vec F S512x1024 .i32) (s : Acc F) : Acc F :=
  (k2_pay8 i (View.ld a wholeA) (View.ld b (tileR i)) s.1,
   k2_pay9 i (View.ld a wholeA) (View.ld b (tileR i)) (View.ld l wholeL) s.2.1,
   k2_pay10 i (View.ld l wholeL) s.2.2)

/-- A tile off the diagonal band: no mask. -/
def accOff (i : grid2.Coords) (a : Vec F S512x256 .bf16) (b : Vec F S4096x256 .bf16) (l : Vec F S512x1024 .i32) (s : Acc F) : Acc F :=
  (k2_pay11 (View.ld a wholeA) (View.ld b (tileR i)) s.1,
   k2_pay12 (View.ld a wholeA) (View.ld b (tileR i)) (View.ld l wholeL) s.2.1,
   k2_pay13 (View.ld l wholeL) s.2.2)

/-- One grid point: reset at the first column tile, then this tile's partial sums. -/
def accStep (i : grid2.Coords) (a : Vec F S512x256 .bf16) (b : Vec F S4096x256 .bf16) (l : Vec F S512x1024 .i32) (s : Acc F) : Acc F :=
  if onDiag i then accOn i a b l (if isFirst i then accZero else s) else accOff i a b l (if isFirst i then accZero else s)

/-- The row losses written at the last column tile: count · log(exponential sum + ε₈) − positive similarities. -/
def rowOut (s : Acc F) : Vec F S512x1 .f32 := k2_pay14 s.1 s.2.2 s.2.1

end Cert.Kernel.Hand

end
-- ==== Proof.LossRunK.lean ====
/- The loss kernel's body run at one grid point, case by case of its four conditionals: what the three row accumulators
   (the exponential sums, the positive similarities, the positive counts) and the two output blocks hold afterwards,
   as the body's own arithmetic of what they held before and of the point's input blocks. -/
import proofs.«105816_j90091234001463_2_alg».proof.Proof.Gen.Kernel.Launch
import proofs.«105816_j90091234001463_2_alg».proof.Proof.LossStepK
import proofs.«105816_j90091234001463_2_alg».proof.Proof.Gen.Kernel.Skeleton
import proofs.«105816_j90091234001463_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rS : Rect S512x1 := Rect.unit (s := S512x1) ![0, 0] S512x1.size inb_S512x1_S512x1_0_0

theorem hzS : (![0, 0] : Fin S512x1.rank → Nat) = fun _ => 0 := by
  funext a; fin_cases a <;> rfl

theorem mem_rS (y : S512x1.Idx) : y ∈ rS.set := by
  show y ∈ (Rect.unit (s := S512x1) ![0, 0] S512x1.size inb_S512x1_S512x1_0_0).set
  rw [show (Rect.unit (s := S512x1) ![0, 0] S512x1.size inb_S512x1_S512x1_0_0) = Rect.whole S512x1 from by
    simp only [hzS]; rfl]
  rw [Rect.set_whole]; exact Finset.mem_univ y

/-- A whole-buffer store, last, leaves its payload whatever was stored before. -/
theorem read_writes_head {κ : Kind} {sp : Space} (v : View sig κ sp S512x1 .f32) (f : v.ty.Contents (Elt F))
    (w : S512x1.Idx → Elt F .f32) (L : List (View.Piece (Elt F) S512x1 .f32)) :
    v.read (Elt F) (v.writes (Elt F) f (⟨rS, w⟩ :: L)) = w :=
  (View.read_writes_eq_canon v f (⟨rS, w⟩ :: L) (fun y => ⟨⟨rS, w⟩, List.mem_cons_self, mem_rS y⟩)).trans (View.canon_cons_unit_zero hzS _ w L)

/-- A whole-buffer load after a whole-buffer store reads the stored payload. -/
theorem readCov_head {κ : Kind} {sp : Space} (v : View sig κ sp S512x1 .f32)
    (w : S512x1.Idx → Elt F .f32) (L : List (View.Piece (Elt F) S512x1 .f32)) :
    v.readCov (⟨rS, w⟩ :: L) rS.toLoadRect = w := by
  rw [View.readCov_eq_canon_ld v (⟨rS, w⟩ :: L) rS (fun y => ⟨⟨rS, w⟩, List.mem_cons_self, mem_rS y⟩), View.canon_cons_unit_zero hzS, View.ld_unit_zero (S := S512x1) hzS]

set_option maxHeartbeats 8000000 in
/-- The body at a point that is the first column tile of its row block, on the diagonal band:
    the three row accumulators start from zero, take this tile's partial sums. -/
theorem run_first_on (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : isFirst i) (h2 : onDiag i) (h3 : ¬ offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay8 i (View.ld x2 (Rect.unit (s := S512x256) ![0, 0] S512x256.size inb_S512x256_S512x256_0_0)) (View.ld x3 (tileR i)) (k2_pay1 (F := F)))
            ∗ owns (c : Thread nD τ) arg8 fullShare (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) (k2_pay2 (F := F)))
            ∗ owns (c : Thread nD τ) arg9 fullShare (k2_pay10 i (View.ld x4 (Rect.unit (s := S512x1024) ![0, 0] S512x1024.size inb_S512x1024_S512x1024_0_0)) (k2_pay3 (F := F)))) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is the first column tile of its row block, off the diagonal band:
    the three row accumulators start from zero, take this tile's partial sums. -/
theorem run_first_off (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : isFirst i) (h2 : ¬ onDiag i) (h3 : offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay11 (View.ld x2 (Rect.unit (s := S512x256) ![0, 0] S512x256.size inb_S512x256_S512x256_0_0)) (View.ld x3 (tileR i)) (k2_pay1 (F := F)))
            ∗ owns (c : Thread nD τ) arg8 fullShare (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) (k2_pay2 (F := F)))
            ∗ owns (c : Thread nD τ) arg9 fullShare (k2_pay13 (View.ld x4 (Rect.unit (s := S512x1024) ![0, 0] S512x1024.size inb_S512x1024_S512x1024_0_0)) (k2_pay3 (F := F)))) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is neither the first nor the last column tile of its row block, on the diagonal band:
    the three row accumulators continue from what the tile before left, take this tile's partial sums. -/
theorem run_mid_on (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : onDiag i) (h3 : ¬ offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay8 i (View.ld x2 (Rect.unit (s := S512x256) ![0, 0] S512x256.size inb_S512x256_S512x256_0_0)) (View.ld x3 (tileR i)) D)
            ∗ owns (c : Thread nD τ) arg8 fullShare (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay10 i (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is neither the first nor the last column tile of its row block, off the diagonal band:
    the three row accumulators continue from what the tile before left, take this tile's partial sums. -/
theorem run_mid_off (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : ¬ onDiag i) (h3 : offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay11 (View.ld x2 (Rect.unit (s := S512x256) ![0, 0] S512x256.size inb_S512x256_S512x256_0_0)) (View.ld x3 (tileR i)) D)
            ∗ owns (c : Thread nD τ) arg8 fullShare (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay13 (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is the last column tile of its row block, on the diagonal band:
    the three row accumulators continue from what the tile before left, take this tile's partial sums, and the row losses and counts are written out. -/
theorem run_last_on (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : onDiag i) (h3 : ¬ offDiag i) (h4 : isLast i)
    (x2 : Vec F S512x256 .bf16) (x3 : Vec F S4096x256 .bf16) (x4 : Vec F S512x1024 .i32) (D P C : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare (k2_pay14 (k2_pay8 i (View.ld x2 (Rect.unit (s := S512x256) ![0, 0] S512x256.size inb_S512x256_S512x256_0_0)) (View.ld x3 (tileR i)) D) (k2_pay10 i (View.ld x4 (Rect.unit (s := S512x1024) ![0, 0] S512x1024.size inb_S512x1024_S512x1024_0_0)) C) (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)) ∗ owns (c : Thread nD τ) arg6 fullShare (k2_pay10 i (View.ld x4 (Rect.unit (s := S512x1024) ![0, 0] S512x1024.size inb_S512x1024_S512x1024_0_0)) C)
            ∗ owns (c : Thread nD τ) arg7 fullShare (k2_pay8 i (View.ld x2 (Rect.unit (s := S512x256) ![0, 0] S512x256.size inb_S512x256_S512x256_0_0)) (View.ld x3 (tileR i)) D)
            ∗ owns (c : Thread nD τ) arg8 fullShare (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay10 i (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_head _ _ _ _).trans ?_
    sl_unfold_run_names
    repeat rw [readCov_head]
    try simp only [View.readAt_eq_ld, View.ld_unit_zero (S := S512x1) hzS]
    try rfl
  isplitl [H6]
  · iexists _; isplitr
    swap; · iexact H6
    ipureintro
    refine (read_writes_head _ _ _ _).trans ?_
    sl_unfold_run_names
    repeat rw [readCov_head]
    try simp only [View.readAt_eq_ld, View.ld_unit_zero (S := S512x1) hzS]
    try rfl
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is the last column tile of its row block, off the diagonal band:
    the three row accumulators continue from what the tile before left, take this tile's partial sums, and the row losses and counts are written out. -/
theorem run_last_off (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : ¬ onDiag i) (h3 : offDiag i) (h4 : isLast i)
    (x2 : Vec F S512x256 .bf16) (x3 : Vec F S4096x256 .bf16) (x4 : Vec F S512x1024 .i32) (D P C : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare (k2_pay14 (k2_pay11 (View.ld x2 (Rect.unit (s := S512x256) ![0, 0] S512x256.size inb_S512x256_S512x256_0_0)) (View.ld x3 (tileR i)) D) (k2_pay13 (View.ld x4 (Rect.unit (s := S512x1024) ![0, 0] S512x1024.size inb_S512x1024_S512x1024_0_0)) C) (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)) ∗ owns (c : Thread nD τ) arg6 fullShare (k2_pay13 (View.ld x4 (Rect.unit (s := S512x1024) ![0, 0] S512x1024.size inb_S512x1024_S512x1024_0_0)) C)
            ∗ owns (c : Thread nD τ) arg7 fullShare (k2_pay11 (View.ld x2 (Rect.unit (s := S512x256) ![0, 0] S512x256.size inb_S512x256_S512x256_0_0)) (View.ld x3 (tileR i)) D)
            ∗ owns (c : Thread nD τ) arg8 fullShare (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay13 (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_head _ _ _ _).trans ?_
    sl_unfold_run_names
    repeat rw [readCov_head]
    try simp only [View.readAt_eq_ld, View.ld_unit_zero (S := S512x1) hzS]
    try rfl
  isplitl [H6]
  · iexists _; isplitr
    swap; · iexact H6
    ipureintro
    refine (read_writes_head _ _ _ _).trans ?_
    sl_unfold_run_names
    repeat rw [readCov_head]
    try simp only [View.readAt_eq_ld, View.ld_unit_zero (S := S512x1) hzS]
    try rfl
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

end Cert.Kernel.Hand

end
-- ==== Proof.LossDatK.lean ====
/- The loss pipeline's proof data: the accumulators point by point, the invariant that carries them between points,
   and the body's obligation at every point. -/
import proofs.«105816_j90091234001463_2_alg».proof.Proof.Gen.Kernel.Launch
import proofs.«105816_j90091234001463_2_alg».proof.Proof.LossRunK
import proofs.«105816_j90091234001463_2_alg».proof.Proof.Gen.Kernel.Skeleton
import proofs.«105816_j90091234001463_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulators point by point -/

/-- The three row accumulators after the body at position n: this point's step of what the point before left
    (at the very first point, of the reset values: the first point is a first column tile, so the step ignores them). -/
def accAt (c : Dev nD) : (n : ℕ) → n < cfg2.N → Acc F
  | 0, h => accStep (grid2.coords ⟨0, h⟩) (blk2 V c 0 ⟨0, h⟩) (blk2 V c 1 ⟨0, h⟩) (blk2 V c 2 ⟨0, h⟩) accZero
  | n + 1, h => accStep (grid2.coords ⟨n + 1, h⟩) (blk2 V c 0 ⟨n + 1, h⟩) (blk2 V c 1 ⟨n + 1, h⟩) (blk2 V c 2 ⟨n + 1, h⟩)
      (accAt c n (Nat.lt_of_succ_lt h))

/-- The scratch operands: whole scoped buffers of the kernel's own. -/
abbrev scrD : Memref sig .tc .vmem S512x1 .f32 := Memref.whole cc2_scratch0
abbrev scrP : Memref sig .tc .vmem S512x1 .f32 := Memref.whole cc2_scratch1
abbrev scrC : Memref sig .tc .vmem S512x1 .f32 := Memref.whole cc2_scratch2

/-- The region invariant before position n: before the first point the scoped rest with every scratch at anything;
    afterwards the three accumulators at what the point before left, the other regions' staging buffers and the
    generator register at anything. -/
def PhiL (c : Dev nD) : (n : ℕ) → n ≤ cfg2.N → sProp 𝕄
  | 0, _ => Pipeline.ΦA spec2 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scrD fullShare (accAt V c n hn).1
      ∗ owns (c : Thread nD τ) scrP fullShare (accAt V c n hn).2.1 ∗ owns (c : Thread nD τ) scrC fullShare (accAt V c n hn).2.2)
      ∗ (∃ r, prngReg c r))

/-! ## The pipeline's proof data -/

/-- The proof data of the loss pipeline on core c: the arrays as the region finds them; after the body at point t each
    input's buffer at its block, the two outputs' at the row losses and the counts of the accumulators then; the invariant
    PhiL; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => rowOut (accAt V c t.val t.isLt)
    | ⟨4, _⟩ => (accAt V c t.val t.isLt).2.2
  Φ t := PhiL V c t.val (Nat.le_of_lt_succ t.isLt)
  q _ := fullShare
  owed _ := 0

theorem A_eq2 (c : Dev nD) (w : Fin cfg2.W) : (dat2 V c).A w = V c (Pipeline.arrRef spec2 w) := by
  dsimp only [dat2]

/-! ## Facts decided over the 32 grid points -/

theorem off_iff_not_on : ∀ t : Fin cfg2.N, offDiag (grid2.coords t) ↔ ¬ onDiag (grid2.coords t) :=
  (by decide +kernel : ∀ t : Fin grid2.N, offDiag (grid2.coords t) ↔ ¬ onDiag (grid2.coords t))
theorem first_not_last : ∀ t : Fin cfg2.N, isFirst (grid2.coords t) → ¬ isLast (grid2.coords t) :=
  (by decide +kernel : ∀ t : Fin grid2.N, isFirst (grid2.coords t) → ¬ isLast (grid2.coords t))
theorem first_at_zero : ∀ t : Fin cfg2.N, t.val = 0 → isFirst (grid2.coords t) :=
  (by decide +kernel : ∀ t : Fin grid2.N, t.val = 0 → isFirst (grid2.coords t))
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem idle2_3 : ∀ t : Fin cfg2.N, ¬ isLast (grid2.coords t) → cfg2.idle 3 (grid2.coords t) = true := by decide +kernel
theorem idle2_4 : ∀ t : Fin cfg2.N, ¬ isLast (grid2.coords t) → cfg2.idle 4 (grid2.coords t) = true := by decide +kernel
theorem noFlush2_3 : ∀ t : Fin cfg2.N, ¬ isLast (grid2.coords t) → (cfg2.win 3).flush t = false := by decide +kernel
theorem noFlush2_4 : ∀ t : Fin cfg2.N, ¬ isLast (grid2.coords t) → (cfg2.win 4).flush t = false := by decide +kernel
theorem live2_3 : ∀ t : Fin cfg2.N, isLast (grid2.coords t) → cfg2.idle 3 (grid2.coords t) = false := by decide +kernel
theorem live2_4 : ∀ t : Fin cfg2.N, isLast (grid2.coords t) → cfg2.idle 4 (grid2.coords t) = false := by decide +kernel

/-! ## What the proof data says, window by window -/

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = rowOut (accAt V c t.val t.isLt) := by dsimp only [dat2]
theorem after2_4 (c : Dev nD) (t : Fin cfg2.N) : (dat2 V c).after 4 t = (accAt V c t.val t.isLt).2.2 := by dsimp only [dat2]

/-- Each input's current staging buffer holds its block at every point, fetched there or not: the body leaves inputs in place. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [A_eq2]; try rfl) t d).trans
    (by unfold Dat.fetched Dat.blockOf blk2; rw [A_eq2]; try rfl)

/-! ## The invariant's two forms -/

/-- The class invariant with the three scratch operands as memrefs owned at some contents. -/
theorem PhiA2_eq (c : Dev nD) :
    (Pipeline.ΦA spec2 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scrD fullShare d) ∗ (∃ d, owns (c : Thread nD τ) scrP fullShare d) ∗ (∃ d, owns (c : Thread nD τ) scrC fullShare d)) ∗ (∃ r, prngReg c r)) := by
  unfold Pipeline.ΦA; rw [scopedRest2_eq]; simp only [scrD, scrP, scrC, owns_whole]; try rfl

theorem PhiL_zero (c : Dev nD) (n : ℕ) (h : n ≤ cfg2.N) (hz : n = 0) : PhiL V c n h = Pipeline.ΦA spec2 c := by
  subst hz; rfl

theorem PhiL_succ (c : Dev nD) (n : ℕ) (hn : n < cfg2.N) :
    PhiL V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scrD fullShare (accAt V c n hn).1
      ∗ owns (c : Thread nD τ) scrP fullShare (accAt V c n hn).2.1 ∗ owns (c : Thread nD τ) scrC fullShare (accAt V c n hn).2.2)
      ∗ (∃ r, prngReg c r)) := rfl

theorem PhiL_pos (c : Dev nD) (n : ℕ) (h : n ≤ cfg2.N) (hz : n ≠ 0) :
    PhiL V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scrD fullShare (accAt V c (n - 1) (by omega)).1
      ∗ owns (c : Thread nD τ) scrP fullShare (accAt V c (n - 1) (by omega)).2.1 ∗ owns (c : Thread nD τ) scrC fullShare (accAt V c (n - 1) (by omega)).2.2)
      ∗ (∃ r, prngReg c r)) := by
  cases n with
  | zero => exact absurd rfl hz
  | succ n => rfl

theorem PhiL_castSucc (c : Dev nD) (t : Fin cfg2.N) :
    (dat2 V c).Φ t.castSucc = PhiL V c t.val (Nat.le_of_lt t.isLt) := by
  dsimp only [dat2]; simp only [Fin.coe_castSucc]

/-! ## The accumulators at a point, as one step of the point before -/

/-- What the point before left in the accumulators (the reset values before the very first point). -/
def prevAcc (c : Dev nD) (t : Fin cfg2.N) : Acc F :=
  if h : t.val = 0 then accZero else accAt V c (t.val - 1) (by have := t.isLt; omega)

theorem accAt_step (c : Dev nD) (t : Fin cfg2.N) :
    accAt V c t.val t.isLt = accStep (grid2.coords t) (blk2 V c 0 t) (blk2 V c 1 t) (blk2 V c 2 t) (prevAcc V c t) := by
  obtain ⟨n, hn⟩ := t
  cases n with
  | zero => unfold prevAcc; rw [dif_pos rfl]; rfl
  | succ n => unfold prevAcc; rw [dif_neg (Nat.succ_ne_zero n)]; rfl

theorem prevAcc_pos (c : Dev nD) (t : Fin cfg2.N) (hz : t.val ≠ 0) :
    prevAcc V c t = accAt V c (t.val - 1) (by have := t.isLt; omega) := by
  unfold prevAcc; rw [dif_neg hz]

theorem accStep_first_on {i : grid2.Coords} (h1 : isFirst i) (h2 : onDiag i) (a : Vec F S512x256 .bf16) (b : Vec F S4096x256 .bf16) (l : Vec F S512x1024 .i32) (s : Acc F) :
    accStep i a b l s = accOn i a b l accZero := by unfold accStep; rw [if_pos h2, if_pos h1]
theorem accStep_first_off {i : grid2.Coords} (h1 : isFirst i) (h2 : ¬ onDiag i) (a : Vec F S512x256 .bf16) (b : Vec F S4096x256 .bf16) (l : Vec F S512x1024 .i32) (s : Acc F) :
    accStep i a b l s = accOff i a b l accZero := by unfold accStep; rw [if_neg h2, if_pos h1]
theorem accStep_next_on {i : grid2.Coords} (h1 : ¬ isFirst i) (h2 : onDiag i) (a : Vec F S512x256 .bf16) (b : Vec F S4096x256 .bf16) (l : Vec F S512x1024 .i32) (s : Acc F) :
    accStep i a b l s = accOn i a b l s := by unfold accStep; rw [if_pos h2, if_neg h1]
theorem accStep_next_off {i : grid2.Coords} (h1 : ¬ isFirst i) (h2 : ¬ onDiag i) (a : Vec F S512x256 .bf16) (b : Vec F S4096x256 .bf16) (l : Vec F S512x1024 .i32) (s : Acc F) :
    accStep i a b l s = accOff i a b l s := by unfold accStep; rw [if_neg h2, if_neg h1]

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 16000000 in
/-- The body at any point. The inputs' memrefs hold their blocks; the point's four conditions select the case; the invariant
    hands the body the three accumulators at what the point before left (at anything before the first point, where they
    are reset) and takes them back at this point's step; an output block is written only at a last column tile and is
    handed back untouched elsewhere; the other regions' buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiL V c (t.val + 1) t.isLt from rfl, PhiL_succ]
  rw [show (dat2 V c).leavesExact 0 t = owns (c : Thread nD τ) (st2_0 t) fullShare ((dat2 V c).after 0 t) from by
        unfold Dat.leavesExact; rw [live2_0 t], after2_0,
      show (dat2 V c).leavesExact 1 t = owns (c : Thread nD τ) (st2_1 t) fullShare ((dat2 V c).after 1 t) from by
        unfold Dat.leavesExact; rw [live2_1 t], after2_1,
      show (dat2 V c).leavesExact 2 t = owns (c : Thread nD τ) (st2_2 t) fullShare ((dat2 V c).after 2 t) from by
        unfold Dat.leavesExact; rw [live2_2 t], after2_2]
  by_cases h1 : isFirst (grid2.coords t)
  · have h4 : ¬ isLast (grid2.coords t) := first_not_last t h1
    rw [Dat.leavesExact_idle (dat2 V c) 3 t (idle2_3 t h4) (noFlush2_3 t h4),
      Dat.leavesExact_idle (dat2 V c) 4 t (idle2_4 t h4) (noFlush2_4 t h4)]
    rw [accAt_step V c t]
    by_cases h2 : onDiag (grid2.coords t)
    · have h3 : ¬ offDiag (grid2.coords t) := fun h => (off_iff_not_on t).mp h h2
      by_cases hz : t.val = 0
      ·
        rw [accStep_first_on h1 h2]; unfold accOn accZero; dsimp only
        rw [PhiL_castSucc V c t, PhiL_zero V c _ _ hz, PhiA2_eq]
        iintro ⟨⟨⟨S0, S1, S2, S3, S4, S5, S6, S7, ⟨%D, HD⟩, ⟨%P, HP⟩, ⟨%C, HC⟩⟩, Hg⟩, Ho, ⟨%d0, H0⟩, ⟨%d1, H1⟩, ⟨%d2, H2⟩, ⟨%d3, H3⟩, ⟨%d4, H4⟩⟩
        iapply (run_first_on c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
      ·
        rw [accStep_first_on h1 h2]; unfold accOn accZero; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_first_on c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
    · have h3 : offDiag (grid2.coords t) := (off_iff_not_on t).mpr h2
      by_cases hz : t.val = 0
      ·
        rw [accStep_first_off h1 h2]; unfold accOff accZero; dsimp only
        rw [PhiL_castSucc V c t, PhiL_zero V c _ _ hz, PhiA2_eq]
        iintro ⟨⟨⟨S0, S1, S2, S3, S4, S5, S6, S7, ⟨%D, HD⟩, ⟨%P, HP⟩, ⟨%C, HC⟩⟩, Hg⟩, Ho, ⟨%d0, H0⟩, ⟨%d1, H1⟩, ⟨%d2, H2⟩, ⟨%d3, H3⟩, ⟨%d4, H4⟩⟩
        iapply (run_first_off c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
      ·
        rw [accStep_first_off h1 h2]; unfold accOff accZero; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_first_off c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun h => h1 (first_at_zero t h)
    by_cases h4 : isLast (grid2.coords t)
    · rw [show (dat2 V c).leavesExact 3 t = owns (c : Thread nD τ) (st2_3 t) fullShare ((dat2 V c).after 3 t) from by
            unfold Dat.leavesExact; rw [live2_3 t h4], after2_3,
          show (dat2 V c).leavesExact 4 t = owns (c : Thread nD τ) (st2_4 t) fullShare ((dat2 V c).after 4 t) from by
            unfold Dat.leavesExact; rw [live2_4 t h4], after2_4]
      rw [accAt_step V c t]
      by_cases h2 : onDiag (grid2.coords t)
      · have h3 : ¬ offDiag (grid2.coords t) := fun h => (off_iff_not_on t).mp h h2
        rw [accStep_next_on h1 h2, prevAcc_pos V c t hz]; unfold accOn rowOut; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_last_on c Set.univ (grid2.coords t) _ _ _ _ _ _ _ _ _ _ _ _ _ _ _ _ h1 h2 h3 h4 (blk2 V c 0 t) (blk2 V c 1 t) (blk2 V c 2 t) _ _ _ _)
        isplitl [H0]; · iexact H0
        isplitl [H1]; · iexact H1
        isplitl [H2]; · iexact H2
        isplitl [H3]; · iexists _; iexact H3
        isplitl [H4]; · iexists _; iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexact H3
        iexact H4
      · have h3 : offDiag (grid2.coords t) := (off_iff_not_on t).mpr h2
        rw [accStep_next_off h1 h2, prevAcc_pos V c t hz]; unfold accOff rowOut; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_last_off c Set.univ (grid2.coords t) _ _ _ _ _ _ _ _ _ _ _ _ _ _ _ _ h1 h2 h3 h4 (blk2 V c 0 t) (blk2 V c 1 t) (blk2 V c 2 t) _ _ _ _)
        isplitl [H0]; · iexact H0
        isplitl [H1]; · iexact H1
        isplitl [H2]; · iexact H2
        isplitl [H3]; · iexists _; iexact H3
        isplitl [H4]; · iexists _; iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexact H3
        iexact H4
    · rw [Dat.leavesExact_idle (dat2 V c) 3 t (idle2_3 t h4) (noFlush2_3 t h4),
        Dat.leavesExact_idle (dat2 V c) 4 t (idle2_4 t h4) (noFlush2_4 t h4)]
      rw [accAt_step V c t]
      by_cases h2 : onDiag (grid2.coords t)
      · have h3 : ¬ offDiag (grid2.coords t) := fun h => (off_iff_not_on t).mp h h2
        rw [accStep_next_on h1 h2, prevAcc_pos V c t hz]; unfold accOn; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_mid_on c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
      · have h3 : offDiag (grid2.coords t) := (off_iff_not_on t).mpr h2
        rw [accStep_next_off h1 h2, prevAcc_pos V c t hz]; unfold accOff; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_mid_off c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiL V c 0 (Nat.zero_le _) from rfl, PhiL_zero V c 0 _ rfl]

/-- After the last point the invariant gives the class invariant back: the accumulators' named contents are forgotten. -/
theorem hout2 (c : Dev nD) : (dat2 (F := F) V c).Φ (Fin.last cfg2.N) ⊢ Pipeline.ΦA spec2 c := by
  rw [show (dat2 V c).Φ (Fin.last cfg2.N) = PhiL V c cfg2.N (le_refl _) from rfl,
    PhiL_pos V c _ _ (by rw [show cfg2.N = 32 from N_2]; decide), PhiA2_eq]
  iintro ⟨⟨S0, S1, S2, S3, S4, S5, S6, S7, HD, HP, HC⟩, Hg⟩
  isplitr [Hg]
  ·
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [HD]; · iexists _; iexact HD
    isplitl [HP]; · iexists _; iexact HP
    iexists _; iexact HC
  · iexact Hg

end Cert.Kernel.Hand

end
-- ==== Proof.KernelRunK.lean ====
/-
  The run of @main over its six segments: the three kernel regions, then the three stretches of host operations
  that turn the loss region's two result arrays into the scalar loss.

  Between two segments every unscoped buffer of a core is held at contents named here, a fold from the launch
  memory: a region replaces its windows' arrays by what its write-backs leave and keeps every other buffer; a
  host stretch applies its operations. Each region is entered from the contents the segment before it left, its
  proof data stated at exactly those contents. The run then says what every unscoped buffer holds at the end;
  the argument arrays, which no segment writes, hold what they held at launch.
-/
import proofs.«105816_j90091234001463_2_alg».proof.Proof.PoolFrameK
import proofs.«105816_j90091234001463_2_alg».proof.Proof.LossDatK
import proofs.«105816_j90091234001463_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)
/-- The same read at the TensorCore's references: what the first pooling region is entered from. -/
abbrev E0 : (c : Dev nD) → (b : Ref sig .tc) → Buf (Elt F) ((c : Thread nD τ).loc b) := fun c b => W0 m c b

/-- After the first pooling region: its two arrays at what the pipeline leaves, every other buffer as it was. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same at the TensorCore's references: what the second pooling region is entered from. -/
abbrev E1 : (c : Dev nD) → (b : Ref sig .tc) → Buf (Elt F) ((c : Thread nD τ).loc b) := fun c b => W1 m c b

/-- After the second pooling region. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same at the TensorCore's references: what the loss region is entered from. -/
abbrev E2 : (c : Dev nD) → (b : Ref sig .tc) → Buf (Elt F) ((c : Thread nD τ).loc b) := fun c b => W2 m c b

/-- After the loss region. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same at the TensorCore's references. -/
abbrev E3 : (c : Dev nD) → (b : Ref sig .tc) → Buf (Elt F) ((c : Thread nD τ).loc b) := fun c b => W3 m c b

/-- After the two sums over the row losses and the counts, the comparison, the clamp and the quotient. -/
abbrev W4 : Dev nD → Valuation τ sig (Elt F) := fun c => StableHlo.after hostOps3 (W3 m c)
/-- After the selection between the quotient and zero. -/
abbrev W5 : Dev nD → Valuation τ sig (Elt F) := fun c => StableHlo.after hostOps3_1 (W4 m c)
/-- After the weighting: the end of @main. -/
abbrev W6 : Dev nD → Valuation τ sig (Elt F) := fun c => StableHlo.after hostOps3_2 (W5 m c)

/-! ### Each region's arrays and the rest, at its exit -/

theorem exit_arrays0 (c : Dev nD) (w : Fin cfg0.W) : (dat0 (E0 m) c).arrAt w cfg0.N = E1 m c (Pipeline.arrRef spec0 w) :=
  (W1_arr m c w).symm
theorem exit_rest0 (c : Dev nD) : ∀ b, b ∉ Finset.univ.image (Pipeline.arrRef spec0) → E1 m c b = E0 m c b :=
  fun b hb => W1_of_ne m c b fun w e => hb (Finset.mem_image.mpr ⟨w, Finset.mem_univ _, e⟩)
theorem exit_arrays1 (c : Dev nD) (w : Fin cfg1.W) : (dat1 (E1 m) c).arrAt w cfg1.N = E2 m c (Pipeline.arrRef spec1 w) :=
  (W2_arr m c w).symm
theorem exit_rest1 (c : Dev nD) : ∀ b, b ∉ Finset.univ.image (Pipeline.arrRef spec1) → E2 m c b = E1 m c b :=
  fun b hb => W2_of_ne m c b fun w e => hb (Finset.mem_image.mpr ⟨w, Finset.mem_univ _, e⟩)
theorem exit_arrays2 (c : Dev nD) (w : Fin cfg2.W) : (dat2 (E2 m) c).arrAt w cfg2.N = E3 m c (Pipeline.arrRef spec2 w) :=
  (W3_arr m c w).symm
theorem exit_rest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-! ## The proof data of the three pipelines, and what rides beside the buffers -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

abbrev noVariants : Variants := Variants.none
/-- No core owes another anything, so no level is assigned. -/
abbrev noPairs : GSem nD τ sig → Finset Unit := fun _ => ∅
abbrev noLevel : GSem nD τ sig → Unit → ℕ := fun _ _ => 0

/-- Beside the buffers, through every segment: the core's generator register at some state and the core owing nothing. -/
abbrev rider (c : Dev nD) : sProp 𝕄 :=
  iprop((∃ r, prngReg c r) ∗ ∃ W, owes (c : Thread nD τ) (0 : CellTallies nD τ sig Unit) W)

/-- The thread state at a boundary: every unscoped buffer at the boundary's contents, and the rider. -/
abbrev stateAt (W : Dev nD → Valuation τ sig (Elt F)) (c : Dev nD) : sProp 𝕄 :=
  iprop(StableHlo.held (c : Thread nD τ) (Pipeline.ucRefs τ sig) (W c) ∗ rider c)

/-- A stretch of host operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

/-- An unscoped TensorCore reference is among those the thread state holds. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- REGION 0 as a segment: entered with every unscoped buffer at W0, left with them at W1. At the entry the
    pipeline's arrays are taken out of the unscoped buffers at the proof data's entry contents and the other buffers
    bypass the region; the generator register goes into the region invariant and comes back; at the exit the arrays, at
    what the write-backs left, rejoin the bypassing buffers. The core owes nothing throughout and the kernel has no
    semaphore of its own. -/
def region0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel 0 fun _ _ => rfl
  pre c := stateAt (W0 m) c
  post c := stateAt (W1 m) c
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have take := Pipeline.arrays_of_unscopedBufs (p := 0) (pcfgs (F := F)) adm (pdats m) launch0.win launch0.arr_whole c
      ((pdats m 0 c).share_full fun _ => rfl) (E0 m c) fun _ => rfl
    rw [Pipeline.unscopedBufs_held] at take
    iintro ⟨⟨Hbufs, Hreg, Howes⟩, -, -⟩
    ihave Hsplit := take $$ Hbufs
    icases Hsplit with ⟨Harr, Hbypass⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hbypass
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have join := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit_arrays0 m c) (exit_rest0 m c)
    rw [Pipeline.unscopedBufs_held] at join
    iintro ⟨Harr, Howes, Hreg, Hbypass⟩
    imodintro
    isplitl [Harr Hbypass]
    · iapply join; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- REGION 1 as a segment: entered with every unscoped buffer at W1, left with them at W2. At the entry the
    pipeline's arrays are taken out of the unscoped buffers at the proof data's entry contents and the other buffers
    bypass the region; the generator register goes into the region invariant and comes back; at the exit the arrays, at
    what the write-backs left, rejoin the bypassing buffers. The core owes nothing throughout and the kernel has no
    semaphore of its own. -/
def region1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel 1 fun _ _ => rfl
  pre c := stateAt (W1 m) c
  post c := stateAt (W2 m) c
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have take := Pipeline.arrays_of_unscopedBufs (p := 1) (pcfgs (F := F)) adm (pdats m) launch1.win launch1.arr_whole c
      ((pdats m 1 c).share_full fun _ => rfl) (E1 m c) fun _ => rfl
    rw [Pipeline.unscopedBufs_held] at take
    iintro ⟨⟨Hbufs, Hreg, Howes⟩, -, -⟩
    ihave Hsplit := take $$ Hbufs
    icases Hsplit with ⟨Harr, Hbypass⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hbypass
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have join := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit_arrays1 m c) (exit_rest1 m c)
    rw [Pipeline.unscopedBufs_held] at join
    iintro ⟨Harr, Howes, Hreg, Hbypass⟩
    imodintro
    isplitl [Harr Hbypass]
    · iapply join; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- REGION 2 as a segment: entered with every unscoped buffer at W2, left with them at W3. At the entry the
    pipeline's arrays are taken out of the unscoped buffers at the proof data's entry contents and the other buffers
    bypass the region; the generator register goes into the region invariant and comes back; at the exit the arrays, at
    what the write-backs left, rejoin the bypassing buffers. The core owes nothing throughout and the kernel has no
    semaphore of its own. -/
def region2 : Pipeline.RegionSeg (pcfgs (F := F)) adm (pdats m) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs noLevel 2 fun _ _ => rfl
  pre c := stateAt (W2 m) c
  post c := stateAt (W3 m) c
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have take := Pipeline.arrays_of_unscopedBufs (p := 2) (pcfgs (F := F)) adm (pdats m) launch2.win launch2.arr_whole c
      ((pdats m 2 c).share_full fun _ => rfl) (E2 m c) fun _ => rfl
    rw [Pipeline.unscopedBufs_held] at take
    iintro ⟨⟨Hbufs, Hreg, Howes⟩, -, -⟩
    ihave Hsplit := take $$ Hbufs
    icases Hsplit with ⟨Harr, Hbypass⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hbypass
  hin c := by
    refine BIBase.Entails.trans ?_ (hin2 (E2 m) c)
    unfold Pipeline.ΦA
    iintro ⟨Hreg, -, Hscoped⟩
    isplitl [Hscoped]; · iexact Hscoped
    iexact Hreg
  hout c := by
    rw [Pipeline.ownSems0_none]
    refine BIBase.Entails.trans (hout2 (E2 m) c) ?_
    unfold Pipeline.ΦA
    iintro ⟨Hscoped, Hreg⟩
    isplitl [Hreg]; · iexact Hreg
    isplitr; · iempintro
    iexact Hscoped
  hexit c := by
    have join := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (exit_arrays2 m c) (exit_rest2 m c)
    rw [Pipeline.unscopedBufs_held] at join
    iintro ⟨Harr, Howes, Hreg, Hbypass⟩
    imodintro
    isplitl [Harr Hbypass]
    · iapply join; isplitl [Harr] <;> iassumption
    isplitl [Hreg]; · iexact Hreg
    unfold Pipeline.Dat.owesAt Pipeline.owesWithin
    icases Howes with ⟨%W, -, Howes⟩; iexists W; iexact Howes

/-! ## @main as its six segments, and the run -/

/-- The segments in @main's order: the three regions, then the three host stretches. -/
abbrev segments : List (Pipeline.Seg (pcfgs (F := F)) adm (pdats m) () defs₀ noVariants noPairs noLevel) :=
  [ .region (region0 m),
    .region (region1 m),
    .region (region2 m),
    .host (hostSeg hostOps3 hostOps3_sub hostOps3_fresh (W3 m)),
    .host (hostSeg hostOps3_1 hostOps3_1_sub hostOps3_1_fresh (W4 m)),
    .host (hostSeg hostOps3_2 hostOps3_2_sub hostOps3_2_fresh (W5 m)) ]

/-- @main is the run of the segments: both are the same chain of six items. -/
theorem main_is_segments (c : Dev nD) : main (F := F) c = Pipeline.Seg.run (segments m) :=
  (main_chain c).trans (by chain_rfl)

variable (ρ : Dev nD → PrngReg)

set_option backward.isDefEq.respectTransparency.types false in
/-- THE RUN. From any memory m with zero counters every weakly fair execution of @main on the TensorCores terminates,
    nothing faulting, and in every final state each unscoped buffer of each core holds the last boundary's contents. -/
theorem kernel_run : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ noVariants noPairs noLevel m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ rider c) ⊢ _
      iintro ⟨Hbufs, Hreg, Howes⟩
      isplitr [Howes]
      · isplitl [Hbufs]; · iexact Hbufs
        iexact Hreg
      iexact Howes⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h => h)

/-! ## The argument arrays at the end -/

/-- A buffer a host stretch does not write holds after it what it held before. -/
theorem W4_of (c : Dev nD) (r : Ref sig .tc) (h : r ∉ (hostOps3_W : List (Ref sig .tc))) : W4 m c r = W3 m c r :=
  StableHlo.after_of_writes_sub hostOps3 _ hostOps3_writes h
theorem W5_of (c : Dev nD) (r : Ref sig .tc) (h : r ∉ (hostOps3_1_W : List (Ref sig .tc))) : W5 m c r = W4 m c r :=
  StableHlo.after_of_writes_sub hostOps3_1 _ hostOps3_1_writes h
theorem W6_of (c : Dev nD) (r : Ref sig .tc) (h : r ∉ (hostOps3_2_W : List (Ref sig .tc))) : W6 m c r = W5 m c r :=
  StableHlo.after_of_writes_sub hostOps3_2 _ hostOps3_2_writes h

/-- The first argument is read by the first pooling region through an input window, which leaves it as it was, and
    touched by nothing else. -/
theorem W6_main_arg0 (c : Dev nD) : W6 m c main_arg0 = m ((c : Thread nD τ).loc main_arg0) :=
  calc W6 m c main_arg0
    _ = W5 m c main_arg0 := W6_of m c main_arg0 (by decide)
    _ = W4 m c main_arg0 := W5_of m c main_arg0 (by decide)
    _ = W3 m c main_arg0 := W4_of m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) :=
        (W1_arr m c 0).trans (((dat0 (E0 m) c).arrAt_in 0 rfl _).trans (arrays_dat0 (E0 m) c 0))
    _ = m ((c : Thread nD τ).loc main_arg0) := rfl

/-- The second argument likewise, through the second pooling region's input window. -/
theorem W6_main_arg1 (c : Dev nD) : W6 m c main_arg1 = m ((c : Thread nD τ).loc main_arg1) :=
  calc W6 m c main_arg1
    _ = W5 m c main_arg1 := W6_of m c main_arg1 (by decide)
    _ = W4 m c main_arg1 := W5_of m c main_arg1 (by decide)
    _ = W3 m c main_arg1 := W4_of m c main_arg1 (by decide)
    _ = W2 m c (Proc.devRef .tc main_arg1) := W3_of_ne m c main_arg1 (by decide)
    _ = W1 m c (Proc.devRef .tc main_arg1) :=
        (W2_arr m c 0).trans (((dat1 (E1 m) c).arrAt_in 0 rfl _).trans (arrays_dat1 (E1 m) c 0))
    _ = W0 m c (Proc.devRef .tc main_arg1) := W1_of_ne m c main_arg1 (by decide)
    _ = m ((c : Thread nD τ).loc main_arg1) := rfl

/-- The labels are read by the loss region through its third input window. -/
theorem W6_main_arg2 (c : Dev nD) : W6 m c main_arg2 = m ((c : Thread nD τ).loc main_arg2) :=
  calc W6 m c main_arg2
    _ = W5 m c main_arg2 := W6_of m c main_arg2 (by decide)
    _ = W4 m c main_arg2 := W5_of m c main_arg2 (by decide)
    _ = W3 m c main_arg2 := W4_of m c main_arg2 (by decide)
    _ = W2 m c (Proc.devRef .tc main_arg2) :=
        (W3_arr m c 2).trans (((dat2 (E2 m) c).arrAt_in 2 rfl _).trans (A_eq2 (E2 m) c 2))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

/-- THE FRAME: every weakly fair execution of @main terminates, nothing faulting, and the three argument arrays end
    as launched. -/
theorem kernel_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_unscoped main_arg0 (by decide))).trans (W6_main_arg0 m c),
       (h c _ (mem_unscoped main_arg1 (by decide))).trans (W6_main_arg1 m c),
       (h c _ (mem_unscoped main_arg2 (by decide))).trans (W6_main_arg2 m c)⟩)
    (kernel_run m ρ)

end Cert.Kernel.Hand

end
-- ==== Proof.PoolFrameI.lean ====
/-
  The two pooling regions of @main, each as a pipeline with proof data: what a grid point is handed, what
  it leaves, and that the printed body does so.

  Both regions run the same body on a grid of 4 points. Point t is handed block t of the argument array:
  1024 rows, each of 8 slots of 256 lanes. It loads the block whole, loads the output buffer whole (the
  value is never used), and stores into the output buffer, whole, one value per row and lane: the
  normalised slot mean of that row (Gen.k0_pay1 / Gen.k1_pay1 of the block). The pipeline then writes the
  1024 x 256 buffer back as block t of the result array.

  Everything is stated at a parameter V, the TensorCore's buffer contents when the region is entered, and at
  any float interpretation F.
-/
import proofs.«105816_j90091234001463_2_alg».proof.Proof.Gen.KernelIdeal.Launch
import proofs.«105816_j90091234001463_2_alg».proof.Proof.Gen.KernelIdeal.Skeleton
import proofs.«105816_j90091234001463_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access of the 1024 x 8 x 256 input buffer are all zero, -/
theorem zeroOff3 : (![0, 0, 0] : Fin 3 → Nat) = fun _ => 0 := by
  funext a; match a with | ⟨0, _⟩ => rfl | ⟨1, _⟩ => rfl | ⟨2, _⟩ => rfl

/-- and so are those of the 1024 x 256 output buffer. -/
theorem zeroOff2 : (![0, 0] : Fin 2 → Nat) = fun _ => 0 := by
  funext a; match a with | ⟨0, _⟩ => rfl | ⟨1, _⟩ => rfl

variable (V : (c : Dev nD) → (b : Ref sig .tc) → Buf (Elt F) ((c : Thread nD τ).loc b))

/-! # Region K: the rows of main_arg0 pooled into main_v0 -/

/-- The rows point t pools: block t of the argument array as the region finds it. -/
def rows0 (c : Dev nD) (t : Fin cfg0.N) : ((cfg0.win 0).xblock (cfg0.grid.coords t)).Idx → Elt F (cfg0.win 0).elt :=
  ((cfg0.win 0).blk t).view.read (Elt F) (V c (Pipeline.arrRef spec0 0))

/-- What the body leaves in the output buffer when the input buffer reads x: the pooled, normalised rows. -/
def pooled0 (x : Vec F S1024x8x256 .f32) : Vec F S1024x256 .bf16 := k0_pay1 x

set_option maxHeartbeats 1000000 in
/-- The printed body, on whole staging memrefs, the input's reading x and the output's holding anything, returns with the
    input's as it was and the output's reading the pooled rows of x. The load of the output buffer before the store reads
    whatever was there and its value is dropped; the one store fills the buffer, so what was there is gone. -/
theorem pool_body0 (c : Dev nD) (E : Set ℕ) (i : grid0.Coords)
    (inp : Memref sig .tc .vmem S1024x8x256 .f32) (hinp : inp.IsWhole)
    (outp : Memref sig .tc .vmem S1024x256 .bf16) (houtp : outp.IsWhole)
    (x : Vec F S1024x8x256 .f32) (Q : PUnit → sProp 𝕄) :
    iprop(owns (c : Thread nD τ) inp fullShare x ∗ (∃ d, owns (c : Thread nD τ) outp fullShare d)
        ∗ (iprop(owns (c : Thread nD τ) inp fullShare x ∗ owns (c : Thread nD τ) outp fullShare (pooled0 x)) -∗ Q ⟨⟩))
      ⊢ wp frame (wpE (defs₀ (F := F)) Variants.none c none) E (cc0__pool_norm_kernel i inp hinp outp houtp) Q := by
  simp only [cc0__pool_norm_kernel_eq_skeleton]; unfold cc0__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero zeroOff2 inb_S1024x256_S1024x256_0_0 y⟩),
    View.canon_unit_zero zeroOff2]
  exact congrArg k0_pay1 (View.ld_unit_zero zeroOff3 inb_S1024x8x256_S1024x8x256_0_0_0 (View.read (Elt F) inp.view f0))

/-! ## The proof data -/

/-- Region K's proof data on core c: the arrays as the region finds them; after the body at point t the input buffer still
    at its rows and the output buffer at their pooled rows; the invariant is the scoped rest and the generator register,
    which the body never touches; full shares; nothing owed. -/
def dat0 (c : Dev nD) : Dat τ (Elt F) Unit ℕ (UR sig nD τ) ℕ cfg0 c where
  A w := V c (Pipeline.arrRef spec0 w)
  after w t := match w with
    | ⟨0, _⟩ => rows0 V c t
    | ⟨1, _⟩ => pooled0 (rows0 V c t)
  Φ _ := Pipeline.ΦA spec0 c
  q _ := fullShare
  owed _ := 0

theorem arrays_dat0 (c : Dev nD) (w : Fin cfg0.W) : (dat0 V c).A w = V c (Pipeline.arrRef spec0 w) := by
  dsimp only [dat0]

theorem input_after_body0 (c : Dev nD) (t : Fin cfg0.N) : (dat0 V c).after 0 t = rows0 V c t := by dsimp only [dat0]
theorem output_after_body0 (c : Dev nD) (t : Fin cfg0.N) : (dat0 V c).after 1 t = pooled0 (rows0 V c t) := by dsimp only [dat0]

/-- The input window is fetched at every point, and its blocks are whole, so when the body starts its buffer reads the
    point's rows whatever it held before. -/
theorem input_before_body0 (c : Dev nD) (t : Fin cfg0.N) (d) : (dat0 V c).before 0 t d = rows0 V c t := by
  rw [(dat0 V c).before_fetched 0 t (fetch0_0 t) d]
  unfold Dat.fetched Dat.blockOf rows0
  rw [arrays_dat0]
  rfl

/-! ## The body obligation -/

/-- At every point the pipeline calls the body with the invariant, the core's debts and each window's current staging
    buffer; the input's reads the point's rows, so the body's triple applies, and the invariant and the debts pass
    through unread. -/
theorem body_obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d)))
      ⊢ wp frame (wpE (defs₀ (F := F)) Variants.none c none) Set.univ (bodyAt0 t) (fun _ =>
          iprop((dat0 V c).Φ t.castSucc ∗ (dat0 V c).owesAt () t.castSucc
            ∗ owns (c : Thread nD τ) (st0_0 t) fullShare ((dat0 V c).after 0 t)
            ∗ owns (c : Thread nD τ) (st0_1 t) fullShare ((dat0 V c).after 1 t)))
  simp only [input_before_body0]
  rw [input_after_body0, output_after_body0]
  iintro ⟨HΦ, Ho, ⟨%d0, H0⟩, ⟨%d1, H1⟩⟩
  iapply (pool_body0 c Set.univ _ _ _ _ _ (rows0 V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-! # Region K: the rows of main_arg1 pooled into main_v1 -/

/-- The rows point t pools: block t of the argument array as the region finds it. -/
def rows1 (c : Dev nD) (t : Fin cfg1.N) : ((cfg1.win 0).xblock (cfg1.grid.coords t)).Idx → Elt F (cfg1.win 0).elt :=
  ((cfg1.win 0).blk t).view.read (Elt F) (V c (Pipeline.arrRef spec1 0))

/-- What the body leaves in the output buffer when the input buffer reads x: the pooled, normalised rows. -/
def pooled1 (x : Vec F S1024x8x256 .f32) : Vec F S1024x256 .bf16 := k1_pay1 x

set_option maxHeartbeats 1000000 in
/-- The printed body, on whole staging memrefs, the input's reading x and the output's holding anything, returns with the
    input's as it was and the output's reading the pooled rows of x. The load of the output buffer before the store reads
    whatever was there and its value is dropped; the one store fills the buffer, so what was there is gone. -/
theorem pool_body1 (c : Dev nD) (E : Set ℕ) (i : grid1.Coords)
    (inp : Memref sig .tc .vmem S1024x8x256 .f32) (hinp : inp.IsWhole)
    (outp : Memref sig .tc .vmem S1024x256 .bf16) (houtp : outp.IsWhole)
    (x : Vec F S1024x8x256 .f32) (Q : PUnit → sProp 𝕄) :
    iprop(owns (c : Thread nD τ) inp fullShare x ∗ (∃ d, owns (c : Thread nD τ) outp fullShare d)
        ∗ (iprop(owns (c : Thread nD τ) inp fullShare x ∗ owns (c : Thread nD τ) outp fullShare (pooled1 x)) -∗ Q ⟨⟩))
      ⊢ wp frame (wpE (defs₀ (F := F)) Variants.none c none) E (cc1__pool_norm_kernel i inp hinp outp houtp) Q := by
  simp only [cc1__pool_norm_kernel_eq_skeleton]; unfold cc1__pool_norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero zeroOff2 inb_S1024x256_S1024x256_0_0 y⟩),
    View.canon_unit_zero zeroOff2]
  exact congrArg k1_pay1 (View.ld_unit_zero zeroOff3 inb_S1024x8x256_S1024x8x256_0_0_0 (View.read (Elt F) inp.view f0))

/-! ## The proof data -/

/-- Region K's proof data on core c: the arrays as the region finds them; after the body at point t the input buffer still
    at its rows and the output buffer at their pooled rows; the invariant is the scoped rest and the generator register,
    which the body never touches; full shares; nothing owed. -/
def dat1 (c : Dev nD) : Dat τ (Elt F) Unit ℕ (UR sig nD τ) ℕ cfg1 c where
  A w := V c (Pipeline.arrRef spec1 w)
  after w t := match w with
    | ⟨0, _⟩ => rows1 V c t
    | ⟨1, _⟩ => pooled1 (rows1 V c t)
  Φ _ := Pipeline.ΦA spec1 c
  q _ := fullShare
  owed _ := 0

theorem arrays_dat1 (c : Dev nD) (w : Fin cfg1.W) : (dat1 V c).A w = V c (Pipeline.arrRef spec1 w) := by
  dsimp only [dat1]

theorem input_after_body1 (c : Dev nD) (t : Fin cfg1.N) : (dat1 V c).after 0 t = rows1 V c t := by dsimp only [dat1]
theorem output_after_body1 (c : Dev nD) (t : Fin cfg1.N) : (dat1 V c).after 1 t = pooled1 (rows1 V c t) := by dsimp only [dat1]

/-- The input window is fetched at every point, and its blocks are whole, so when the body starts its buffer reads the
    point's rows whatever it held before. -/
theorem input_before_body1 (c : Dev nD) (t : Fin cfg1.N) (d) : (dat1 V c).before 0 t d = rows1 V c t := by
  rw [(dat1 V c).before_fetched 0 t (fetch1_0 t) d]
  unfold Dat.fetched Dat.blockOf rows1
  rw [arrays_dat1]
  rfl

/-! ## The body obligation -/

/-- At every point the pipeline calls the body with the invariant, the core's debts and each window's current staging
    buffer; the input's reads the point's rows, so the body's triple applies, and the invariant and the debts pass
    through unread. -/
theorem body_obligation1 (c : Dev nD) :
    BodyObligation (dat1 (F := F) V c) (defs₀ (F := F)) Variants.none () Set.univ := fun t => by
  rw [bigSep_W1, bigSep_W1]
  show iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d)))
      ⊢ wp frame (wpE (defs₀ (F := F)) Variants.none c none) Set.univ (bodyAt1 t) (fun _ =>
          iprop((dat1 V c).Φ t.castSucc ∗ (dat1 V c).owesAt () t.castSucc
            ∗ owns (c : Thread nD τ) (st1_0 t) fullShare ((dat1 V c).after 0 t)
            ∗ owns (c : Thread nD τ) (st1_1 t) fullShare ((dat1 V c).after 1 t)))
  simp only [input_before_body1]
  rw [input_after_body1, output_after_body1]
  iintro ⟨HΦ, Ho, ⟨%d0, H0⟩, ⟨%d1, H1⟩⟩
  iapply (pool_body1 c Set.univ _ _ _ _ _ (rows1 V c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Hand

end
-- ==== Proof.LossStepI.lean ====
/- One grid point of the loss kernel as a function on its three row accumulators (the exponential sums, the positive
   similarities, the positive counts): which of the body's four conditionals hold at a point, and what the body's own
   arithmetic makes of the accumulators and the point's input blocks. -/
import proofs.«105816_j90091234001463_2_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic

variable {F : FTy → Type} [FloatOps F]

/-- The first column tile of a row block (grid coordinate 1 is 0): the accumulators are reset there. -/
abbrev isFirst (i : grid2.Coords) : Prop :=
  (Scalar.cmpi .ne (Scalar.extui (Scalar.cmpi .eq (BitVec.ofNat 32 (i 1).val) 0#32)) 0#32) = 1#1

/-- The tile's row range [512·i₀, 512·i₀+512) and column range [1024·i₁, 1024·i₁+1024) overlap: the diagonal may cross it. -/
abbrev onDiag (i : grid2.Coords) : Prop :=
  (Scalar.cmpi .ne (Scalar.extui (Scalar.andi
      (Scalar.cmpi .slt (Scalar.muli (BitVec.ofNat 32 (i 0).val) 512#32) (Scalar.addi (Scalar.muli (BitVec.ofNat 32 (i 1).val) 1024#32) 1024#32))
      (Scalar.cmpi .slt (Scalar.muli (BitVec.ofNat 32 (i 1).val) 1024#32) (Scalar.addi (Scalar.muli (BitVec.ofNat 32 (i 0).val) 512#32) 512#32)))) 0#32) = 1#1

/-- The negation of the overlap test, as the body computes it (xor with true). -/
abbrev offDiag (i : grid2.Coords) : Prop :=
  (Scalar.cmpi .ne (Scalar.extui (Scalar.xori (Scalar.andi
      (Scalar.cmpi .slt (Scalar.muli (BitVec.ofNat 32 (i 0).val) 512#32) (Scalar.addi (Scalar.muli (BitVec.ofNat 32 (i 1).val) 1024#32) 1024#32))
      (Scalar.cmpi .slt (Scalar.muli (BitVec.ofNat 32 (i 1).val) 1024#32) (Scalar.addi (Scalar.muli (BitVec.ofNat 32 (i 0).val) 512#32) 512#32))) 1#1)) 0#32) = 1#1

/-- The last column tile of a row block (grid coordinate 1 is 3): the row losses are written there. -/
abbrev isLast (i : grid2.Coords) : Prop := k2_cond4 i = 1#1

/-- The row block of the first operand, whole. -/
abbrev wholeA : Rect S512x256 := Rect.unit (s := S512x256) ![0, 0] S512x256.size inb_S512x256_S512x256_0_0
/-- The label tile, whole. -/
abbrev wholeL : Rect S512x1024 := Rect.unit (s := S512x1024) ![0, 0] S512x1024.size inb_S512x1024_S512x1024_0_0
/-- The tile of the resident second operand the point reads: rows 1024·i₁ … 1024·i₁+1023. -/
abbrev tileR (i : grid2.Coords) : Rect S4096x256 := Rect.unit (s := S4096x256) (k2_off1 i) S1024x256.size (k2_off1_inb i)

/-- The three row accumulators: exponential sums, positive similarities, positive counts. -/
abbrev Acc (F : FTy → Type) : Type := Vec F S512x1 .f32 × Vec F S512x1 .f32 × Vec F S512x1 .f32

/-- The accumulators after the reset. -/
def accZero : Acc F := (k2_pay1 (F := F), k2_pay2 (F := F), k2_pay3 (F := F))

/-- A tile the diagonal may cross: the diagonal entries are masked out of all three partial sums. -/
def accOn (i : grid2.Coords) (a : Vec F S512x256 .bf16) (b : Vec F S4096x256 .bf16) (l : Vec F S512x1024 .i32) (s : Acc F) : Acc F :=
  (k2_pay8 i (View.ld a wholeA) (View.ld b (tileR i)) s.1,
   k2_pay9 i (View.ld a wholeA) (View.ld b (tileR i)) (View.ld l wholeL) s.2.1,
   k2_pay10 i (View.ld l wholeL) s.2.2)

/-- A tile off the diagonal band: no mask. -/
def accOff (i : grid2.Coords) (a : Vec F S512x256 .bf16) (b : Vec F S4096x256 .bf16) (l : Vec F S512x1024 .i32) (s : Acc F) : Acc F :=
  (k2_pay11 (View.ld a wholeA) (View.ld b (tileR i)) s.1,
   k2_pay12 (View.ld a wholeA) (View.ld b (tileR i)) (View.ld l wholeL) s.2.1,
   k2_pay13 (View.ld l wholeL) s.2.2)

/-- One grid point: reset at the first column tile, then this tile's partial sums. -/
def accStep (i : grid2.Coords) (a : Vec F S512x256 .bf16) (b : Vec F S4096x256 .bf16) (l : Vec F S512x1024 .i32) (s : Acc F) : Acc F :=
  if onDiag i then accOn i a b l (if isFirst i then accZero else s) else accOff i a b l (if isFirst i then accZero else s)

/-- The row losses written at the last column tile: count · log(exponential sum + ε₈) − positive similarities. -/
def rowOut (s : Acc F) : Vec F S512x1 .f32 := k2_pay14 s.1 s.2.2 s.2.1

end Cert.KernelIdeal.Hand

end
-- ==== Proof.LossRunI.lean ====
/- The loss kernel's body run at one grid point, case by case of its four conditionals: what the three row accumulators
   (the exponential sums, the positive similarities, the positive counts) and the two output blocks hold afterwards,
   as the body's own arithmetic of what they held before and of the point's input blocks. -/
import proofs.«105816_j90091234001463_2_alg».proof.Proof.Gen.KernelIdeal.Launch
import proofs.«105816_j90091234001463_2_alg».proof.Proof.LossStepI
import proofs.«105816_j90091234001463_2_alg».proof.Proof.Gen.KernelIdeal.Skeleton
import proofs.«105816_j90091234001463_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rS : Rect S512x1 := Rect.unit (s := S512x1) ![0, 0] S512x1.size inb_S512x1_S512x1_0_0

theorem hzS : (![0, 0] : Fin S512x1.rank → Nat) = fun _ => 0 := by
  funext a; fin_cases a <;> rfl

theorem mem_rS (y : S512x1.Idx) : y ∈ rS.set := by
  show y ∈ (Rect.unit (s := S512x1) ![0, 0] S512x1.size inb_S512x1_S512x1_0_0).set
  rw [show (Rect.unit (s := S512x1) ![0, 0] S512x1.size inb_S512x1_S512x1_0_0) = Rect.whole S512x1 from by
    simp only [hzS]; rfl]
  rw [Rect.set_whole]; exact Finset.mem_univ y

/-- A whole-buffer store, last, leaves its payload whatever was stored before. -/
theorem read_writes_head {κ : Kind} {sp : Space} (v : View sig κ sp S512x1 .f32) (f : v.ty.Contents (Elt F))
    (w : S512x1.Idx → Elt F .f32) (L : List (View.Piece (Elt F) S512x1 .f32)) :
    v.read (Elt F) (v.writes (Elt F) f (⟨rS, w⟩ :: L)) = w :=
  (View.read_writes_eq_canon v f (⟨rS, w⟩ :: L) (fun y => ⟨⟨rS, w⟩, List.mem_cons_self, mem_rS y⟩)).trans (View.canon_cons_unit_zero hzS _ w L)

/-- A whole-buffer load after a whole-buffer store reads the stored payload. -/
theorem readCov_head {κ : Kind} {sp : Space} (v : View sig κ sp S512x1 .f32)
    (w : S512x1.Idx → Elt F .f32) (L : List (View.Piece (Elt F) S512x1 .f32)) :
    v.readCov (⟨rS, w⟩ :: L) rS.toLoadRect = w := by
  rw [View.readCov_eq_canon_ld v (⟨rS, w⟩ :: L) rS (fun y => ⟨⟨rS, w⟩, List.mem_cons_self, mem_rS y⟩), View.canon_cons_unit_zero hzS, View.ld_unit_zero (S := S512x1) hzS]

set_option maxHeartbeats 8000000 in
/-- The body at a point that is the first column tile of its row block, on the diagonal band:
    the three row accumulators start from zero, take this tile's partial sums. -/
theorem run_first_on (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : isFirst i) (h2 : onDiag i) (h3 : ¬ offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay8 i (View.ld x2 (Rect.unit (s := S512x256) ![0, 0] S512x256.size inb_S512x256_S512x256_0_0)) (View.ld x3 (tileR i)) (k2_pay1 (F := F)))
            ∗ owns (c : Thread nD τ) arg8 fullShare (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) (k2_pay2 (F := F)))
            ∗ owns (c : Thread nD τ) arg9 fullShare (k2_pay10 i (View.ld x4 (Rect.unit (s := S512x1024) ![0, 0] S512x1024.size inb_S512x1024_S512x1024_0_0)) (k2_pay3 (F := F)))) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is the first column tile of its row block, off the diagonal band:
    the three row accumulators start from zero, take this tile's partial sums. -/
theorem run_first_off (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : isFirst i) (h2 : ¬ onDiag i) (h3 : offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay11 (View.ld x2 (Rect.unit (s := S512x256) ![0, 0] S512x256.size inb_S512x256_S512x256_0_0)) (View.ld x3 (tileR i)) (k2_pay1 (F := F)))
            ∗ owns (c : Thread nD τ) arg8 fullShare (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) (k2_pay2 (F := F)))
            ∗ owns (c : Thread nD τ) arg9 fullShare (k2_pay13 (View.ld x4 (Rect.unit (s := S512x1024) ![0, 0] S512x1024.size inb_S512x1024_S512x1024_0_0)) (k2_pay3 (F := F)))) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is neither the first nor the last column tile of its row block, on the diagonal band:
    the three row accumulators continue from what the tile before left, take this tile's partial sums. -/
theorem run_mid_on (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : onDiag i) (h3 : ¬ offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay8 i (View.ld x2 (Rect.unit (s := S512x256) ![0, 0] S512x256.size inb_S512x256_S512x256_0_0)) (View.ld x3 (tileR i)) D)
            ∗ owns (c : Thread nD τ) arg8 fullShare (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay10 i (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is neither the first nor the last column tile of its row block, off the diagonal band:
    the three row accumulators continue from what the tile before left, take this tile's partial sums. -/
theorem run_mid_off (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : ¬ onDiag i) (h3 : offDiag i) (h4 : ¬ isLast i)
    (x2 : Vec F S512x256 .bf16) (x3 : Vec F S4096x256 .bf16) (x4 : Vec F S512x1024 .i32) (D P C y5 y6 : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare y5 ∗ owns (c : Thread nD τ) arg6 fullShare y6
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare y5 ∗ owns (c : Thread nD τ) arg6 fullShare y6
            ∗ owns (c : Thread nD τ) arg7 fullShare (k2_pay11 (View.ld x2 (Rect.unit (s := S512x256) ![0, 0] S512x256.size inb_S512x256_S512x256_0_0)) (View.ld x3 (tileR i)) D)
            ∗ owns (c : Thread nD τ) arg8 fullShare (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay13 (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf2; subst hf3; subst hf4; subst hf5; subst hf6; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is the last column tile of its row block, on the diagonal band:
    the three row accumulators continue from what the tile before left, take this tile's partial sums, and the row losses and counts are written out. -/
theorem run_last_on (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : onDiag i) (h3 : ¬ offDiag i) (h4 : isLast i)
    (x2 : Vec F S512x256 .bf16) (x3 : Vec F S4096x256 .bf16) (x4 : Vec F S512x1024 .i32) (D P C : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare (k2_pay14 (k2_pay8 i (View.ld x2 (Rect.unit (s := S512x256) ![0, 0] S512x256.size inb_S512x256_S512x256_0_0)) (View.ld x3 (tileR i)) D) (k2_pay10 i (View.ld x4 (Rect.unit (s := S512x1024) ![0, 0] S512x1024.size inb_S512x1024_S512x1024_0_0)) C) (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)) ∗ owns (c : Thread nD τ) arg6 fullShare (k2_pay10 i (View.ld x4 (Rect.unit (s := S512x1024) ![0, 0] S512x1024.size inb_S512x1024_S512x1024_0_0)) C)
            ∗ owns (c : Thread nD τ) arg7 fullShare (k2_pay8 i (View.ld x2 (Rect.unit (s := S512x256) ![0, 0] S512x256.size inb_S512x256_S512x256_0_0)) (View.ld x3 (tileR i)) D)
            ∗ owns (c : Thread nD τ) arg8 fullShare (k2_pay9 i (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay10 i (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_head _ _ _ _).trans ?_
    sl_unfold_run_names
    repeat rw [readCov_head]
    try simp only [View.readAt_eq_ld, View.ld_unit_zero (S := S512x1) hzS]
    try rfl
  isplitl [H6]
  · iexists _; isplitr
    swap; · iexact H6
    ipureintro
    refine (read_writes_head _ _ _ _).trans ?_
    sl_unfold_run_names
    repeat rw [readCov_head]
    try simp only [View.readAt_eq_ld, View.ld_unit_zero (S := S512x1) hzS]
    try rfl
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

set_option maxHeartbeats 8000000 in
/-- The body at a point that is the last column tile of its row block, off the diagonal band:
    the three row accumulators continue from what the tile before left, take this tile's partial sums, and the row losses and counts are written out. -/
theorem run_last_off (c : Dev nD) (E : Set ℕ) (i : grid2.Coords)
    (arg2 : Memref sig .tc .vmem S512x256 .bf16) (harg2 : arg2.IsWhole) (arg3 : Memref sig .tc .vmem S4096x256 .bf16) (harg3 : arg3.IsWhole)
    (arg4 : Memref sig .tc .vmem S512x1024 .i32) (harg4 : arg4.IsWhole) (arg5 : Memref sig .tc .vmem S512x1 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (h1 : ¬ isFirst i) (h2 : ¬ onDiag i) (h3 : offDiag i) (h4 : isLast i)
    (x2 : Vec F S512x256 .bf16) (x3 : Vec F S4096x256 .bf16) (x4 : Vec F S512x1024 .i32) (D P C : Vec F S512x1 .f32)
    (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ owns (c : Thread nD τ) arg7 fullShare D ∗ owns (c : Thread nD τ) arg8 fullShare P ∗ owns (c : Thread nD τ) arg9 fullShare C
        ∗ (iprop(owns (c : Thread nD τ) arg2 fullShare x2 ∗ owns (c : Thread nD τ) arg3 fullShare x3 ∗ owns (c : Thread nD τ) arg4 fullShare x4
            ∗ owns (c : Thread nD τ) arg5 fullShare (k2_pay14 (k2_pay11 (View.ld x2 (Rect.unit (s := S512x256) ![0, 0] S512x256.size inb_S512x256_S512x256_0_0)) (View.ld x3 (tileR i)) D) (k2_pay13 (View.ld x4 (Rect.unit (s := S512x1024) ![0, 0] S512x1024.size inb_S512x1024_S512x1024_0_0)) C) (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)) ∗ owns (c : Thread nD τ) arg6 fullShare (k2_pay13 (View.ld x4 (Rect.unit (s := S512x1024) ![0, 0] S512x1024.size inb_S512x1024_S512x1024_0_0)) C)
            ∗ owns (c : Thread nD τ) arg7 fullShare (k2_pay11 (View.ld x2 (Rect.unit (s := S512x256) ![0, 0] S512x256.size inb_S512x256_S512x256_0_0)) (View.ld x3 (tileR i)) D)
            ∗ owns (c : Thread nD τ) arg8 fullShare (k2_pay12 (View.ld x2 (Rect.unit (s := S512x256) ![0, 0] S512x256.size inb_S512x256_S512x256_0_0)) (View.ld x3 (tileR i)) (View.ld x4 (Rect.unit (s := S512x1024) ![0, 0] S512x1024.size inb_S512x1024_S512x1024_0_0)) P)
            ∗ owns (c : Thread nD τ) arg9 fullShare (k2_pay13 (View.ld x4 (Rect.unit (s := S512x1024) ![0, 0] S512x1024.size inb_S512x1024_S512x1024_0_0)) C)) -∗ K ⟨⟩))
      ⊢ wp frame (wpE (defs₀ (F := F)) Variants.none c none) E (cc2__loss_kernel i arg2 harg2 arg3 harg3 arg4 harg4 arg5 harg5 arg6 harg6 arg7 harg7 arg8 harg8 arg9 harg9) K := by
  simp only [cc2__loss_kernel_eq_skeleton]; unfold cc2__loss_kernel_skel
  unfold owns
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, Hk⟩
  subst hf2; subst hf3; subst hf4; subst hf7; subst hf8; subst hf9
  sl_exec (disch := first | exact h1 | exact h2 | exact h3 | exact h4)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_writes_head _ _ _ _).trans ?_
    sl_unfold_run_names
    repeat rw [readCov_head]
    try simp only [View.readAt_eq_ld, View.ld_unit_zero (S := S512x1) hzS]
    try rfl
  isplitl [H6]
  · iexists _; isplitr
    swap; · iexact H6
    ipureintro
    refine (read_writes_head _ _ _ _).trans ?_
    sl_unfold_run_names
    repeat rw [readCov_head]
    try simp only [View.readAt_eq_ld, View.ld_unit_zero (S := S512x1) hzS]
    try rfl
  isplitl [H7]
  · iexists _; isplitr
    swap; · iexact H7
    ipureintro
    refine (read_writes_head _ _ _ _).trans ?_
    sl_unfold_run_names
    repeat rw [readCov_head]
    try simp only [View.readAt_eq_ld, View.ld_unit_zero (S := S512x1) hzS]
    try rfl
  isplitl [H8]
  · iexists _; isplitr
    swap; · iexact H8
    ipureintro
    refine (read_writes_head _ _ _ _).trans ?_
    sl_unfold_run_names
    repeat rw [readCov_head]
    try simp only [View.readAt_eq_ld, View.ld_unit_zero (S := S512x1) hzS]
    try rfl
  · iexists _; isplitr
    swap; · iexact H9
    ipureintro
    refine (read_writes_head _ _ _ _).trans ?_
    sl_unfold_run_names
    repeat rw [readCov_head]
    try simp only [View.readAt_eq_ld, View.ld_unit_zero (S := S512x1) hzS]
    try rfl

end Cert.KernelIdeal.Hand

end
-- ==== Proof.LossDatI.lean ====
/- The loss pipeline's proof data: the accumulators point by point, the invariant that carries them between points,
   and the body's obligation at every point. -/
import proofs.«105816_j90091234001463_2_alg».proof.Proof.Gen.KernelIdeal.Launch
import proofs.«105816_j90091234001463_2_alg».proof.Proof.LossRunI
import proofs.«105816_j90091234001463_2_alg».proof.Proof.Gen.KernelIdeal.Skeleton
import proofs.«105816_j90091234001463_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulators point by point -/

/-- The three row accumulators after the body at position n: this point's step of what the point before left
    (at the very first point, of the reset values: the first point is a first column tile, so the step ignores them). -/
def accAt (c : Dev nD) : (n : ℕ) → n < cfg2.N → Acc F
  | 0, h => accStep (grid2.coords ⟨0, h⟩) (blk2 V c 0 ⟨0, h⟩) (blk2 V c 1 ⟨0, h⟩) (blk2 V c 2 ⟨0, h⟩) accZero
  | n + 1, h => accStep (grid2.coords ⟨n + 1, h⟩) (blk2 V c 0 ⟨n + 1, h⟩) (blk2 V c 1 ⟨n + 1, h⟩) (blk2 V c 2 ⟨n + 1, h⟩)
      (accAt c n (Nat.lt_of_succ_lt h))

/-- The scratch operands: whole scoped buffers of the kernel's own. -/
abbrev scrD : Memref sig .tc .vmem S512x1 .f32 := Memref.whole cc2_scratch0
abbrev scrP : Memref sig .tc .vmem S512x1 .f32 := Memref.whole cc2_scratch1
abbrev scrC : Memref sig .tc .vmem S512x1 .f32 := Memref.whole cc2_scratch2

/-- The region invariant before position n: before the first point the scoped rest with every scratch at anything;
    afterwards the three accumulators at what the point before left, the other regions' staging buffers and the
    generator register at anything. -/
def PhiL (c : Dev nD) : (n : ℕ) → n ≤ cfg2.N → sProp 𝕄
  | 0, _ => Pipeline.ΦA spec2 c
  | n + 1, hn => iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scrD fullShare (accAt V c n hn).1
      ∗ owns (c : Thread nD τ) scrP fullShare (accAt V c n hn).2.1 ∗ owns (c : Thread nD τ) scrC fullShare (accAt V c n hn).2.2)
      ∗ (∃ r, prngReg c r))

/-! ## The pipeline's proof data -/

/-- The proof data of the loss pipeline on core c: the arrays as the region finds them; after the body at point t each
    input's buffer at its block, the two outputs' at the row losses and the counts of the accumulators then; the invariant
    PhiL; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => rowOut (accAt V c t.val t.isLt)
    | ⟨4, _⟩ => (accAt V c t.val t.isLt).2.2
  Φ t := PhiL V c t.val (Nat.le_of_lt_succ t.isLt)
  q _ := fullShare
  owed _ := 0

theorem A_eq2 (c : Dev nD) (w : Fin cfg2.W) : (dat2 V c).A w = V c (Pipeline.arrRef spec2 w) := by
  dsimp only [dat2]

/-! ## Facts decided over the 32 grid points -/

theorem off_iff_not_on : ∀ t : Fin cfg2.N, offDiag (grid2.coords t) ↔ ¬ onDiag (grid2.coords t) :=
  (by decide +kernel : ∀ t : Fin grid2.N, offDiag (grid2.coords t) ↔ ¬ onDiag (grid2.coords t))
theorem first_not_last : ∀ t : Fin cfg2.N, isFirst (grid2.coords t) → ¬ isLast (grid2.coords t) :=
  (by decide +kernel : ∀ t : Fin grid2.N, isFirst (grid2.coords t) → ¬ isLast (grid2.coords t))
theorem first_at_zero : ∀ t : Fin cfg2.N, t.val = 0 → isFirst (grid2.coords t) :=
  (by decide +kernel : ∀ t : Fin grid2.N, t.val = 0 → isFirst (grid2.coords t))
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem idle2_3 : ∀ t : Fin cfg2.N, ¬ isLast (grid2.coords t) → cfg2.idle 3 (grid2.coords t) = true := by decide +kernel
theorem idle2_4 : ∀ t : Fin cfg2.N, ¬ isLast (grid2.coords t) → cfg2.idle 4 (grid2.coords t) = true := by decide +kernel
theorem noFlush2_3 : ∀ t : Fin cfg2.N, ¬ isLast (grid2.coords t) → (cfg2.win 3).flush t = false := by decide +kernel
theorem noFlush2_4 : ∀ t : Fin cfg2.N, ¬ isLast (grid2.coords t) → (cfg2.win 4).flush t = false := by decide +kernel
theorem live2_3 : ∀ t : Fin cfg2.N, isLast (grid2.coords t) → cfg2.idle 3 (grid2.coords t) = false := by decide +kernel
theorem live2_4 : ∀ t : Fin cfg2.N, isLast (grid2.coords t) → cfg2.idle 4 (grid2.coords t) = false := by decide +kernel

/-! ## What the proof data says, window by window -/

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = rowOut (accAt V c t.val t.isLt) := by dsimp only [dat2]
theorem after2_4 (c : Dev nD) (t : Fin cfg2.N) : (dat2 V c).after 4 t = (accAt V c t.val t.isLt).2.2 := by dsimp only [dat2]

/-- Each input's current staging buffer holds its block at every point, fetched there or not: the body leaves inputs in place. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [A_eq2]; try rfl) t d).trans
    (by unfold Dat.fetched Dat.blockOf blk2; rw [A_eq2]; try rfl)

/-! ## The invariant's two forms -/

/-- The class invariant with the three scratch operands as memrefs owned at some contents. -/
theorem PhiA2_eq (c : Dev nD) :
    (Pipeline.ΦA spec2 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scrD fullShare d) ∗ (∃ d, owns (c : Thread nD τ) scrP fullShare d) ∗ (∃ d, owns (c : Thread nD τ) scrC fullShare d)) ∗ (∃ r, prngReg c r)) := by
  unfold Pipeline.ΦA; rw [scopedRest2_eq]; simp only [scrD, scrP, scrC, owns_whole]; try rfl

theorem PhiL_zero (c : Dev nD) (n : ℕ) (h : n ≤ cfg2.N) (hz : n = 0) : PhiL V c n h = Pipeline.ΦA spec2 c := by
  subst hz; rfl

theorem PhiL_succ (c : Dev nD) (n : ℕ) (hn : n < cfg2.N) :
    PhiL V c (n + 1) hn = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scrD fullShare (accAt V c n hn).1
      ∗ owns (c : Thread nD τ) scrP fullShare (accAt V c n hn).2.1 ∗ owns (c : Thread nD τ) scrC fullShare (accAt V c n hn).2.2)
      ∗ (∃ r, prngReg c r)) := rfl

theorem PhiL_pos (c : Dev nD) (n : ℕ) (h : n ≤ cfg2.N) (hz : n ≠ 0) :
    PhiL V c n h = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ owns (c : Thread nD τ) scrD fullShare (accAt V c (n - 1) (by omega)).1
      ∗ owns (c : Thread nD τ) scrP fullShare (accAt V c (n - 1) (by omega)).2.1 ∗ owns (c : Thread nD τ) scrC fullShare (accAt V c (n - 1) (by omega)).2.2)
      ∗ (∃ r, prngReg c r)) := by
  cases n with
  | zero => exact absurd rfl hz
  | succ n => rfl

theorem PhiL_castSucc (c : Dev nD) (t : Fin cfg2.N) :
    (dat2 V c).Φ t.castSucc = PhiL V c t.val (Nat.le_of_lt t.isLt) := by
  dsimp only [dat2]; simp only [Fin.coe_castSucc]

/-! ## The accumulators at a point, as one step of the point before -/

/-- What the point before left in the accumulators (the reset values before the very first point). -/
def prevAcc (c : Dev nD) (t : Fin cfg2.N) : Acc F :=
  if h : t.val = 0 then accZero else accAt V c (t.val - 1) (by have := t.isLt; omega)

theorem accAt_step (c : Dev nD) (t : Fin cfg2.N) :
    accAt V c t.val t.isLt = accStep (grid2.coords t) (blk2 V c 0 t) (blk2 V c 1 t) (blk2 V c 2 t) (prevAcc V c t) := by
  obtain ⟨n, hn⟩ := t
  cases n with
  | zero => unfold prevAcc; rw [dif_pos rfl]; rfl
  | succ n => unfold prevAcc; rw [dif_neg (Nat.succ_ne_zero n)]; rfl

theorem prevAcc_pos (c : Dev nD) (t : Fin cfg2.N) (hz : t.val ≠ 0) :
    prevAcc V c t = accAt V c (t.val - 1) (by have := t.isLt; omega) := by
  unfold prevAcc; rw [dif_neg hz]

theorem accStep_first_on {i : grid2.Coords} (h1 : isFirst i) (h2 : onDiag i) (a : Vec F S512x256 .bf16) (b : Vec F S4096x256 .bf16) (l : Vec F S512x1024 .i32) (s : Acc F) :
    accStep i a b l s = accOn i a b l accZero := by unfold accStep; rw [if_pos h2, if_pos h1]
theorem accStep_first_off {i : grid2.Coords} (h1 : isFirst i) (h2 : ¬ onDiag i) (a : Vec F S512x256 .bf16) (b : Vec F S4096x256 .bf16) (l : Vec F S512x1024 .i32) (s : Acc F) :
    accStep i a b l s = accOff i a b l accZero := by unfold accStep; rw [if_neg h2, if_pos h1]
theorem accStep_next_on {i : grid2.Coords} (h1 : ¬ isFirst i) (h2 : onDiag i) (a : Vec F S512x256 .bf16) (b : Vec F S4096x256 .bf16) (l : Vec F S512x1024 .i32) (s : Acc F) :
    accStep i a b l s = accOn i a b l s := by unfold accStep; rw [if_pos h2, if_neg h1]
theorem accStep_next_off {i : grid2.Coords} (h1 : ¬ isFirst i) (h2 : ¬ onDiag i) (a : Vec F S512x256 .bf16) (b : Vec F S4096x256 .bf16) (l : Vec F S512x1024 .i32) (s : Acc F) :
    accStep i a b l s = accOff i a b l s := by unfold accStep; rw [if_neg h2, if_neg h1]

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t
    ∗ (dat2 V c).leavesExact 3 t ∗ (dat2 V c).leavesExact 4 t)

set_option maxHeartbeats 16000000 in
/-- The body at any point. The inputs' memrefs hold their blocks; the point's four conditions select the case; the invariant
    hands the body the three accumulators at what the point before left (at anything before the first point, where they
    are reset) and takes them back at this point's step; an output block is written only at a last column tile and is
    handed back untouched elsewhere; the other regions' buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiL V c (t.val + 1) t.isLt from rfl, PhiL_succ]
  rw [show (dat2 V c).leavesExact 0 t = owns (c : Thread nD τ) (st2_0 t) fullShare ((dat2 V c).after 0 t) from by
        unfold Dat.leavesExact; rw [live2_0 t], after2_0,
      show (dat2 V c).leavesExact 1 t = owns (c : Thread nD τ) (st2_1 t) fullShare ((dat2 V c).after 1 t) from by
        unfold Dat.leavesExact; rw [live2_1 t], after2_1,
      show (dat2 V c).leavesExact 2 t = owns (c : Thread nD τ) (st2_2 t) fullShare ((dat2 V c).after 2 t) from by
        unfold Dat.leavesExact; rw [live2_2 t], after2_2]
  by_cases h1 : isFirst (grid2.coords t)
  · have h4 : ¬ isLast (grid2.coords t) := first_not_last t h1
    rw [Dat.leavesExact_idle (dat2 V c) 3 t (idle2_3 t h4) (noFlush2_3 t h4),
      Dat.leavesExact_idle (dat2 V c) 4 t (idle2_4 t h4) (noFlush2_4 t h4)]
    rw [accAt_step V c t]
    by_cases h2 : onDiag (grid2.coords t)
    · have h3 : ¬ offDiag (grid2.coords t) := fun h => (off_iff_not_on t).mp h h2
      by_cases hz : t.val = 0
      ·
        rw [accStep_first_on h1 h2]; unfold accOn accZero; dsimp only
        rw [PhiL_castSucc V c t, PhiL_zero V c _ _ hz, PhiA2_eq]
        iintro ⟨⟨⟨S0, S1, S2, S3, S4, S5, S6, S7, ⟨%D, HD⟩, ⟨%P, HP⟩, ⟨%C, HC⟩⟩, Hg⟩, Ho, ⟨%d0, H0⟩, ⟨%d1, H1⟩, ⟨%d2, H2⟩, ⟨%d3, H3⟩, ⟨%d4, H4⟩⟩
        iapply (run_first_on c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
      ·
        rw [accStep_first_on h1 h2]; unfold accOn accZero; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_first_on c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
    · have h3 : offDiag (grid2.coords t) := (off_iff_not_on t).mpr h2
      by_cases hz : t.val = 0
      ·
        rw [accStep_first_off h1 h2]; unfold accOff accZero; dsimp only
        rw [PhiL_castSucc V c t, PhiL_zero V c _ _ hz, PhiA2_eq]
        iintro ⟨⟨⟨S0, S1, S2, S3, S4, S5, S6, S7, ⟨%D, HD⟩, ⟨%P, HP⟩, ⟨%C, HC⟩⟩, Hg⟩, Ho, ⟨%d0, H0⟩, ⟨%d1, H1⟩, ⟨%d2, H2⟩, ⟨%d3, H3⟩, ⟨%d4, H4⟩⟩
        iapply (run_first_off c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
      ·
        rw [accStep_first_off h1 h2]; unfold accOff accZero; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_first_off c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun h => h1 (first_at_zero t h)
    by_cases h4 : isLast (grid2.coords t)
    · rw [show (dat2 V c).leavesExact 3 t = owns (c : Thread nD τ) (st2_3 t) fullShare ((dat2 V c).after 3 t) from by
            unfold Dat.leavesExact; rw [live2_3 t h4], after2_3,
          show (dat2 V c).leavesExact 4 t = owns (c : Thread nD τ) (st2_4 t) fullShare ((dat2 V c).after 4 t) from by
            unfold Dat.leavesExact; rw [live2_4 t h4], after2_4]
      rw [accAt_step V c t]
      by_cases h2 : onDiag (grid2.coords t)
      · have h3 : ¬ offDiag (grid2.coords t) := fun h => (off_iff_not_on t).mp h h2
        rw [accStep_next_on h1 h2, prevAcc_pos V c t hz]; unfold accOn rowOut; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_last_on c Set.univ (grid2.coords t) _ _ _ _ _ _ _ _ _ _ _ _ _ _ _ _ h1 h2 h3 h4 (blk2 V c 0 t) (blk2 V c 1 t) (blk2 V c 2 t) _ _ _ _)
        isplitl [H0]; · iexact H0
        isplitl [H1]; · iexact H1
        isplitl [H2]; · iexact H2
        isplitl [H3]; · iexists _; iexact H3
        isplitl [H4]; · iexists _; iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexact H3
        iexact H4
      · have h3 : offDiag (grid2.coords t) := (off_iff_not_on t).mpr h2
        rw [accStep_next_off h1 h2, prevAcc_pos V c t hz]; unfold accOff rowOut; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_last_off c Set.univ (grid2.coords t) _ _ _ _ _ _ _ _ _ _ _ _ _ _ _ _ h1 h2 h3 h4 (blk2 V c 0 t) (blk2 V c 1 t) (blk2 V c 2 t) _ _ _ _)
        isplitl [H0]; · iexact H0
        isplitl [H1]; · iexact H1
        isplitl [H2]; · iexact H2
        isplitl [H3]; · iexists _; iexact H3
        isplitl [H4]; · iexists _; iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexact H3
        iexact H4
    · rw [Dat.leavesExact_idle (dat2 V c) 3 t (idle2_3 t h4) (noFlush2_3 t h4),
        Dat.leavesExact_idle (dat2 V c) 4 t (idle2_4 t h4) (noFlush2_4 t h4)]
      rw [accAt_step V c t]
      by_cases h2 : onDiag (grid2.coords t)
      · have h3 : ¬ offDiag (grid2.coords t) := fun h => (off_iff_not_on t).mp h h2
        rw [accStep_next_on h1 h2, prevAcc_pos V c t hz]; unfold accOn; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_mid_on c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4
      · have h3 : offDiag (grid2.coords t) := (off_iff_not_on t).mpr h2
        rw [accStep_next_off h1 h2, prevAcc_pos V c t hz]; unfold accOff; dsimp only
        rw [PhiL_castSucc V c t, PhiL_pos V c _ _ hz]
        iintro ⟨⟨⟨S0, S1, S2, S3, S4, S5, S6, S7, HD, HP, HC⟩, Hg⟩, Ho, ⟨%d0, H0⟩, ⟨%d1, H1⟩, ⟨%d2, H2⟩, ⟨%d3, H3⟩, ⟨%d4, H4⟩⟩
        iapply (run_mid_off c Set.univ (grid2.coords t) _ _ _ _ _ _ _ _ _ _ _ _ _ _ _ _ h1 h2 h3 h4 (blk2 V c 0 t) (blk2 V c 1 t) (blk2 V c 2 t) _ _ _ _ _ _)
        isplitl [H0]; · iexact H0
        isplitl [H1]; · iexact H1
        isplitl [H2]; · iexact H2
        isplitl [H3]; · iexact H3
        isplitl [H4]; · iexact H4
        isplitl [HD]; · iexact HD
        isplitl [HP]; · iexact HP
        isplitl [HC]; · iexact HC
        iintro ⟨H0, H1, H2, H3, H4, HD, HP, HC⟩
        isplitl [S0 S1 S2 S3 S4 S5 S6 S7 HD HP HC Hg]
        · isplitr [Hg]
          ·
            isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            isplitl [HD]; · iexact HD
            isplitl [HP]; · iexact HP
            iexact HC
          · iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiL V c 0 (Nat.zero_le _) from rfl, PhiL_zero V c 0 _ rfl]

/-- After the last point the invariant gives the class invariant back: the accumulators' named contents are forgotten. -/
theorem hout2 (c : Dev nD) : (dat2 (F := F) V c).Φ (Fin.last cfg2.N) ⊢ Pipeline.ΦA spec2 c := by
  rw [show (dat2 V c).Φ (Fin.last cfg2.N) = PhiL V c cfg2.N (le_refl _) from rfl,
    PhiL_pos V c _ _ (by rw [show cfg2.N = 32 from N_2]; decide), PhiA2_eq]
  iintro ⟨⟨S0, S1, S2, S3, S4, S5, S6, S7, HD, HP, HC⟩, Hg⟩
  isplitr [Hg]
  ·
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [HD]; · iexists _; iexact HD
    isplitl [HP]; · iexists _; iexact HP
    iexists _; iexact HC
  · iexact Hg

end Cert.KernelIdeal.Hand

end
-- ==== Proof.KernelRunI.lean ====
/-
  The run of @main over its six segments: the three kernel regions, then the three stretches of host operations
  that turn the loss region's two result arrays into the scalar loss.

  Between two segments every unscoped buffer of a core is held at contents named here, a fold from the launch
  memory: a region replaces its windows' arrays by what its write-backs leave and keeps every other buffer; a
  host stretch applies its operations. Each region is entered from the contents the segment before it left, its
  proof data stated at exactly those contents. The run then says what every unscoped buffer holds at the end;
  the argument arrays, which no segment writes, hold what they held at launch.
-/
import proofs.«105816_j90091234001463_2_alg».proof.Proof.PoolFrameI
import proofs.«105816_j90091234001463_2_alg».proof.Proof.LossDatI
import proofs.«105816_j90091234001463_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core c's buffers at launch. -/
abbrev W0 : Dev nD → Valuation τ sig (Elt F) := fun c b => m (c, b)
/-- The same read at the TensorCore's references: what the first pooling region is entered from. -/
abbrev E0 : (c : Dev nD) → (b : Ref sig .tc) → Buf (Elt F) ((c : Thread nD τ).loc b) := fun c b => W0 m c b

/-- After the first pooling region: its two arrays at what the pipeline leaves, every other buffer as it was. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same at the TensorCore's references: what the second pooling region is entered from. -/
abbrev E1 : (c : Dev nD) → (b : Ref sig .tc) → Buf (Elt F) ((c : Thread nD τ).loc b) := fun c b => W1 m c b

/-- After the second pooling region. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same at the TensorCore's references: what the loss region is entered from. -/
abbrev E2 : (c : Dev nD) → (b : Ref sig .tc) → Buf (Elt F) ((c : Thread nD τ).loc b) := fun c b => W2 m c b

/-- After the loss region. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same at the TensorCore's references. -/
abbrev E3 : (c : Dev nD) → (b : Ref sig .tc) → Buf (Elt F) ((c : Thread nD τ).loc b) := fun c b => W3 m c b

/-- After the two sums over the row losses and the counts, the comparison, the clamp and the quotient. -/
abbrev W4 : Dev nD → Valuation τ sig (Elt F) := fun c => StableHlo.after hostOps3 (W3 m c)
/-- After the selection between the quotient and zero. -/
abbrev W5 : Dev nD → Valuation τ sig (Elt F) := fun c => StableHlo.after hostOps3_1 (W4 m c)
/-- After the weighting: the end of @main. -/
abbrev W6 : Dev nD → Valuation τ sig (Elt F) := fun c => StableHlo.after hostOps3_2 (W5 m c)

/-! ### Each region's arrays and the rest, at its exit -/

theorem exit_arrays0 (c : Dev nD) (w : Fin cfg0.W) : (dat0 (E0 m) c).arrAt w cfg0.N = E1 m c (Pipeline.arrRef spec0 w) :=
  (W1_arr m c w).symm
theorem exit_rest0 (c : Dev nD) : ∀ b, b ∉ Finset.univ.image (Pipeline.arrRef spec0) → E1 m c b = E0 m c b :=
  fun b hb => W1_of_ne m c b fun w e => hb (Finset.mem_image.mpr ⟨w, Finset.mem_univ _, e⟩)
theorem exit_arrays1 (c : Dev nD) (w : Fin cfg1.W) : (dat1 (E1 m) c).arrAt w cfg1.N = E2 m c (Pipeline.arrRef spec1 w) :=
  (W2_arr m c w).symm
theorem exit_rest1 (c : Dev nD) : ∀ b, b ∉ Finset.univ.image (Pipeline.arrRef spec1) → E2 m c b = E1 m c b :=
  fun b hb => W2_of_ne m c b fun w e => hb (Finset.mem_image.mpr ⟨w, Finset.mem_univ _, e⟩)
theorem exit_arrays2 (c : Dev nD) (w : Fin cfg2.W) : (dat2 (E2 m) c).arrAt w cfg2.N = E3 m c (Pipeline.arrRef spec2 w) :=
  (W3_arr m c w).symm
theorem exit_rest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-! ## The proof data of the three pipelines, and what rides beside the buffers -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c

abbrev noVariants : Variants := Variants.none
/-- No core owes another anything, so no level is assigned. -/
abbrev noPairs : GSem nD τ sig → Finset Unit := fun _ => ∅
abbrev noLevel : GSem nD τ sig → Unit → ℕ := fun _ _ => 0

/-- Beside the buffers, through every segment: the core's generator register at some state and the core owing nothing. -/
abbrev rider (c : Dev nD) : sProp 𝕄 :=
  iprop((∃ r, prngReg c r) ∗ ∃ W, owes (c : Thread nD τ) (0 : CellTallies nD τ sig Unit) W)

/-- The thread state at a boundary: every unscoped buffer at the boundary's contents, and the rider. -/
abbrev stateAt (W : Dev nD → Valuation τ sig (Elt F)) (c : Dev nD) : sProp 𝕄 :=
  iprop(StableHlo.held (c : Thread nD τ) (Pipeline.ucRefs τ sig) (W c) ∗ rider c)

/-- A stretch of host operations as a segment, from the contents W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rider

/-- An unscoped TensorCore reference is among those the thread state holds. -/
theorem mem_unscoped (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

set_option backward.isDefEq.respectTransparency.types false in
/-- REGION 0 as a segment: entered with every unscoped buffer at W0, left with them at W1. At the entry the
    pipeline's arrays are taken out of the unscoped buffers at the proof data's entry contents and the other buffers
    bypass the region; the generator register goes into the region invariant and comes back; at the exit the arrays, at
    what the write-backs left, rejoin the bypassing buffers. The core owes nothing throughout and the kernel has no
    semaphore of its own. -/
def region0 : Pipeline.RegionSeg (pcfgs (F := F)) adm (pdats m) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ noPairs noLevel 0 fun _ _ => rfl
  pre c := stateAt (W0 m) c
  post c := stateAt (W1 m) c
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have take := Pipeline.arrays_of_unscopedBufs (p := 0) (pcfgs (F := F)) adm (pdats m) launch0.win launch0.arr_whole c
      ((pdats m 0 c).share_full fun _ => rfl) (E0 m c) fun _ => rfl
    rw [Pipeline.unscopedBufs_held] at take
    iintro ⟨⟨Hbufs, Hreg, Howes⟩, -, -⟩
    ihave Hsplit := take $$ Hbufs
    icases Hsplit with ⟨Harr, Hbypass⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hbypass
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have join := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit_arrays0 m c) (exit_rest0 m c)
    rw [Pipeline.unscopedBufs_held] at join
    iintro ⟨Harr, Howes, Hreg, Hbypass⟩
    imodintro
    isplitl [Harr Hbypass]
    · iapply join; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- REGION 1 as a segment: entered with every unscoped buffer at W1, left with them at W2. At the entry the
    pipeline's arrays are taken out of the unscoped buffers at the proof data's entry contents and the other buffers
    bypass the region; the generator register goes into the region invariant and comes back; at the exit the arrays, at
    what the write-backs left, rejoin the bypassing buffers. The core owes nothing throughout and the kernel has no
    semaphore of its own. -/
def region1 : Pipeline.RegionSeg (pcfgs (F := F)) adm (pdats m) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ noPairs noLevel 1 fun _ _ => rfl
  pre c := stateAt (W1 m) c
  post c := stateAt (W2 m) c
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have take := Pipeline.arrays_of_unscopedBufs (p := 1) (pcfgs (F := F)) adm (pdats m) launch1.win launch1.arr_whole c
      ((pdats m 1 c).share_full fun _ => rfl) (E1 m c) fun _ => rfl
    rw [Pipeline.unscopedBufs_held] at take
    iintro ⟨⟨Hbufs, Hreg, Howes⟩, -, -⟩
    ihave Hsplit := take $$ Hbufs
    icases Hsplit with ⟨Harr, Hbypass⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hbypass
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have join := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (exit_arrays1 m c) (exit_rest1 m c)
    rw [Pipeline.unscopedBufs_held] at join
    iintro ⟨Harr, Howes, Hreg, Hbypass⟩
    imodintro
    isplitl [Harr Hbypass]
    · iapply join; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- REGION 2 as a segment: entered with every unscoped buffer at W2, left with them at W3. At the entry the
    pipeline's arrays are taken out of the unscoped buffers at the proof data's entry contents and the other buffers
    bypass the region; the generator register goes into the region invariant and comes back; at the exit the arrays, at
    what the write-backs left, rejoin the bypassing buffers. The core owes nothing throughout and the kernel has no
    semaphore of its own. -/
def region2 : Pipeline.RegionSeg (pcfgs (F := F)) adm (pdats m) () defs₀ noVariants noPairs noLevel 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ noPairs noLevel 2 fun _ _ => rfl
  pre c := stateAt (W2 m) c
  post c := stateAt (W3 m) c
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have take := Pipeline.arrays_of_unscopedBufs (p := 2) (pcfgs (F := F)) adm (pdats m) launch2.win launch2.arr_whole c
      ((pdats m 2 c).share_full fun _ => rfl) (E2 m c) fun _ => rfl
    rw [Pipeline.unscopedBufs_held] at take
    iintro ⟨⟨Hbufs, Hreg, Howes⟩, -, -⟩
    ihave Hsplit := take $$ Hbufs
    icases Hsplit with ⟨Harr, Hbypass⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hbypass
  hin c := by
    refine BIBase.Entails.trans ?_ (hin2 (E2 m) c)
    unfold Pipeline.ΦA
    iintro ⟨Hreg, -, Hscoped⟩
    isplitl [Hscoped]; · iexact Hscoped
    iexact Hreg
  hout c := by
    rw [Pipeline.ownSems0_none]
    refine BIBase.Entails.trans (hout2 (E2 m) c) ?_
    unfold Pipeline.ΦA
    iintro ⟨Hscoped, Hreg⟩
    isplitl [Hreg]; · iexact Hreg
    isplitr; · iempintro
    iexact Hscoped
  hexit c := by
    have join := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (exit_arrays2 m c) (exit_rest2 m c)
    rw [Pipeline.unscopedBufs_held] at join
    iintro ⟨Harr, Howes, Hreg, Hbypass⟩
    imodintro
    isplitl [Harr Hbypass]
    · iapply join; isplitl [Harr] <;> iassumption
    isplitl [Hreg]; · iexact Hreg
    unfold Pipeline.Dat.owesAt Pipeline.owesWithin
    icases Howes with ⟨%W, -, Howes⟩; iexists W; iexact Howes

/-! ## @main as its six segments, and the run -/

/-- The segments in @main's order: the three regions, then the three host stretches. -/
abbrev segments : List (Pipeline.Seg (pcfgs (F := F)) adm (pdats m) () defs₀ noVariants noPairs noLevel) :=
  [ .region (region0 m),
    .region (region1 m),
    .region (region2 m),
    .host (hostSeg hostOps3 hostOps3_sub hostOps3_fresh (W3 m)),
    .host (hostSeg hostOps3_1 hostOps3_1_sub hostOps3_1_fresh (W4 m)),
    .host (hostSeg hostOps3_2 hostOps3_2_sub hostOps3_2_fresh (W5 m)) ]

/-- @main is the run of the segments: both are the same chain of six items. -/
theorem main_is_segments (c : Dev nD) : main (F := F) c = Pipeline.Seg.run (segments m) :=
  (main_chain c).trans (by chain_rfl)

variable (ρ : Dev nD → PrngReg)

set_option backward.isDefEq.respectTransparency.types false in
/-- THE RUN. From any memory m with zero counters every weakly fair execution of @main on the TensorCores terminates,
    nothing faulting, and in every final state each unscoped buffer of each core holds the last boundary's contents. -/
theorem kernel_run : θ_run defs (onTc (τ := τ) (main (F := F))) ⟨m, fun _ => 0, ρ⟩ (fun r => ∀ c : Dev nD,
      ∀ b ∈ Pipeline.ucRefs τ sig, r.2.mem ((c : Thread nD τ).1, b) = W6 m c b) :=
  Pipeline.θ_run_regions_kit (pcfgs (F := F)) adm (pdats m) () cellOf_inj emb₁ defs₀ noVariants noPairs noLevel m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ rider c) ⊢ _
      iintro ⟨Hbufs, Hreg, Howes⟩
      isplitr [Howes]
      · isplitl [Hbufs]; · iexact Hbufs
        iexact Hreg
      iexact Howes⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W6 m c b)
    (hfin := fun c s' => by
      iintro ⟨⟨Hbufs, -⟩, HSI⟩
      unfold StableHlo.held
      imodintro
      iapply (pointsTo_read_all (Pipeline.ucRefs τ sig) (fun b => (((c : Thread nD τ)).1, b)) (W6 m c) s')
      isplitl [Hbufs] <;> iassumption)
    (hQ := fun s h => h)

/-! ## The argument arrays at the end -/

/-- A buffer a host stretch does not write holds after it what it held before. -/
theorem W4_of (c : Dev nD) (r : Ref sig .tc) (h : r ∉ (hostOps3_W : List (Ref sig .tc))) : W4 m c r = W3 m c r :=
  StableHlo.after_of_writes_sub hostOps3 _ hostOps3_writes h
theorem W5_of (c : Dev nD) (r : Ref sig .tc) (h : r ∉ (hostOps3_1_W : List (Ref sig .tc))) : W5 m c r = W4 m c r :=
  StableHlo.after_of_writes_sub hostOps3_1 _ hostOps3_1_writes h
theorem W6_of (c : Dev nD) (r : Ref sig .tc) (h : r ∉ (hostOps3_2_W : List (Ref sig .tc))) : W6 m c r = W5 m c r :=
  StableHlo.after_of_writes_sub hostOps3_2 _ hostOps3_2_writes h

/-- The first argument is read by the first pooling region through an input window, which leaves it as it was, and
    touched by nothing else. -/
theorem W6_main_arg0 (c : Dev nD) : W6 m c main_arg0 = m ((c : Thread nD τ).loc main_arg0) :=
  calc W6 m c main_arg0
    _ = W5 m c main_arg0 := W6_of m c main_arg0 (by decide)
    _ = W4 m c main_arg0 := W5_of m c main_arg0 (by decide)
    _ = W3 m c main_arg0 := W4_of m c main_arg0 (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) :=
        (W1_arr m c 0).trans (((dat0 (E0 m) c).arrAt_in 0 rfl _).trans (arrays_dat0 (E0 m) c 0))
    _ = m ((c : Thread nD τ).loc main_arg0) := rfl

/-- The second argument likewise, through the second pooling region's input window. -/
theorem W6_main_arg1 (c : Dev nD) : W6 m c main_arg1 = m ((c : Thread nD τ).loc main_arg1) :=
  calc W6 m c main_arg1
    _ = W5 m c main_arg1 := W6_of m c main_arg1 (by decide)
    _ = W4 m c main_arg1 := W5_of m c main_arg1 (by decide)
    _ = W3 m c main_arg1 := W4_of m c main_arg1 (by decide)
    _ = W2 m c (Proc.devRef .tc main_arg1) := W3_of_ne m c main_arg1 (by decide)
    _ = W1 m c (Proc.devRef .tc main_arg1) :=
        (W2_arr m c 0).trans (((dat1 (E1 m) c).arrAt_in 0 rfl _).trans (arrays_dat1 (E1 m) c 0))
    _ = W0 m c (Proc.devRef .tc main_arg1) := W1_of_ne m c main_arg1 (by decide)
    _ = m ((c : Thread nD τ).loc main_arg1) := rfl

/-- The labels are read by the loss region through its third input window. -/
theorem W6_main_arg2 (c : Dev nD) : W6 m c main_arg2 = m ((c : Thread nD τ).loc main_arg2) :=
  calc W6 m c main_arg2
    _ = W5 m c main_arg2 := W6_of m c main_arg2 (by decide)
    _ = W4 m c main_arg2 := W5_of m c main_arg2 (by decide)
    _ = W3 m c main_arg2 := W4_of m c main_arg2 (by decide)
    _ = W2 m c (Proc.devRef .tc main_arg2) :=
        (W3_arr m c 2).trans (((dat2 (E2 m) c).arrAt_in 2 rfl _).trans (A_eq2 (E2 m) c 2))
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

/-- THE FRAME: every weakly fair execution of @main terminates, nothing faulting, and the three argument arrays end
    as launched. -/
theorem kernel_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_unscoped main_arg0 (by decide))).trans (W6_main_arg0 m c),
       (h c _ (mem_unscoped main_arg1 (by decide))).trans (W6_main_arg1 m c),
       (h c _ (mem_unscoped main_arg2 (by decide))).trans (W6_main_arg2 m c)⟩)
    (kernel_run m ρ)

end Cert.KernelIdeal.Hand

end
-- ==== Proof.KernelTailI.lean ====
/-
  The scalar @main returns, as the host operations after the loss region compute it from the two arrays that
  region leaves: the row losses summed, over the larger of the summed counts and one, when the summed counts are
  positive, else zero; times the weight.
-/
import proofs.«105816_j90091234001463_2_alg».proof.Proof.KernelRunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.StableHlo

variable {F : FTy → Type} [FloatOps F]
variable (m : (ℓ : Loc nD τ sig) → Buf (Elt F) ℓ)

/-- The row losses the loss region leaves, summed from zero. -/
def totSum (c : Dev nD) : (⟨S_, .f32⟩ : BufTy).Contents (Elt F) :=
  Host.reduceAdd ((dat2 (E2 m) c).arrAt 3 cfg2.N) (constant S_ .f32 0x00000000#32) reducesTo_S4096x1_S_d0_1 h_S_

/-- The counts it leaves, summed from zero. -/
def cntSum (c : Dev nD) : (⟨S_, .f32⟩ : BufTy).Contents (Elt F) :=
  Host.reduceAdd ((dat2 (E2 m) c).arrAt 4 cfg2.N) (constant S_ .f32 0x00000000#32) reducesTo_S4096x1_S_d0_1 h_S_

/-- The result buffer at the end of @main. -/
theorem W6_main_v9 (c : Dev nD) :
    W6 m c main_v9 = mulf (constant S_ .f32 0x3E99999A#32)
      (select (cmpf .ogt (cntSum m c) (constant S_ .f32 0x00000000#32))
        (Host.divf (totSum m c) (maximumf (cntSum m c) (constant S_ .f32 0x3F800000#32)))
        (constant S_ .f32 0x00000000#32)) := by
  show StableHlo.after hostOps3_2 (StableHlo.after hostOps3_1 (StableHlo.after hostOps3 (W3 m c))) (Proc.devRef .tc main_v9) = _
  simp only [hostOps3, hostOps3_1, hostOps3_2]
  after_results
  rw [show W3 m c (Proc.devRef .tc main_v2_0) = (dat2 (E2 m) c).arrAt 3 cfg2.N from W3_arr m c 3,
    show W3 m c (Proc.devRef .tc main_v2_1) = (dat2 (E2 m) c).arrAt 4 cfg2.N from W3_arr m c 4]
  rfl

end Cert.KernelIdeal.Hand

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Spec.lean ====
/-
  The loss as one function of the three argument arrays, on the extended reals.

  For x, y : [4096, 8, 256] and labels lab : [4096, 4096]:
    mean x i d   = (Σ_s x(i,s,d)) · (1/8)                      the slot mean
    rn x i d     = mean x i d / max(√(Σ_d mean x i d²), ε₁₂)    the row scaled to unit length
    sim i k      = (Σ_d rn x i d · rn y k d) / T               the scaled inner product of row i of x with row k of y
    pos i k      ⇔ lab(i,k) ≠ 0 and i ≠ k                      the positive pairs off the diagonal
    denom i      = Σ_k [i ≠ k] e^{sim i k}
    sumpos i     = Σ_k [pos i k] sim i k
    cnt i        = Σ_k [pos i k] 1
    rowloss i    = cnt i · log(denom i + ε₈) − sumpos i
    loss         = λ · (if 0 < Σ_i cnt i then (Σ_i rowloss i) / max(Σ_i cnt i, 1) else 0)
  The constants 1/8, ε₁₂, T, ε₈, λ are the values of the f32 words both programs print.
-/
import Idealize.ShloMosaic.PureOps.Ideal
import Idealize.ShloMosaic.Lib.ValueIdx

noncomputable section

namespace Cert.Spec

open Idealize.ShloMosaic Idealize.ShloMosaic.ValueIdx

abbrev SX : Shape := ⟨3, ![4096, 8, 256]⟩
abbrev SL : Shape := ⟨2, ![4096, 4096]⟩

/-- The word of 0.125. -/
def c8inv : EReal := Ideal.ofBits .f32 0x3E000000#32
/-- The word of 1e-12 rounded to f32. -/
def eps12 : EReal := Ideal.ofBits .f32 0x2B8CBCCC#32
/-- The word of the temperature 0.07 rounded to f32. -/
def temp : EReal := Ideal.ofBits .f32 0x3D8F5C29#32
/-- The word of 1e-8 rounded to f32. -/
def eps8 : EReal := Ideal.ofBits .f32 0x322BCC77#32
/-- The word of the weight 0.3 rounded to f32. -/
def lam : EReal := Ideal.ofBits .f32 0x3E99999A#32

/-- The mean over the 8 slots, as the sum times 1/8. -/
def mean (x : SX.Idx → EReal) (i : Fin 4096) (d : Fin 256) : EReal :=
  (∑ s : Fin 8, x (ix3 i s d)) * c8inv

/-- The squared length of a row of means. -/
def sq (x : SX.Idx → EReal) (i : Fin 4096) : EReal := ∑ d : Fin 256, mean x i d * mean x i d

/-- The row of means scaled to unit length (length clamped below by ε₁₂). -/
def rn (x : SX.Idx → EReal) (i : Fin 4096) (d : Fin 256) : EReal :=
  Ideal.div (mean x i d) (max (Ideal.sqrt (sq x i)) eps12)

/-- The similarity of row i of x and row k of y, over the temperature. -/
def sim (x y : SX.Idx → EReal) (i k : Fin 4096) : EReal :=
  Ideal.div (∑ d : Fin 256, rn x i d * rn y k d) temp

/-- A positive pair off the diagonal. -/
def pos (lab : SL.Idx → BitVec 32) (i k : Fin 4096) : Prop := lab (ix2 i k) ≠ 0#32 ∧ i ≠ k

instance (lab : SL.Idx → BitVec 32) (i k : Fin 4096) : Decidable (pos lab i k) := by
  unfold pos; infer_instance

/-- The row's denominator: the exponentials of its similarities, the diagonal left out. -/
def denom (x y : SX.Idx → EReal) (i : Fin 4096) : EReal :=
  ∑ k : Fin 4096, if i = k then 0 else Ideal.exp (sim x y i k)

/-- The row's similarities summed over its positive pairs. -/
def sumpos (x y : SX.Idx → EReal) (lab : SL.Idx → BitVec 32) (i : Fin 4096) : EReal :=
  ∑ k : Fin 4096, if pos lab i k then sim x y i k else 0

/-- The number of the row's positive pairs. -/
def cnt (lab : SL.Idx → BitVec 32) (i : Fin 4096) : EReal :=
  ∑ k : Fin 4096, if pos lab i k then 1 else 0

/-- The row's loss: count · log(denominator + ε₈) − the positive similarities. -/
def rowloss (x y : SX.Idx → EReal) (lab : SL.Idx → BitVec 32) (i : Fin 4096) : EReal :=
  cnt lab i * Ideal.log (denom x y i + eps8) - sumpos x y lab i

/-- The row losses summed. -/
def total (x y : SX.Idx → EReal) (lab : SL.Idx → BitVec 32) : EReal := ∑ i : Fin 4096, rowloss x y lab i

/-- The number of positive pairs. -/
def cntT (lab : SL.Idx → BitVec 32) : EReal := ∑ i : Fin 4096, cnt lab i

open Classical in
/-- The loss: λ times the mean row loss over the positive pairs, 0 when there is none. -/
def loss (x y : SX.Idx → EReal) (lab : SL.Idx → BitVec 32) : EReal :=
  lam * (if 0 < cntT lab then Ideal.div (total x y lab) (max (cntT lab) 1) else 0)

end Cert.Spec

end
-- ==== Proof.PoolPayload.lean ====
/-
  The pooling body's arithmetic at one row and one lane, on the extended reals.

  The body is handed a block x of 1024 rows, each of 8 slots of 256 lanes. For row r and lane q it forms the slot
  mean m(r, q) = (the sum over the 8 slots s of x(r, s, q)) times the word of 1/8, then the row's squared length
  (the sum over the 256 lanes d of m(r, d) squared), and stores m(r, q) over the larger of the length's square root
  and the word of 1e-12. The narrowing to bf16 that ends it changes nothing on the extended reals.

  The three non-pointwise steps are each read at coordinates: the slot sum (a sum over the middle axis of a
  three-axis block, below), the lane sum and the two layout steps that keep the row's length as a column and spread
  it over the lanes (the keepdims module). Last, a block row that is row i of a whole [4096, 8, 256] array has the
  array's normalised row i.
-/
import proofs.«105816_j90091234001463_2_alg».proof.Proof.Gen.KernelIdeal.Skeleton
import proofs.«105816_j90091234001463_2_alg».proof.Proof.LibKeepdims
import proofs.«105816_j90091234001463_2_alg».proof.Proof.Spec

noncomputable section

namespace Cert.KernelIdeal.Hand

open Cert.KernelIdeal Cert.KernelIdeal.Gen
open Idealize.ShloMosaic Idealize.ShloMosaic.ValueIdx

/-! ## A sum over the middle axis of a three-axis block -/

/-- Row i, lane k with slot j put back on the reduced middle axis is (i, j, k). -/
theorem lift_middle_ix3 {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- A float add-reduction of an [a, b, c] block over its middle axis, read on the extended reals at row i, lane k:
    the sum over the middle coordinate of the block's entries (i, j, k). -/
theorem multiReduction_add_middle {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (k : Fin c) :
    multiReduction .add [1] ⟨2, ![a, c]⟩ src acc h hφ hacc (ix2 i k) = ∑ j : Fin b, src (ix3 i j k) := by
  rw [Ideal.multiReduction_add_single]
  exact Finset.sum_congr rfl fun j _ => congrArg src (lift_middle_ix3 h i k j)

/-! ## The block's means and normalised rows -/

/-- The slot mean of row r, lane d of a block: the sum over its 8 slots times the word of 1/8. -/
def blockMean (x : S1024x8x256.Idx → EReal) (r : Fin 1024) (d : Fin 256) : EReal :=
  (∑ s : Fin 8, x (ix3 r s d)) * Cert.Spec.c8inv

/-- Row r of the block's means scaled to unit length, at lane q. -/
def blockNorm (x : S1024x8x256.Idx → EReal) (r : Fin 1024) (q : Fin 256) : EReal :=
  Ideal.div (blockMean x r q) (max (Ideal.sqrt (∑ d : Fin 256, blockMean x r d * blockMean x r d)) Cert.Spec.eps12)

/-- A block row that is row i of a whole array has the array's normalised row i: the means, the squared length and
    the quotient read only that row. -/
theorem blockNorm_eq_rn (X : Cert.Spec.SX.Idx → EReal) (x : S1024x8x256.Idx → EReal) (i : Fin 4096) (r : Fin 1024)
    (hx : ∀ (s : Fin 8) (d : Fin 256), x (ix3 r s d) = X (ix3 i s d)) (q : Fin 256) :
    blockNorm x r q = Cert.Spec.rn X i q := by
  have hm : ∀ d : Fin 256, blockMean x r d = Cert.Spec.mean X i d := fun d => by
    unfold blockMean Cert.Spec.mean
    exact congrArg (· * Cert.Spec.c8inv) (Finset.sum_congr rfl fun s _ => hx s d)
  unfold blockNorm Cert.Spec.rn Cert.Spec.sq
  rw [hm q]
  exact congrArg (fun z => Ideal.div (Cert.Spec.mean X i q) (max (Ideal.sqrt z) Cert.Spec.eps12))
    (Finset.sum_congr rfl fun d _ => by rw [hm d])

/-! ## The payload of region K's body -/

/-- The first two steps of the payload at (r, d): the slot mean. -/
theorem slot_mean0 (x : FVec Ideal S1024x8x256 .f32) (r : Fin 1024) (d : Fin 256) :
    mulf (multiReduction (F := Ideal) .add [1] S1024x256 x 0x00000000#32 reduces_S1024x8x256_S1024x256 (.inl rfl) rfl)
      (broadcast S1024x256 (Scalar.ofBits (F := Ideal) .f32 0x3E000000#32)) (ix2 r d) = blockMean x r d :=
  congrArg (· * Cert.Spec.c8inv) (multiReduction_add_middle x _ _ _ _ r d)

/-- What the body stores at row r, lane q is the block's normalised row r at lane q. -/
theorem payload0_apply (x : FVec Ideal S1024x8x256 .f32) (r : Fin 1024) (q : Fin 256) :
    k0_pay1 (F := Ideal) x (ix2 r q) = blockNorm x r q := by
  unfold k0_pay1 blockNorm
  refine (truncf_apply (ψ := .bf16) _ bitsLt_bf16_f32 (ix2 r q)).trans ((divf_apply _ _ (ix2 r q)).trans ?_)
  refine congrArg₂ Ideal.div (slot_mean0 x r q) ?_
  refine (ValueKeepdims.broadcastTo_a1_ab_apply _ _ r q).trans ?_
  refine (maximumf_apply _ _ _).trans ?_
  refine congrArg₂ max ?_ rfl
  refine congrArg Ideal.sqrt ?_
  refine (ValueKeepdims.shapeCast_a_a1_apply _ _ r 0).trans ?_
  refine (ValueKeepdims.multiReduction_add_row _ _ _ _ _ r).trans ?_
  exact Finset.sum_congr rfl fun d _ => congrArg₂ (· * ·) (slot_mean0 x r d) (slot_mean0 x r d)

/-! ## The payload of region K's body -/

/-- The first two steps of the payload at (r, d): the slot mean. -/
theorem slot_mean1 (x : FVec Ideal S1024x8x256 .f32) (r : Fin 1024) (d : Fin 256) :
    mulf (multiReduction (F := Ideal) .add [1] S1024x256 x 0x00000000#32 reduces_S1024x8x256_S1024x256 (.inl rfl) rfl)
      (broadcast S1024x256 (Scalar.ofBits (F := Ideal) .f32 0x3E000000#32)) (ix2 r d) = blockMean x r d :=
  congrArg (· * Cert.Spec.c8inv) (multiReduction_add_middle x _ _ _ _ r d)

/-- What the body stores at row r, lane q is the block's normalised row r at lane q. -/
theorem payload1_apply (x : FVec Ideal S1024x8x256 .f32) (r : Fin 1024) (q : Fin 256) :
    k1_pay1 (F := Ideal) x (ix2 r q) = blockNorm x r q := by
  unfold k1_pay1 blockNorm
  refine (truncf_apply (ψ := .bf16) _ bitsLt_bf16_f32 (ix2 r q)).trans ((divf_apply _ _ (ix2 r q)).trans ?_)
  refine congrArg₂ Ideal.div (slot_mean1 x r q) ?_
  refine (ValueKeepdims.broadcastTo_a1_ab_apply _ _ r q).trans ?_
  refine (maximumf_apply _ _ _).trans ?_
  refine congrArg₂ max ?_ rfl
  refine congrArg Ideal.sqrt ?_
  refine (ValueKeepdims.shapeCast_a_a1_apply _ _ r 0).trans ?_
  refine (ValueKeepdims.multiReduction_add_row _ _ _ _ _ r).trans ?_
  exact Finset.sum_congr rfl fun d _ => congrArg₂ (· * ·) (slot_mean1 x r d) (slot_mean1 x r d)

end Cert.KernelIdeal.Hand

end
-- ==== Proof.PoolValue.lean ====
/-
  What the two pooling regions leave in their result arrays, on the extended reals: the normalised rows of their
  argument arrays.

  Point t of a region is handed rows 1024 t .. 1024 t + 1023 of its [4096, 8, 256] argument array and writes its
  1024 x 256 buffer back as rows 1024 t .. 1024 t + 1023 of the [4096, 256] result array. What the body stores at
  row r, lane q of the buffer is the normalised row r of its block (the payload module), and that block row is row
  1024 t + r of the argument; so every point writes back its block of ONE whole-array function, the argument's
  normalised rows. The four blocks tile the result array (row i lies in the block of point i / 1024), so the array
  ends holding that function everywhere.
-/
import proofs.«105816_j90091234001463_2_alg».proof.Proof.PoolFrameI
import proofs.«105816_j90091234001463_2_alg».proof.Proof.PoolPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The [4096, 256] array of the normalised rows of a [4096, 8, 256] array. -/
def normRows (X : Cert.Spec.SX.Idx → EReal) : S4096x256.Idx → EReal :=
  fun j => Cert.Spec.rn X ⟨(j 0).val, idx2_lt0 j⟩ ⟨(j 1).val, idx2_lt1 j⟩

/-- A block whose row r is row 1024 T + r of a whole array X: what the body stores at row r, lane q is X's normalised
    row 1024 T + r at lane q. -/
theorem stored_eq_rn (X : Cert.Spec.SX.Idx → EReal) (T : Nat) (hT : T < 4) :
    (∀ (x : S1024x8x256.Idx → EReal),
      (∀ (r : Fin 1024) (s : Fin 8) (d : Fin 256), x (ix3 r s d) = X (ix3 (⟨T * 1024 + r.val, by omega⟩ : Fin 4096) s d)) →
      ∀ (r : Fin 1024) (q : Fin 256),
        k0_pay1 (F := Ideal) x (ix2 r q) = Cert.Spec.rn X (⟨T * 1024 + r.val, by omega⟩ : Fin 4096) q
        ∧ k1_pay1 (F := Ideal) x (ix2 r q) = Cert.Spec.rn X (⟨T * 1024 + r.val, by omega⟩ : Fin 4096) q) :=
  fun x hx r q => ⟨(payload0_apply x r q).trans (blockNorm_eq_rn X x _ r (hx r) q),
    (payload1_apply x r q).trans (blockNorm_eq_rn X x _ r (hx r) q)⟩

variable (V : (c : Dev nD) → (b : Ref sig .tc) → Buf (Elt Ideal) ((c : Thread nD τ).loc b))

/-! # Region K -/

/-- The printed index maps, decided over the grid: point t's input block is row block t at slot 0, lane 0, and its
    output block is row block t at lane 0. -/
theorem block_index0 : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- What point t writes back is block t of the normalised rows of the argument array as the region finds it. -/
theorem written_back0 (c : Dev nD) (t : Fin cfg0.N) :
    (dat0 (F := Ideal) V c).flushed 1 t = ((cfg0.win 1).blk t).view.read (Elt Ideal) (normRows (V c main_arg0)) := by
  show (cfg0.win 1).cut (grid0.coords t) ((dat0 V c).after 1 t) = _
  rw [output_after_body0]
  unfold pooled0
  obtain ⟨e0, e1, e2, e3, e4⟩ := block_index0 t
  have ht : t.val < 4 := Nat.lt_of_lt_of_eq t.isLt N_0
  funext j
  have hr : (j 0).val < 1024 := (j 0).isLt
  have hq : (j 1).val < 256 := (j 1).isLt
  have hj : (cfg0.win 1).xinj (grid0.coords t) j = ix2 (⟨(j 0).val, hr⟩ : Fin 1024) (⟨(j 1).val, hq⟩ : Fin 256) := by
    funext a; match a with | ⟨0, _⟩ => rfl | ⟨1, _⟩ => rfl
  show k0_pay1 (F := Ideal) (rows0 V c t) ((cfg0.win 1).xinj (grid0.coords t) j) = normRows (V c main_arg0) (((cfg0.win 1).blk t).view.emb j)
  rw [hj]
  refine ((stored_eq_rn (V c main_arg0) t.val ht (rows0 V c t) ?_ ⟨(j 0).val, hr⟩ ⟨(j 1).val, hq⟩).1).trans ?_
  · intro r s d
    show V c main_arg0 (((cfg0.win 0).blk t).view.emb (ix3 r s d)) = V c main_arg0 _
    refine congrArg (V c main_arg0) ?_
    funext a; apply Fin.ext
    match a with
    | ⟨0, _⟩ => show win0_0.index t (0 : Fin 3) * 1024 + 1 * r.val = t.val * 1024 + r.val; rw [e0]; omega
    | ⟨1, _⟩ => show win0_0.index t (1 : Fin 3) * 8 + 1 * s.val = s.val; rw [e1]; omega
    | ⟨2, _⟩ => show win0_0.index t (2 : Fin 3) * 256 + 1 * d.val = d.val; rw [e2]; omega
  · unfold normRows
    have h0 : ((((cfg0.win 1).blk t).view.emb j) 0).val = t.val * 1024 + (j 0).val := by
      show win0_1.index t (0 : Fin 2) * 1024 + 1 * (j 0).val = _; rw [e3]; omega
    have h1 : ((((cfg0.win 1).blk t).view.emb j) 1).val = (j 1).val := by
      show win0_1.index t (1 : Fin 2) * 256 + 1 * (j 1).val = _; rw [e4]; omega
    exact congrArg₂ (Cert.Spec.rn (V c main_arg0)) (Fin.ext h0.symm) (Fin.ext h1.symm)

/-- An index of the result array is in point t's block iff each coordinate is in the block's range on its axis. -/
theorem mem_block0 (t : Fin cfg0.N) (j : S4096x256.Idx) :
    j ∈ ((cfg0.win 1).blk t).view.set ↔ ∀ a : Fin 2, win0_1.index t a * S1024x256.size a ≤ (j a).val
      ∧ (j a).val < win0_1.index t a * S1024x256.size a + S1024x256.size a := by
  show j ∈ ((View.whole main_v0).slice (win0_1.rect t)).set ↔ _
  rw [View.set_slice_whole, Rect.mem_set_unit]
  exact Iff.rfl

/-- Every index of the result array is in the block of the point its row divided by 1024 names. -/
theorem covered0 (j : S4096x256.Idx) :
    ∃ t : Fin cfg0.N, (cfg0.win 1).flush t = true ∧ j ∈ ((cfg0.win 1).blk t).view.set := by
  have hj0 : (j 0).val < 4096 := (j 0).isLt
  have hj1 : (j 1).val < 256 := (j 1).isLt
  obtain ⟨t, ht⟩ : ∃ t : Fin cfg0.N, t.val = (j 0).val / 1024 :=
    ⟨⟨(j 0).val / 1024, by rw [show cfg0.N = 4 from N_0]; omega⟩, rfl⟩
  obtain ⟨-, -, -, e3, e4⟩ := block_index0 t
  refine ⟨t, flush0_1 t, ?_⟩
  rw [mem_block0]
  intro a
  match a with
  | ⟨0, _⟩ =>
    show win0_1.index t (0 : Fin 2) * 1024 ≤ (j 0).val ∧ (j 0).val < win0_1.index t (0 : Fin 2) * 1024 + 1024
    rw [e3, ht]; omega
  | ⟨1, _⟩ =>
    show win0_1.index t (1 : Fin 2) * 256 ≤ (j 1).val ∧ (j 1).val < win0_1.index t (1 : Fin 2) * 256 + 256
    rw [e4]; omega

/-- The result array after the region: the normalised rows of the argument array. -/
theorem pool0_array (c : Dev nD) : (dat0 (F := Ideal) V c).arrAt 1 cfg0.N = normRows (V c main_arg0) :=
  (dat0 V c).arrAt_eq_of_cover 1 (normRows (V c main_arg0)) (fun t _ => written_back0 V c t) covered0

/-- At row i, lane d. -/
theorem pool0_value (c : Dev nD) (i : Fin 4096) (d : Fin 256) :
    (dat0 (F := Ideal) V c).arrAt 1 cfg0.N (ix2 i d) = Cert.Spec.rn (V c main_arg0) i d := by
  rw [pool0_array]; rfl

/-! # Region K -/

/-- The printed index maps, decided over the grid: point t's input block is row block t at slot 0, lane 0, and its
    output block is row block t at lane 0. -/
theorem block_index1 : ∀ t : Fin cfg1.N, win1_0.index t (0 : Fin 3) = t.val ∧ win1_0.index t (1 : Fin 3) = 0
    ∧ win1_0.index t (2 : Fin 3) = 0 ∧ win1_1.index t (0 : Fin 2) = t.val ∧ win1_1.index t (1 : Fin 2) = 0 :=
  (by decide +kernel : ∀ t : Fin grid1.N, _)

/-- What point t writes back is block t of the normalised rows of the argument array as the region finds it. -/
theorem written_back1 (c : Dev nD) (t : Fin cfg1.N) :
    (dat1 (F := Ideal) V c).flushed 1 t = ((cfg1.win 1).blk t).view.read (Elt Ideal) (normRows (V c main_arg1)) := by
  show (cfg1.win 1).cut (grid1.coords t) ((dat1 V c).after 1 t) = _
  rw [output_after_body1]
  unfold pooled1
  obtain ⟨e0, e1, e2, e3, e4⟩ := block_index1 t
  have ht : t.val < 4 := Nat.lt_of_lt_of_eq t.isLt N_1
  funext j
  have hr : (j 0).val < 1024 := (j 0).isLt
  have hq : (j 1).val < 256 := (j 1).isLt
  have hj : (cfg1.win 1).xinj (grid1.coords t) j = ix2 (⟨(j 0).val, hr⟩ : Fin 1024) (⟨(j 1).val, hq⟩ : Fin 256) := by
    funext a; match a with | ⟨0, _⟩ => rfl | ⟨1, _⟩ => rfl
  show k1_pay1 (F := Ideal) (rows1 V c t) ((cfg1.win 1).xinj (grid1.coords t) j) = normRows (V c main_arg1) (((cfg1.win 1).blk t).view.emb j)
  rw [hj]
  refine ((stored_eq_rn (V c main_arg1) t.val ht (rows1 V c t) ?_ ⟨(j 0).val, hr⟩ ⟨(j 1).val, hq⟩).2).trans ?_
  · intro r s d
    show V c main_arg1 (((cfg1.win 0).blk t).view.emb (ix3 r s d)) = V c main_arg1 _
    refine congrArg (V c main_arg1) ?_
    funext a; apply Fin.ext
    match a with
    | ⟨0, _⟩ => show win1_0.index t (0 : Fin 3) * 1024 + 1 * r.val = t.val * 1024 + r.val; rw [e0]; omega
    | ⟨1, _⟩ => show win1_0.index t (1 : Fin 3) * 8 + 1 * s.val = s.val; rw [e1]; omega
    | ⟨2, _⟩ => show win1_0.index t (2 : Fin 3) * 256 + 1 * d.val = d.val; rw [e2]; omega
  · unfold normRows
    have h0 : ((((cfg1.win 1).blk t).view.emb j) 0).val = t.val * 1024 + (j 0).val := by
      show win1_1.index t (0 : Fin 2) * 1024 + 1 * (j 0).val = _; rw [e3]; omega
    have h1 : ((((cfg1.win 1).blk t).view.emb j) 1).val = (j 1).val := by
      show win1_1.index t (1 : Fin 2) * 256 + 1 * (j 1).val = _; rw [e4]; omega
    exact congrArg₂ (Cert.Spec.rn (V c main_arg1)) (Fin.ext h0.symm) (Fin.ext h1.symm)

/-- An index of the result array is in point t's block iff each coordinate is in the block's range on its axis. -/
theorem mem_block1 (t : Fin cfg1.N) (j : S4096x256.Idx) :
    j ∈ ((cfg1.win 1).blk t).view.set ↔ ∀ a : Fin 2, win1_1.index t a * S1024x256.size a ≤ (j a).val
      ∧ (j a).val < win1_1.index t a * S1024x256.size a + S1024x256.size a := by
  show j ∈ ((View.whole main_v1).slice (win1_1.rect t)).set ↔ _
  rw [View.set_slice_whole, Rect.mem_set_unit]
  exact Iff.rfl

/-- Every index of the result array is in the block of the point its row divided by 1024 names. -/
theorem covered1 (j : S4096x256.Idx) :
    ∃ t : Fin cfg1.N, (cfg1.win 1).flush t = true ∧ j ∈ ((cfg1.win 1).blk t).view.set := by
  have hj0 : (j 0).val < 4096 := (j 0).isLt
  have hj1 : (j 1).val < 256 := (j 1).isLt
  obtain ⟨t, ht⟩ : ∃ t : Fin cfg1.N, t.val = (j 0).val / 1024 :=
    ⟨⟨(j 0).val / 1024, by rw [show cfg1.N = 4 from N_1]; omega⟩, rfl⟩
  obtain ⟨-, -, -, e3, e4⟩ := block_index1 t
  refine ⟨t, flush1_1 t, ?_⟩
  rw [mem_block1]
  intro a
  match a with
  | ⟨0, _⟩ =>
    show win1_1.index t (0 : Fin 2) * 1024 ≤ (j 0).val ∧ (j 0).val < win1_1.index t (0 : Fin 2) * 1024 + 1024
    rw [e3, ht]; omega
  | ⟨1, _⟩ =>
    show win1_1.index t (1 : Fin 2) * 256 ≤ (j 1).val ∧ (j 1).val < win1_1.index t (1 : Fin 2) * 256 + 256
    rw [e4]; omega

/-- The result array after the region: the normalised rows of the argument array. -/
theorem pool1_array (c : Dev nD) : (dat1 (F := Ideal) V c).arrAt 1 cfg1.N = normRows (V c main_arg1) :=
  (dat1 V c).arrAt_eq_of_cover 1 (normRows (V c main_arg1)) (fun t _ => written_back1 V c t) covered1

/-- At row i, lane d. -/
theorem pool1_value (c : Dev nD) (i : Fin 4096) (d : Fin 256) :
    (dat1 (F := Ideal) V c).arrAt 1 cfg1.N (ix2 i d) = Cert.Spec.rn (V c main_arg1) i d := by
  rw [pool1_array]; rfl

end Cert.KernelIdeal.Hand

end
-- ==== Proof.SpecRows.lean ====
/- The row quantities of Spec over two arrays of unit rows a, b : [4096, 256] (rather than over the raw inputs):
   what the loss kernel computes from the two pooled arrays it is handed. Spec's quantities are these at a = rn x, b = rn y. -/
import proofs.«105816_j90091234001463_2_alg».proof.Proof.Spec

noncomputable section

namespace Cert.Spec

open Idealize.ShloMosaic Idealize.ShloMosaic.ValueIdx

/-- The similarity of row i of a and row k of b, over the temperature. -/
def simN (a b : Fin 4096 → Fin 256 → EReal) (i k : Fin 4096) : EReal := Ideal.div (∑ d : Fin 256, a i d * b k d) temp

def denomN (a b : Fin 4096 → Fin 256 → EReal) (i : Fin 4096) : EReal :=
  ∑ k : Fin 4096, if i = k then 0 else Ideal.exp (simN a b i k)

def sumposN (a b : Fin 4096 → Fin 256 → EReal) (lab : SL.Idx → BitVec 32) (i : Fin 4096) : EReal :=
  ∑ k : Fin 4096, if pos lab i k then simN a b i k else 0

def rowlossN (a b : Fin 4096 → Fin 256 → EReal) (lab : SL.Idx → BitVec 32) (i : Fin 4096) : EReal :=
  cnt lab i * Ideal.log (denomN a b i + eps8) - sumposN a b lab i

theorem sim_eq_simN (x y : SX.Idx → EReal) (i k : Fin 4096) : sim x y i k = simN (rn x) (rn y) i k := rfl
theorem rowloss_eq_rowlossN (x y : SX.Idx → EReal) (lab : SL.Idx → BitVec 32) (i : Fin 4096) :
    rowloss x y lab i = rowlossN (rn x) (rn y) lab i := rfl

end Cert.Spec

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LossTile.lean ====
/-
  One tile of the loss kernel, entry by entry, on the extended reals.

  The grid point (I, J) works on rows n = 512·I + r (r < 512) against columns k = 1024·J + q (q < 1024). At the entry
  (r, q) of its tile:
    * the similarity is the inner product over the 256 lanes of row r of the first block with row q of the tile of
      the second operand (the body transposes the tile and multiplies into a zero accumulator), over the temperature;
    * the label test is "the label word is not 0";
    * the diagonal test compares the 32-bit words 512·I + r and 1024·J + q, which are equal exactly when n = k
      (both are below 4096: nothing wraps).
  The body tests whether the tile's row range and column range overlap; where they do not, no entry of the tile has
  n = k. The first column tile is J = 0.
-/
import proofs.«105816_j90091234001463_2_alg».proof.Proof.LossStepI
import proofs.«105816_j90091234001463_2_alg».proof.Proof.SpecRows
import proofs.«105816_j90091234001463_2_alg».proof.Proof.LibPlainDot
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.KernelIdeal.Hand

open Cert.KernelIdeal Cert.KernelIdeal.Gen
open Idealize.ShloMosaic Idealize.ShloMosaic.ValueIdx

/-! ## Grid points, global rows and columns -/

/-- The grid point of row block I and column tile J. -/
def gpt (I : Fin 8) (J : Fin 4) : grid2.Coords := fun a => match a with | ⟨0, _⟩ => I | ⟨1, _⟩ => J

/-- A grid point is the point of its two coordinates. -/
theorem eq_gpt (i : grid2.Coords) (I : Fin 8) (J : Fin 4) (h0 : (i 0).val = I.val) (h1 : (i 1).val = J.val) :
    i = gpt I J := by
  funext a; apply Fin.ext
  match a with
  | ⟨0, _⟩ => exact h0
  | ⟨1, _⟩ => exact h1

/-- The global row of row r of row block I. -/
def grow (I : Fin 8) (r : Fin 512) : Fin 4096 := ⟨512 * I.val + r.val, by omega⟩
/-- The global column of column q of column tile J. -/
def gcol (J : Fin 4) (q : Fin 1024) : Fin 4096 := ⟨1024 * J.val + q.val, by omega⟩

/-! ## The body's conditions, decided over the 32 grid points -/

/-- The overlap test holds exactly when the row range [512 I, 512 I + 512) meets the column range [1024 J, 1024 J + 1024). -/
theorem onDiag_iff : ∀ (I : Fin 8) (J : Fin 4),
    onDiag (gpt I J) ↔ (512 * I.val < 1024 * J.val + 1024 ∧ 1024 * J.val < 512 * I.val + 512) := by
  decide

/-- Off the band no entry of the tile is on the diagonal. -/
theorem ne_of_not_onDiag (I : Fin 8) (J : Fin 4) (h : ¬ onDiag (gpt I J)) (r : Fin 512) (q : Fin 1024) :
    grow I r ≠ gcol J q := by
  intro e
  have e' : 512 * I.val + r.val = 1024 * J.val + q.val := congrArg Fin.val e
  rw [onDiag_iff] at h
  omega

/-- The reset happens exactly at the first column tile. -/
theorem isFirst_iff : ∀ (I : Fin 8) (J : Fin 4), isFirst (gpt I J) ↔ J.val = 0 := by
  decide

/-- The tile of the second operand starts at row 1024 J. -/
theorem off1_row : ∀ (I : Fin 8) (J : Fin 4), k2_off1 (gpt I J) 0 = 1024 * J.val := by
  decide

theorem off1_col (i : grid2.Coords) : k2_off1 i 1 = 0 := rfl

/-! ## The tile's entries -/

/-- Row q of the tile the point (I, J) reads is row 1024 J + q of the second operand. -/
theorem tile_row (I : Fin 8) (J : Fin 4) (xb : Vec Ideal S4096x256 .bf16) (q : Fin 1024) (d : Fin 256) :
    View.ld xb (tileR (gpt I J)) (ix2 q d) = xb (ix2 (gcol J q) d) := by
  show xb ((tileR (gpt I J)).idx (ix2 q d)) = _
  refine congrArg xb (funext fun a => Fin.ext ?_)
  match a with
  | ⟨0, _⟩ =>
    show k2_off1 (gpt I J) 0 + 1 * q.val = 1024 * J.val + q.val
    rw [off1_row]; omega
  | ⟨1, _⟩ =>
    show k2_off1 (gpt I J) 1 + 1 * d.val = d.val
    rw [off1_col]; omega

/-- The whole row block of the first operand reads as itself. -/
theorem blockA_eq (xa : Vec Ideal S512x256 .bf16) : View.ld xa wholeA = xa :=
  View.ld_unit_zero (S := S512x256) (funext fun a => by match a with | ⟨0, _⟩ => rfl | ⟨1, _⟩ => rfl) _ xa

/-- The whole label tile reads as itself. -/
theorem tileL_eq (l : Vec Ideal S512x1024 .i32) : View.ld l wholeL = l :=
  View.ld_unit_zero (S := S512x1024) (funext fun a => by match a with | ⟨0, _⟩ => rfl | ⟨1, _⟩ => rfl) _ l

/-- The similarity at entry (r, q): the inner product over the lanes of the block's row r and the tile's row q, over
    the temperature. -/
theorem pay4_apply (v5 : Vec Ideal S512x256 .bf16) (v9 : Vec Ideal S1024x256 .bf16) (r : Fin 512) (q : Fin 1024) :
    k2_pay4 (F := Ideal) v5 v9 (ix2 r q)
      = Ideal.div (∑ d : Fin 256, v5 (ix2 r d) * v9 (ix2 q d)) Cert.Spec.temp := by
  unfold k2_pay4
  refine (divf_apply _ _ (ix2 r q)).trans ?_
  refine congrArg₂ Ideal.div ?_ rfl
  refine (Cert.Lib.PlainDot.matmul_zero_apply none _ _ r q).trans ?_
  refine Finset.sum_congr rfl fun d _ => ?_
  refine congrArg₂ (· * ·) (congrFun (shapeCast_self v5 _) _) ?_
  exact (transpose_ix2_apply _ _ d q).trans (congrFun (shapeCast_self v9 _) _)

/-- With the block and the tile cut from a and b, the similarity at (r, q) is the specification's, at the global
    row and column. -/
theorem sim_tile (a b : Fin 4096 → Fin 256 → EReal) (I : Fin 8) (J : Fin 4)
    (xa : Vec Ideal S512x256 .bf16) (hxa : ∀ (r : Fin 512) (d : Fin 256), xa (ix2 r d) = a (grow I r) d)
    (xb : Vec Ideal S4096x256 .bf16) (hxb : ∀ (k : Fin 4096) (d : Fin 256), xb (ix2 k d) = b k d)
    (r : Fin 512) (q : Fin 1024) :
    k2_pay4 (F := Ideal) (View.ld xa wholeA) (View.ld xb (tileR (gpt I J))) (ix2 r q)
      = Cert.Spec.simN a b (grow I r) (gcol J q) := by
  rw [pay4_apply, blockA_eq]
  unfold Cert.Spec.simN
  refine congrArg (Ideal.div · Cert.Spec.temp) (Finset.sum_congr rfl fun d _ => ?_)
  rw [tile_row, hxa, hxb]

/-- The label test at entry (r, q). -/
theorem pay5_apply (l : Vec Ideal S512x1024 .i32) (r : Fin 512) (q : Fin 1024) :
    k2_pay5 (F := Ideal) l (ix2 r q) = 1#1 ↔ l (ix2 r q) ≠ 0#32 := by
  show IntOp.cmpi .ne (l (ix2 r q)) 0#32 = 1#1 ↔ _
  exact IntOp.cmpi_ne

/-- The diagonal test at entry (r, q): the two 32-bit words are equal exactly when the global row is the global
    column. -/
theorem pay6_apply (I : Fin 8) (J : Fin 4) (r : Fin 512) (q : Fin 1024) :
    k2_pay6 (gpt I J) (ix2 r q) = 1#1 ↔ grow I r = gcol J q := by
  show IntOp.cmpi .eq
      (IntOp.addi (Scalar.muli (BitVec.ofNat 32 I.val) 512#32) (iota .tc S512x1024 32 [0] iota_S512x1024_d0_w32 (ix2 r q)))
      (IntOp.addi (Scalar.muli (BitVec.ofNat 32 J.val) 1024#32) (iota .tc S512x1024 32 [1] iota_S512x1024_d1_w32 (ix2 r q)))
      = 1#1 ↔ _
  rw [iota_single_apply, iota_single_apply, IntOp.cmpi_eq]
  show BitVec.ofNat 32 I.val * 512#32 + BitVec.ofNat 32 r.val = BitVec.ofNat 32 J.val * 1024#32 + BitVec.ofNat 32 q.val ↔ _
  have hI := I.isLt; have hJ := J.isLt; have hr := r.isLt; have hq := q.isLt
  constructor
  · intro e
    have e' := congrArg BitVec.toNat e
    simp only [BitVec.toNat_add, BitVec.toNat_mul, BitVec.toNat_ofNat] at e'
    apply Fin.ext
    show 512 * I.val + r.val = 1024 * J.val + q.val
    omega
  · intro e
    have e' : 512 * I.val + r.val = 1024 * J.val + q.val := congrArg Fin.val e
    apply BitVec.eq_of_toNat_eq
    simp only [BitVec.toNat_add, BitVec.toNat_mul, BitVec.toNat_ofNat]
    omega

end Cert.KernelIdeal.Hand

end
-- ==== Proof.LossAcc.lean ====
/-
  One grid point of the loss kernel at one row, on the extended reals.

  For the row n = 512·I + r and the column tile J write, over the tile's columns k = 1024·J + q (q < 1024),
      tE n J = Σ_q [n ≠ k] e^{sim n k},   tP n J = Σ_q [pos n k] sim n k,   tC n J = Σ_q [pos n k] 1.
  The grid point (I, J) replaces the three accumulators at row r by
      (previous, or 0 at the first column tile J = 0) + tE n J,   … + tP n J,   … + tC n J.
  On a tile the diagonal may cross the body masks the entries with n = k; on the others it does not mask, and
  there no entry has n = k, so the two forms of the body are this one formula. Each lane sum starts from the
  zero word and is then added to the previous accumulator; a one-bit word converted to a float is 1 or 0.
-/
import proofs.«105816_j90091234001463_2_alg».proof.Proof.LossTile
import proofs.«105816_j90091234001463_2_alg».proof.Proof.LibKeepdims

noncomputable section

namespace Cert.KernelIdeal.Hand

open Cert.KernelIdeal Cert.KernelIdeal.Gen
open Idealize.ShloMosaic Idealize.ShloMosaic.ValueIdx Cert.Spec

/-! ## The tile's partial sums, in the specification's terms -/

/-- The exponentials of row n's similarities over column tile J, the diagonal left out. -/
def tE (a b : Fin 4096 → Fin 256 → EReal) (n : Fin 4096) (J : Fin 4) : EReal :=
  ∑ q : Fin 1024, if n = gcol J q then 0 else Ideal.exp (simN a b n (gcol J q))

/-- Row n's similarities over its positive pairs in column tile J. -/
def tP (a b : Fin 4096 → Fin 256 → EReal) (lab : SL.Idx → BitVec 32) (n : Fin 4096) (J : Fin 4) : EReal :=
  ∑ q : Fin 1024, if pos lab n (gcol J q) then simN a b n (gcol J q) else 0

/-- The number of row n's positive pairs in column tile J. -/
def tC (lab : SL.Idx → BitVec 32) (n : Fin 4096) (J : Fin 4) : EReal :=
  ∑ q : Fin 1024, if pos lab n (gcol J q) then 1 else 0

/-! ## Words -/

/-- A select on a one-bit word is the choice on "the bit is 1". -/
theorem select_ite {α : Type} (c : BitVec 1) (x y : α) : Scalar.select c x y = if c = 1#1 then x else y := rfl

/-- Xor with the bit 1 negates. -/
theorem xori_one_iff (c : BitVec 1) : IntOp.xori c 1#1 = 1#1 ↔ ¬ c = 1#1 := by revert c; decide

/-- A one-bit word widened to 32 bits and converted to a float is 1 or 0. -/
theorem sitofp_bit (c : BitVec 1) :
    FloatOps.sitofp (F := Ideal) .f32 (c.setWidth 32) = if c = 1#1 then (1 : EReal) else 0 := by
  rcases BitVec.eq_zero_or_eq_one c with rfl | rfl
  · rw [if_neg (by decide)]
    show ((((0#1 : BitVec 1).setWidth 32).toInt : ℝ) : EReal) = 0
    have h : ((0#1 : BitVec 1).setWidth 32).toInt = 0 := by decide
    rw [h]; simp
  · rw [if_pos rfl]
    show ((((1#1 : BitVec 1).setWidth 32).toInt : ℝ) : EReal) = 1
    have h : ((1#1 : BitVec 1).setWidth 32).toInt = 1 := by decide
    rw [h]; simp

/-! ## A lane sum added to an accumulator column, at row r -/

/-- The accumulator update the body performs three times: the lane sum of a [512, 1024] array from the zero word,
    kept as a column and added to the previous column, reads at row r the previous value plus the row's sum. -/
theorem rowsum_step (prev : Vec Ideal S512x1 .f32) (src : FVec Ideal S512x1024 .f32) (r : Fin 512) :
    shapeCast S512x1 (addf prev (shapeCast S512x1
        (multiReduction (F := Ideal) .add [1] S512 src 0x00000000#32 reduces_S512x1024_S512 (.inl rfl) rfl)
        shapeCasts_S512_S512x1)) shapeCasts_S512x1_S512x1 (ix2 r 0)
      = prev (ix2 r 0) + ∑ q : Fin 1024, src (ix2 r q) := by
  refine (congrFun (shapeCast_self _ _) _).trans ?_
  refine (addf_apply _ _ _).trans ?_
  refine congrArg (prev (ix2 r 0) + ·) ?_
  refine (ValueKeepdims.shapeCast_a_a1_apply _ _ r 0).trans ?_
  exact ValueKeepdims.multiReduction_add_row _ _ _ _ _ r

/-- The reset columns are zero. -/
theorem accZero_apply (r : Fin 512) :
    (accZero (F := Ideal)).1 (ix2 r 0) = 0 ∧ (accZero (F := Ideal)).2.1 (ix2 r 0) = 0
      ∧ (accZero (F := Ideal)).2.2 (ix2 r 0) = 0 := by
  refine ⟨?_, ?_, ?_⟩
  · show k2_pay1 (F := Ideal) (ix2 r 0) = 0
    unfold k2_pay1
    exact (congrFun (shapeCast_self _ _) _).trans Ideal.ofBits_zero_f32
  · show k2_pay2 (F := Ideal) (ix2 r 0) = 0
    unfold k2_pay2
    exact (congrFun (shapeCast_self _ _) _).trans Ideal.ofBits_zero_f32
  · show k2_pay3 (F := Ideal) (ix2 r 0) = 0
    unfold k2_pay3
    exact (congrFun (shapeCast_self _ _) _).trans Ideal.ofBits_zero_f32

/-! ## The six payloads at row r -/

section Payloads

variable (i : grid2.Coords) (v5 : Vec Ideal S512x256 .bf16) (v9 : Vec Ideal S1024x256 .bf16)
  (l : Vec Ideal S512x1024 .i32) (prev : Vec Ideal S512x1 .f32) (r : Fin 512)

theorem pay8_apply : k2_pay8 (F := Ideal) i v5 v9 prev (ix2 r 0)
    = prev (ix2 r 0) + ∑ q : Fin 1024,
        if k2_pay6 i (ix2 r q) = 1#1 then 0 else Ideal.exp (k2_pay4 (F := Ideal) v5 v9 (ix2 r q)) := by
  unfold k2_pay8
  refine (rowsum_step _ _ r).trans (congrArg (prev (ix2 r 0) + ·) (Finset.sum_congr rfl fun q _ => ?_))
  show Scalar.select (k2_pay6 i (ix2 r q)) (Ideal.ofBits .f32 0x00000000#32)
      (Ideal.exp (k2_pay4 (F := Ideal) v5 v9 (ix2 r q))) = _
  rw [Ideal.ofBits_zero_f32, select_ite]

theorem pay7_iff (q : Fin 1024) : k2_pay7 (F := Ideal) i l (ix2 r q) = 1#1
    ↔ (k2_pay5 (F := Ideal) l (ix2 r q) = 1#1 ∧ ¬ k2_pay6 i (ix2 r q) = 1#1) := by
  show IntOp.andi (k2_pay5 (F := Ideal) l (ix2 r q)) (IntOp.xori (k2_pay6 i (ix2 r q)) 1#1) = 1#1 ↔ _
  rw [IntOp.andi_eq_one, xori_one_iff]

theorem pay9_apply : k2_pay9 (F := Ideal) i v5 v9 l prev (ix2 r 0)
    = prev (ix2 r 0) + ∑ q : Fin 1024,
        if k2_pay7 (F := Ideal) i l (ix2 r q) = 1#1 then k2_pay4 (F := Ideal) v5 v9 (ix2 r q) else 0 := by
  unfold k2_pay9
  refine (rowsum_step _ _ r).trans (congrArg (prev (ix2 r 0) + ·) (Finset.sum_congr rfl fun q _ => ?_))
  show Scalar.select (k2_pay7 (F := Ideal) i l (ix2 r q)) (k2_pay4 (F := Ideal) v5 v9 (ix2 r q))
      (Ideal.ofBits .f32 0x00000000#32) = _
  rw [Ideal.ofBits_zero_f32, select_ite]

theorem pay10_apply : k2_pay10 (F := Ideal) i l prev (ix2 r 0)
    = prev (ix2 r 0) + ∑ q : Fin 1024, if k2_pay7 (F := Ideal) i l (ix2 r q) = 1#1 then 1 else 0 := by
  unfold k2_pay10
  refine (rowsum_step _ _ r).trans (congrArg (prev (ix2 r 0) + ·) (Finset.sum_congr rfl fun q _ => ?_))
  exact sitofp_bit _

theorem pay11_apply : k2_pay11 (F := Ideal) v5 v9 prev (ix2 r 0)
    = prev (ix2 r 0) + ∑ q : Fin 1024, Ideal.exp (k2_pay4 (F := Ideal) v5 v9 (ix2 r q)) := by
  unfold k2_pay11
  exact rowsum_step _ _ r

theorem pay12_apply : k2_pay12 (F := Ideal) v5 v9 l prev (ix2 r 0)
    = prev (ix2 r 0) + ∑ q : Fin 1024,
        if k2_pay5 (F := Ideal) l (ix2 r q) = 1#1 then k2_pay4 (F := Ideal) v5 v9 (ix2 r q) else 0 := by
  unfold k2_pay12
  refine (rowsum_step _ _ r).trans (congrArg (prev (ix2 r 0) + ·) (Finset.sum_congr rfl fun q _ => ?_))
  show Scalar.select (k2_pay5 (F := Ideal) l (ix2 r q)) (k2_pay4 (F := Ideal) v5 v9 (ix2 r q))
      (Ideal.ofBits .f32 0x00000000#32) = _
  rw [Ideal.ofBits_zero_f32, select_ite]

theorem pay13_apply : k2_pay13 (F := Ideal) l prev (ix2 r 0)
    = prev (ix2 r 0) + ∑ q : Fin 1024, if k2_pay5 (F := Ideal) l (ix2 r q) = 1#1 then 1 else 0 := by
  unfold k2_pay13
  refine (rowsum_step _ _ r).trans (congrArg (prev (ix2 r 0) + ·) (Finset.sum_congr rfl fun q _ => ?_))
  exact sitofp_bit _

end Payloads

/-! ## One grid point at row r, in the specification's terms -/

section Step

variable (a b : Fin 4096 → Fin 256 → EReal) (lab : SL.Idx → BitVec 32) (I : Fin 8) (J : Fin 4)

/-- The label test of the tile's entry (r, q) is "the label of the pair (n, k) is not 0". -/
theorem lab_bit (l : Vec Ideal S512x1024 .i32)
    (hl : ∀ (r : Fin 512) (q : Fin 1024), l (ix2 r q) = lab (ix2 (grow I r) (gcol J q))) (r : Fin 512) (q : Fin 1024) :
    k2_pay5 (F := Ideal) (View.ld l wholeL) (ix2 r q) = 1#1 ↔ lab (ix2 (grow I r) (gcol J q)) ≠ 0#32 := by
  rw [tileL_eq, pay5_apply, hl]

/-- The masked label test is "the pair (n, k) is positive". -/
theorem pos_bit (l : Vec Ideal S512x1024 .i32)
    (hl : ∀ (r : Fin 512) (q : Fin 1024), l (ix2 r q) = lab (ix2 (grow I r) (gcol J q))) (r : Fin 512) (q : Fin 1024) :
    k2_pay7 (F := Ideal) (gpt I J) (View.ld l wholeL) (ix2 r q) = 1#1 ↔ pos lab (grow I r) (gcol J q) := by
  rw [pay7_iff, lab_bit lab I J l hl r q, pay6_apply]
  exact Iff.rfl

/-- A tile the diagonal may cross: each accumulator at row r grows by the tile's partial sum. -/
theorem accOn_apply (xa : Vec Ideal S512x256 .bf16) (hxa : ∀ (r : Fin 512) (d : Fin 256), xa (ix2 r d) = a (grow I r) d)
    (xb : Vec Ideal S4096x256 .bf16) (hxb : ∀ (k : Fin 4096) (d : Fin 256), xb (ix2 k d) = b k d)
    (l : Vec Ideal S512x1024 .i32)
    (hl : ∀ (r : Fin 512) (q : Fin 1024), l (ix2 r q) = lab (ix2 (grow I r) (gcol J q)))
    (s : Acc Ideal) (r : Fin 512) :
    (accOn (gpt I J) xa xb l s).1 (ix2 r 0) = s.1 (ix2 r 0) + tE a b (grow I r) J
      ∧ (accOn (gpt I J) xa xb l s).2.1 (ix2 r 0) = s.2.1 (ix2 r 0) + tP a b lab (grow I r) J
      ∧ (accOn (gpt I J) xa xb l s).2.2 (ix2 r 0) = s.2.2 (ix2 r 0) + tC lab (grow I r) J := by
  refine ⟨?_, ?_, ?_⟩
  · show k2_pay8 (F := Ideal) (gpt I J) (View.ld xa wholeA) (View.ld xb (tileR (gpt I J))) s.1 (ix2 r 0) = _
    rw [pay8_apply]
    refine congrArg (s.1 (ix2 r 0) + ·) (Finset.sum_congr rfl fun q _ => ?_)
    rw [sim_tile a b I J xa hxa xb hxb r q]
    exact if_congr (pay6_apply I J r q) rfl rfl
  · show k2_pay9 (F := Ideal) (gpt I J) (View.ld xa wholeA) (View.ld xb (tileR (gpt I J))) (View.ld l wholeL) s.2.1
      (ix2 r 0) = _
    rw [pay9_apply]
    refine congrArg (s.2.1 (ix2 r 0) + ·) (Finset.sum_congr rfl fun q _ => ?_)
    rw [sim_tile a b I J xa hxa xb hxb r q]
    exact if_congr (pos_bit lab I J l hl r q) rfl rfl
  · show k2_pay10 (F := Ideal) (gpt I J) (View.ld l wholeL) s.2.2 (ix2 r 0) = _
    rw [pay10_apply]
    refine congrArg (s.2.2 (ix2 r 0) + ·) (Finset.sum_congr rfl fun q _ => ?_)
    exact if_congr (pos_bit lab I J l hl r q) rfl rfl

/-- A tile off the band: the unmasked sums are the same partial sums, since no entry of the tile has n = k. -/
theorem accOff_apply (hd : ¬ onDiag (gpt I J))
    (xa : Vec Ideal S512x256 .bf16) (hxa : ∀ (r : Fin 512) (d : Fin 256), xa (ix2 r d) = a (grow I r) d)
    (xb : Vec Ideal S4096x256 .bf16) (hxb : ∀ (k : Fin 4096) (d : Fin 256), xb (ix2 k d) = b k d)
    (l : Vec Ideal S512x1024 .i32)
    (hl : ∀ (r : Fin 512) (q : Fin 1024), l (ix2 r q) = lab (ix2 (grow I r) (gcol J q)))
    (s : Acc Ideal) (r : Fin 512) :
    (accOff (gpt I J) xa xb l s).1 (ix2 r 0) = s.1 (ix2 r 0) + tE a b (grow I r) J
      ∧ (accOff (gpt I J) xa xb l s).2.1 (ix2 r 0) = s.2.1 (ix2 r 0) + tP a b lab (grow I r) J
      ∧ (accOff (gpt I J) xa xb l s).2.2 (ix2 r 0) = s.2.2 (ix2 r 0) + tC lab (grow I r) J := by
  have hne : ∀ q : Fin 1024, grow I r ≠ gcol J q := fun q => ne_of_not_onDiag I J hd r q
  have hpos : ∀ q : Fin 1024, k2_pay5 (F := Ideal) (View.ld l wholeL) (ix2 r q) = 1#1 ↔ pos lab (grow I r) (gcol J q) :=
    fun q => (lab_bit lab I J l hl r q).trans ⟨fun h => ⟨h, hne q⟩, fun h => h.1⟩
  refine ⟨?_, ?_, ?_⟩
  · show k2_pay11 (F := Ideal) (View.ld xa wholeA) (View.ld xb (tileR (gpt I J))) s.1 (ix2 r 0) = _
    rw [pay11_apply]
    refine congrArg (s.1 (ix2 r 0) + ·) (Finset.sum_congr rfl fun q _ => ?_)
    rw [sim_tile a b I J xa hxa xb hxb r q]
    exact (if_neg (hne q)).symm
  · show k2_pay12 (F := Ideal) (View.ld xa wholeA) (View.ld xb (tileR (gpt I J))) (View.ld l wholeL) s.2.1 (ix2 r 0) = _
    rw [pay12_apply]
    refine congrArg (s.2.1 (ix2 r 0) + ·) (Finset.sum_congr rfl fun q _ => ?_)
    rw [sim_tile a b I J xa hxa xb hxb r q]
    exact if_congr (hpos q) rfl rfl
  · show k2_pay13 (F := Ideal) (View.ld l wholeL) s.2.2 (ix2 r 0) = _
    rw [pay13_apply]
    refine congrArg (s.2.2 (ix2 r 0) + ·) (Finset.sum_congr rfl fun q _ => ?_)
    exact if_congr (hpos q) rfl rfl

/-- The accumulators a grid point starts from, at row r: zero at the first column tile, the previous ones after. -/
theorem start_apply (s : Acc Ideal) (r : Fin 512) :
    (if isFirst (gpt I J) then accZero else s).1 (ix2 r 0) = (if J.val = 0 then 0 else s.1 (ix2 r 0))
      ∧ (if isFirst (gpt I J) then accZero else s).2.1 (ix2 r 0) = (if J.val = 0 then 0 else s.2.1 (ix2 r 0))
      ∧ (if isFirst (gpt I J) then accZero else s).2.2 (ix2 r 0) = (if J.val = 0 then 0 else s.2.2 (ix2 r 0)) := by
  by_cases hJ : J.val = 0
  · rw [if_pos ((isFirst_iff I J).2 hJ), if_pos hJ, if_pos hJ, if_pos hJ]
    exact accZero_apply r
  · rw [if_neg (mt (isFirst_iff I J).1 hJ), if_neg hJ, if_neg hJ, if_neg hJ]
    exact ⟨rfl, rfl, rfl⟩

/-- ONE GRID POINT AT ROW r: each accumulator becomes (0 at the first column tile, else its previous value) plus the
    tile's partial sum. -/
theorem accStep_apply (xa : Vec Ideal S512x256 .bf16) (hxa : ∀ (r : Fin 512) (d : Fin 256), xa (ix2 r d) = a (grow I r) d)
    (xb : Vec Ideal S4096x256 .bf16) (hxb : ∀ (k : Fin 4096) (d : Fin 256), xb (ix2 k d) = b k d)
    (l : Vec Ideal S512x1024 .i32)
    (hl : ∀ (r : Fin 512) (q : Fin 1024), l (ix2 r q) = lab (ix2 (grow I r) (gcol J q)))
    (s : Acc Ideal) (r : Fin 512) :
    (accStep (gpt I J) xa xb l s).1 (ix2 r 0) = (if J.val = 0 then 0 else s.1 (ix2 r 0)) + tE a b (grow I r) J
      ∧ (accStep (gpt I J) xa xb l s).2.1 (ix2 r 0) = (if J.val = 0 then 0 else s.2.1 (ix2 r 0)) + tP a b lab (grow I r) J
      ∧ (accStep (gpt I J) xa xb l s).2.2 (ix2 r 0) = (if J.val = 0 then 0 else s.2.2 (ix2 r 0)) + tC lab (grow I r) J := by
  obtain ⟨z1, z2, z3⟩ := start_apply I J s r
  unfold accStep
  by_cases hd : onDiag (gpt I J)
  · rw [if_pos hd]
    obtain ⟨h1, h2, h3⟩ := accOn_apply a b lab I J xa hxa xb hxb l hl (if isFirst (gpt I J) then accZero else s) r
    exact ⟨h1.trans (congrArg (· + _) z1), h2.trans (congrArg (· + _) z2), h3.trans (congrArg (· + _) z3)⟩
  · rw [if_neg hd]
    obtain ⟨h1, h2, h3⟩ := accOff_apply a b lab I J hd xa hxa xb hxb l hl (if isFirst (gpt I J) then accZero else s) r
    exact ⟨h1.trans (congrArg (· + _) z1), h2.trans (congrArg (· + _) z2), h3.trans (congrArg (· + _) z3)⟩

end Step

end Cert.KernelIdeal.Hand

end
-- ==== Proof.LibBlockSum.lean ====
/-
  A sum over K * n consecutive indices as K blocks of n.
-/
import Mathlib.Algebra.BigOperators.Fin
import Mathlib.Logic.Equiv.Fin.Basic

namespace Cert.Lib.BlockSum

/-- Position `j` of block `s`, among `K` blocks of `n` consecutive indices. -/
abbrev at_ {K n : ℕ} (s : Fin K) (j : Fin n) : Fin (K * n) :=
  ⟨s.val * n + j.val, Nat.lt_of_lt_of_le (Nat.add_lt_add_left j.isLt _)
    (by rw [← Nat.succ_mul]; exact Nat.mul_le_mul_right _ s.isLt)⟩

/-- A sum over the `K * n` indices below `K * n` is the sum over the `K` blocks of `n` consecutive indices of each
    block's sum: `∑ᵢ H i = ∑ₛ ∑ⱼ H (s n + j)`, in any commutative monoid (no subtraction, no finiteness of values:
    on the extended reals too). -/
theorem sum_blocks {β : Type*} [AddCommMonoid β] (K n : ℕ) (H : Fin (K * n) → β) :
    ∑ i, H i = ∑ s : Fin K, ∑ j : Fin n, H (at_ s j) := by
  rw [← Equiv.sum_comp finProdFinEquiv H, Fintype.sum_prod_type]
  refine Finset.sum_congr rfl fun s _ => Finset.sum_congr rfl fun j _ => congrArg H (Fin.ext ?_)
  show j.val + n * s.val = s.val * n + j.val
  rw [Nat.mul_comm, Nat.add_comm]

end Cert.Lib.BlockSum
-- ==== Proof.LossRow.lean ====
/-
  The four column tiles of one row block, and the row losses.

  A sum over the 4096 columns is the sum over the 4 column tiles of the sums over each tile's 1024 columns. So the
  specification's row quantities are the sums of the tiles' partial sums,
      denom n = Σ_J tE n J,   sumpos n = Σ_J tP n J,   cnt n = Σ_J tC n J,
  and the accumulators after the grid points J = 0, 1, 2, 3 of row block I hold, at row r, exactly these for
  n = 512·I + r: the first point starts from zero and each later point adds its tile's partial sum. The row loss the
  body then writes, count · log(exponential sum + ε₈) − positive similarities, is the specification's. Only
  associativity of + on the extended reals and the regrouping of finite sums are used; nothing need be finite.
-/
import proofs.«105816_j90091234001463_2_alg».proof.Proof.LossAcc
import proofs.«105816_j90091234001463_2_alg».proof.Proof.LibBlockSum

noncomputable section

namespace Cert.KernelIdeal.Hand

open Cert.KernelIdeal Cert.KernelIdeal.Gen
open Idealize.ShloMosaic Idealize.ShloMosaic.ValueIdx Cert.Spec

/-- A sum over the 4096 columns, tile by tile. -/
theorem sum_cols {β : Type*} [AddCommMonoid β] (H : Fin 4096 → β) :
    ∑ k, H k = ∑ J : Fin 4, ∑ q : Fin 1024, H (gcol J q) := by
  refine (Cert.Lib.BlockSum.sum_blocks 4 1024 H).trans
    (Finset.sum_congr rfl fun J _ => Finset.sum_congr rfl fun q _ => congrArg H (Fin.ext ?_))
  show J.val * 1024 + q.val = 1024 * J.val + q.val
  omega

theorem denomN_eq (a b : Fin 4096 → Fin 256 → EReal) (n : Fin 4096) :
    denomN a b n = tE a b n 0 + tE a b n 1 + tE a b n 2 + tE a b n 3 := by
  unfold denomN tE
  rw [sum_cols, Fin.sum_univ_four]

theorem sumposN_eq (a b : Fin 4096 → Fin 256 → EReal) (lab : SL.Idx → BitVec 32) (n : Fin 4096) :
    sumposN a b lab n = tP a b lab n 0 + tP a b lab n 1 + tP a b lab n 2 + tP a b lab n 3 := by
  unfold sumposN tP
  rw [sum_cols, Fin.sum_univ_four]

theorem cnt_eq (lab : SL.Idx → BitVec 32) (n : Fin 4096) :
    cnt lab n = tC lab n 0 + tC lab n 1 + tC lab n 2 + tC lab n 3 := by
  unfold cnt tC
  rw [sum_cols, Fin.sum_univ_four]

/-- The row loss the body writes, at row r. -/
theorem rowOut_apply (s : Acc Ideal) (r : Fin 512) :
    rowOut s (ix2 r 0) = s.2.2 (ix2 r 0) * Ideal.log (s.1 (ix2 r 0) + eps8) - s.2.1 (ix2 r 0) := rfl

/-- THE ROW BLOCK: after the four grid points of row block I, in order, the row loss written at row r is the
    specification's row loss of the global row 512·I + r, and the count accumulator holds its number of positive
    pairs — whatever the accumulators held before. -/
theorem row_block_value (a b : Fin 4096 → Fin 256 → EReal) (lab : Cert.Spec.SL.Idx → BitVec 32) (I : Fin 8)
    (i : Fin 4 → grid2.Coords) (hi : ∀ J : Fin 4, ((i J) 0).val = I.val ∧ ((i J) 1).val = J.val)
    (xa : Fin 4 → Vec Ideal S512x256 .bf16)
    (hxa : ∀ (J : Fin 4) (r : Fin 512) (d : Fin 256),
      xa J (ValueIdx.ix2 r d) = a ⟨512 * I.val + r.val, by omega⟩ d)
    (xb : Fin 4 → Vec Ideal S4096x256 .bf16)
    (hxb : ∀ (J : Fin 4) (k : Fin 4096) (d : Fin 256), xb J (ValueIdx.ix2 k d) = b k d)
    (l : Fin 4 → Vec Ideal S512x1024 .i32)
    (hl : ∀ (J : Fin 4) (r : Fin 512) (q : Fin 1024),
      l J (ValueIdx.ix2 r q)
        = lab (ValueIdx.ix2 ⟨512 * I.val + r.val, by omega⟩ ⟨1024 * J.val + q.val, by omega⟩))
    (s : Acc Ideal) (r : Fin 512) :
    rowOut (accStep (i 3) (xa 3) (xb 3) (l 3) (accStep (i 2) (xa 2) (xb 2) (l 2)
        (accStep (i 1) (xa 1) (xb 1) (l 1) (accStep (i 0) (xa 0) (xb 0) (l 0) s)))) (ValueIdx.ix2 r 0)
      = Cert.Spec.rowlossN a b lab ⟨512 * I.val + r.val, by omega⟩
    ∧ (accStep (i 3) (xa 3) (xb 3) (l 3) (accStep (i 2) (xa 2) (xb 2) (l 2)
        (accStep (i 1) (xa 1) (xb 1) (l 1) (accStep (i 0) (xa 0) (xb 0) (l 0) s)))).2.2 (ValueIdx.ix2 r 0)
      = Cert.Spec.cnt lab ⟨512 * I.val + r.val, by omega⟩ := by
  have e : ∀ J : Fin 4, i J = gpt I J := fun J => eq_gpt (i J) I J (hi J).1 (hi J).2
  rw [e 0, e 1, e 2, e 3]
  show rowOut (F := Ideal) _ (ix2 r 0) = rowlossN a b lab (grow I r) ∧ (_ : EReal) = cnt lab (grow I r)
  obtain ⟨a1, b1, c1⟩ := accStep_apply a b lab I 0 (xa 0) (hxa 0) (xb 0) (hxb 0) (l 0) (hl 0) s r
  generalize accStep (gpt I 0) (xa 0) (xb 0) (l 0) s = s1 at a1 b1 c1 ⊢
  obtain ⟨a2, b2, c2⟩ := accStep_apply a b lab I 1 (xa 1) (hxa 1) (xb 1) (hxb 1) (l 1) (hl 1) s1 r
  generalize accStep (gpt I 1) (xa 1) (xb 1) (l 1) s1 = s2 at a2 b2 c2 ⊢
  obtain ⟨a3, b3, c3⟩ := accStep_apply a b lab I 2 (xa 2) (hxa 2) (xb 2) (hxb 2) (l 2) (hl 2) s2 r
  generalize accStep (gpt I 2) (xa 2) (xb 2) (l 2) s2 = s3 at a3 b3 c3 ⊢
  obtain ⟨a4, b4, c4⟩ := accStep_apply a b lab I 3 (xa 3) (hxa 3) (xb 3) (hxb 3) (l 3) (hl 3) s3 r
  generalize accStep (gpt I 3) (xa 3) (xb 3) (l 3) s3 = s4 at a4 b4 c4 ⊢
  rw [if_pos (show (0 : Fin 4).val = 0 from rfl), zero_add] at a1 b1 c1
  rw [if_neg (by decide : ¬ ((1 : Fin 4).val = 0))] at a2 b2 c2
  rw [if_neg (by decide : ¬ ((2 : Fin 4).val = 0))] at a3 b3 c3
  rw [if_neg (by decide : ¬ ((3 : Fin 4).val = 0))] at a4 b4 c4
  have hE : s4.1 (ix2 r 0) = denomN a b (grow I r) := by rw [a4, a3, a2, a1, denomN_eq]
  have hP : s4.2.1 (ix2 r 0) = sumposN a b lab (grow I r) := by rw [b4, b3, b2, b1, sumposN_eq]
  have hC : s4.2.2 (ix2 r 0) = cnt lab (grow I r) := by rw [c4, c3, c2, c1, cnt_eq]
  refine ⟨?_, hC⟩
  rw [rowOut_apply, hE, hP, hC]
  rfl

end Cert.KernelIdeal.Hand

end
-- ==== Proof.LossArrayI.lean ====
/-
  What the loss region leaves in its two result arrays, on the extended reals.

  Row block I (rows 512 I .. 512 I + 511) is visited at the four grid points 4 I, 4 I + 1, 4 I + 2, 4 I + 3, one per column
  tile of 1024 columns; the three row accumulators are reset at the first and, after the fourth, hold the row sums over all
  4096 columns: the exponential sums off the diagonal, the positive similarities and the positive counts. At that point the
  body writes count · log(sum + ε₈) − similarities and the count into the two [512, 1] output blocks, which the pipeline
  writes back as rows 512 I .. 512 I + 511 of the two [4096, 1] arrays. The eight blocks tile the arrays.
-/
import proofs.«105816_j90091234001463_2_alg».proof.Proof.LossDatI
import proofs.«105816_j90091234001463_2_alg».proof.Proof.LossRow
import proofs.«105816_j90091234001463_2_alg».proof.Proof.SpecRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The printed index maps and grid coordinates, decided over the 32 points: point t is row block t / 4, column tile t % 4. -/
theorem block_index2 : ∀ t : Fin cfg2.N,
    ((grid2.coords t) 0).val = t.val / 4 ∧ ((grid2.coords t) 1).val = t.val % 4
    ∧ win2_0.index t (0 : Fin 2) = t.val / 4 ∧ win2_0.index t (1 : Fin 2) = 0
    ∧ win2_1.index t (0 : Fin 2) = 0 ∧ win2_1.index t (1 : Fin 2) = 0
    ∧ win2_2.index t (0 : Fin 2) = t.val / 4 ∧ win2_2.index t (1 : Fin 2) = t.val % 4
    ∧ win2_3.index t (0 : Fin 2) = t.val / 4 ∧ win2_3.index t (1 : Fin 2) = 0
    ∧ win2_4.index t (0 : Fin 2) = t.val / 4 ∧ win2_4.index t (1 : Fin 2) = 0 :=
  (by decide +kernel : ∀ t : Fin grid2.N, _)

theorem pt_lt (t : Fin cfg2.N) : t.val < 32 := Nat.lt_of_lt_of_eq t.isLt N_2

variable (V : (c : Dev nD) → (b : Ref sig .tc) → Buf (Elt Ideal) ((c : Thread nD τ).loc b))

/-- The two pooled arrays as the region finds them, by row and lane. -/
def rowsA (c : Dev nD) : Fin 4096 → Fin 256 → EReal := fun i d => V c main_v0 (ix2 i d)
def rowsB (c : Dev nD) : Fin 4096 → Fin 256 → EReal := fun k d => V c main_v1 (ix2 k d)

/-- The [4096, 1] column of row losses, and of positive counts, of those arrays and the labels. -/
def lossCol (c : Dev nD) : S4096x1.Idx → EReal :=
  fun j => Cert.Spec.rowlossN (rowsA V c) (rowsB V c) (V c main_arg2) ⟨(j 0).val, (j 0).isLt⟩
def cntCol (c : Dev nD) : S4096x1.Idx → EReal :=
  fun j => Cert.Spec.cnt (V c main_arg2) ⟨(j 0).val, (j 0).isLt⟩

/-! ## The input blocks read where the grid point says -/

theorem blockA (c : Dev nD) (t : Fin cfg2.N) (r : Fin 512) (d : Fin 256) :
    blk2 V c 0 t (ix2 r d) = rowsA V c ⟨512 * (t.val / 4) + r.val, by have := pt_lt t; omega⟩ d := by
  obtain ⟨-, -, e0, e1, -⟩ := block_index2 t
  show V c main_v0 (((cfg2.win 0).blk t).view.emb (ix2 r d)) = V c main_v0 _
  refine congrArg (V c main_v0) ?_
  funext a; apply Fin.ext
  match a with
  | ⟨0, _⟩ => show win2_0.index t (0 : Fin 2) * 512 + 1 * r.val = 512 * (t.val / 4) + r.val; rw [e0]; omega
  | ⟨1, _⟩ => show win2_0.index t (1 : Fin 2) * 256 + 1 * d.val = d.val; rw [e1]; omega

theorem blockB (c : Dev nD) (t : Fin cfg2.N) (k : Fin 4096) (d : Fin 256) :
    blk2 V c 1 t (ix2 k d) = rowsB V c k d := by
  obtain ⟨-, -, -, -, e0, e1, -⟩ := block_index2 t
  show V c main_v1 (((cfg2.win 1).blk t).view.emb (ix2 k d)) = V c main_v1 _
  refine congrArg (V c main_v1) ?_
  funext a; apply Fin.ext
  match a with
  | ⟨0, _⟩ => show win2_1.index t (0 : Fin 2) * 4096 + 1 * k.val = k.val; rw [e0]; omega
  | ⟨1, _⟩ => show win2_1.index t (1 : Fin 2) * 256 + 1 * d.val = d.val; rw [e1]; omega

theorem blockL (c : Dev nD) (t : Fin cfg2.N) (r : Fin 512) (q : Fin 1024) :
    blk2 V c 2 t (ix2 r q) = V c main_arg2 (ix2 (⟨512 * (t.val / 4) + r.val, by have := pt_lt t; omega⟩ : Fin 4096)
      (⟨1024 * (t.val % 4) + q.val, by omega⟩ : Fin 4096)) := by
  obtain ⟨-, -, -, -, -, -, e0, e1, -⟩ := block_index2 t
  show V c main_arg2 (((cfg2.win 2).blk t).view.emb (ix2 r q)) = V c main_arg2 _
  refine congrArg (V c main_arg2) ?_
  funext a; apply Fin.ext
  match a with
  | ⟨0, _⟩ => show win2_2.index t (0 : Fin 2) * 512 + 1 * r.val = 512 * (t.val / 4) + r.val; rw [e0]; omega
  | ⟨1, _⟩ => show win2_2.index t (1 : Fin 2) * 1024 + 1 * q.val = 1024 * (t.val % 4) + q.val; rw [e1]; omega

/-! ## A row block's four points -/

/-- The accumulators after a row block's fourth point are four steps of what the block before left. -/
theorem accAt_block (c : Dev nD) (n : ℕ) (h0 : n < cfg2.N) (h1 : n + 1 < cfg2.N) (h2 : n + 2 < cfg2.N) (h3 : n + 3 < cfg2.N) :
    accAt V c (n + 3) h3 =
      accStep (grid2.coords ⟨n + 3, h3⟩) (blk2 V c 0 ⟨n + 3, h3⟩) (blk2 V c 1 ⟨n + 3, h3⟩) (blk2 V c 2 ⟨n + 3, h3⟩)
        (accStep (grid2.coords ⟨n + 2, h2⟩) (blk2 V c 0 ⟨n + 2, h2⟩) (blk2 V c 1 ⟨n + 2, h2⟩) (blk2 V c 2 ⟨n + 2, h2⟩)
          (accStep (grid2.coords ⟨n + 1, h1⟩) (blk2 V c 0 ⟨n + 1, h1⟩) (blk2 V c 1 ⟨n + 1, h1⟩) (blk2 V c 2 ⟨n + 1, h1⟩)
            (accStep (grid2.coords ⟨n, h0⟩) (blk2 V c 0 ⟨n, h0⟩) (blk2 V c 1 ⟨n, h0⟩) (blk2 V c 2 ⟨n, h0⟩)
              (prevAcc V c ⟨n, h0⟩)))) := by
  have e := accAt_step V c ⟨n, h0⟩
  show accStep _ _ _ _ (accStep _ _ _ _ (accStep _ _ _ _ (accAt V c n h0))) = _
  rw [show accAt V c n h0 = accAt V c (⟨n, h0⟩ : Fin cfg2.N).val (⟨n, h0⟩ : Fin cfg2.N).isLt from rfl, e]

/-- After the fourth point of row block I the body's two outputs hold the block's row losses and counts. -/
theorem block_outputs (c : Dev nD) (I : Fin 8) (h3 : 4 * I.val + 3 < cfg2.N) (r : Fin 512) :
    rowOut (accAt V c (4 * I.val + 3) h3) (ix2 r 0)
        = Cert.Spec.rowlossN (rowsA V c) (rowsB V c) (V c main_arg2) ⟨512 * I.val + r.val, by omega⟩
      ∧ (accAt V c (4 * I.val + 3) h3).2.2 (ix2 r 0) = Cert.Spec.cnt (V c main_arg2) ⟨512 * I.val + r.val, by omega⟩ := by
  have hN : cfg2.N = 32 := N_2
  have h0 : 4 * I.val < cfg2.N := by omega
  have h1 : 4 * I.val + 1 < cfg2.N := by omega
  have h2 : 4 * I.val + 2 < cfg2.N := by omega
  rw [accAt_block V c (4 * I.val) h0 h1 h2 h3]
  let pt : Fin 4 → Fin cfg2.N := fun J => ⟨4 * I.val + J.val, by omega⟩
  have hdiv : ∀ J : Fin 4, (pt J).val / 4 = I.val := fun J => by show (4 * I.val + J.val) / 4 = I.val; omega
  have hmod : ∀ J : Fin 4, (pt J).val % 4 = J.val := fun J => by show (4 * I.val + J.val) % 4 = J.val; omega
  refine row_block_value (rowsA V c) (rowsB V c) (V c main_arg2) I (fun J => grid2.coords (pt J)) ?_
    (fun J => blk2 V c 0 (pt J)) ?_ (fun J => blk2 V c 1 (pt J)) ?_ (fun J => blk2 V c 2 (pt J)) ?_ (prevAcc V c (pt 0)) r
  · intro J
    obtain ⟨e0, e1, -⟩ := block_index2 (pt J)
    exact ⟨e0.trans (hdiv J), e1.trans (hmod J)⟩
  · intro J r d
    rw [blockA V c (pt J) r d]
    exact congrArg (fun n => rowsA V c n d) (Fin.ext (by show 512 * ((pt J).val / 4) + r.val = 512 * I.val + r.val; rw [hdiv J]))
  · intro J k d
    exact blockB V c (pt J) k d
  · intro J r q
    rw [blockL V c (pt J) r q]
    refine congrArg (V c main_arg2) ?_
    refine congrArg₂ ix2 (Fin.ext ?_) (Fin.ext ?_)
    · show 512 * ((pt J).val / 4) + r.val = 512 * I.val + r.val; rw [hdiv J]
    · show 1024 * ((pt J).val % 4) + q.val = 1024 * J.val + q.val; rw [hmod J]

/-! ## From blocks to the arrays -/

/-- What a writing point writes back into the loss array is its block of the loss column. -/
theorem written_back3 (c : Dev nD) (t : Fin cfg2.N) (hf : (cfg2.win 3).flush t = true) :
    (dat2 (F := Ideal) V c).flushed 3 t = ((cfg2.win 3).blk t).view.read (Elt Ideal) (lossCol V c) := by
  have ht : t.val % 4 = 3 := (flush2_3 t).mp hf
  have hlt := pt_lt t
  obtain ⟨-, -, -, -, -, -, -, -, e0, e1, -⟩ := block_index2 t
  show (cfg2.win 3).cut (grid2.coords t) ((dat2 V c).after 3 t) = _
  rw [after2_3]
  funext j
  have hr : (j 0).val < 512 := (j 0).isLt
  have hq : (j 1).val < 1 := (j 1).isLt
  have hj : (cfg2.win 3).xinj (grid2.coords t) j = ix2 (⟨(j 0).val, hr⟩ : Fin 512) (0 : Fin 1) := by
    funext a; apply Fin.ext; match a with | ⟨0, _⟩ => rfl | ⟨1, _⟩ => (show (j 1).val = 0; omega)
  show rowOut (accAt V c t.val t.isLt) ((cfg2.win 3).xinj (grid2.coords t) j) = lossCol V c (((cfg2.win 3).blk t).view.emb j)
  rw [hj]
  obtain ⟨I, hI⟩ : ∃ I : Fin 8, t.val = 4 * I.val + 3 := ⟨⟨t.val / 4, by omega⟩, by show t.val = 4 * (t.val / 4) + 3; omega⟩
  have hacc : accAt V c t.val t.isLt = accAt V c (4 * I.val + 3) (by rw [← hI]; exact t.isLt) := by
    congr 1
  rw [hacc, (block_outputs V c I _ ⟨(j 0).val, hr⟩).1]
  unfold lossCol
  refine congrArg (Cert.Spec.rowlossN (rowsA V c) (rowsB V c) (V c main_arg2)) (Fin.ext ?_)
  show 512 * I.val + (j 0).val = win2_3.index t (0 : Fin 2) * 512 + 1 * (j 0).val
  rw [e0, hI]; omega

/-- The same for the count array. -/
theorem written_back4 (c : Dev nD) (t : Fin cfg2.N) (hf : (cfg2.win 4).flush t = true) :
    (dat2 (F := Ideal) V c).flushed 4 t = ((cfg2.win 4).blk t).view.read (Elt Ideal) (cntCol V c) := by
  have ht : t.val % 4 = 3 := (flush2_4 t).mp hf
  have hlt := pt_lt t
  obtain ⟨-, -, -, -, -, -, -, -, -, -, e0, e1⟩ := block_index2 t
  show (cfg2.win 4).cut (grid2.coords t) ((dat2 V c).after 4 t) = _
  rw [after2_4]
  funext j
  have hr : (j 0).val < 512 := (j 0).isLt
  have hq : (j 1).val < 1 := (j 1).isLt
  have hj : (cfg2.win 4).xinj (grid2.coords t) j = ix2 (⟨(j 0).val, hr⟩ : Fin 512) (0 : Fin 1) := by
    funext a; apply Fin.ext; match a with | ⟨0, _⟩ => rfl | ⟨1, _⟩ => (show (j 1).val = 0; omega)
  show (accAt V c t.val t.isLt).2.2 ((cfg2.win 4).xinj (grid2.coords t) j) = cntCol V c (((cfg2.win 4).blk t).view.emb j)
  rw [hj]
  obtain ⟨I, hI⟩ : ∃ I : Fin 8, t.val = 4 * I.val + 3 := ⟨⟨t.val / 4, by omega⟩, by show t.val = 4 * (t.val / 4) + 3; omega⟩
  have hacc : accAt V c t.val t.isLt = accAt V c (4 * I.val + 3) (by rw [← hI]; exact t.isLt) := by
    congr 1
  rw [hacc, (block_outputs V c I _ ⟨(j 0).val, hr⟩).2]
  unfold cntCol
  refine congrArg (Cert.Spec.cnt (V c main_arg2)) (Fin.ext ?_)
  show 512 * I.val + (j 0).val = win2_4.index t (0 : Fin 2) * 512 + 1 * (j 0).val
  rw [e0, hI]; omega

/-- An index of a [4096, 1] result array is in point t's block iff each coordinate is in the block's range. -/
theorem mem_block3 (t : Fin cfg2.N) (j : S4096x1.Idx) :
    j ∈ ((cfg2.win 3).blk t).view.set ↔ ∀ a : Fin 2, win2_3.index t a * S512x1.size a ≤ (j a).val
      ∧ (j a).val < win2_3.index t a * S512x1.size a + S512x1.size a := by
  show j ∈ ((View.whole main_v2_0).slice (win2_3.rect t)).set ↔ _
  rw [View.set_slice_whole, Rect.mem_set_unit]
  exact Iff.rfl
theorem mem_block4 (t : Fin cfg2.N) (j : S4096x1.Idx) :
    j ∈ ((cfg2.win 4).blk t).view.set ↔ ∀ a : Fin 2, win2_4.index t a * S512x1.size a ≤ (j a).val
      ∧ (j a).val < win2_4.index t a * S512x1.size a + S512x1.size a := by
  show j ∈ ((View.whole main_v2_1).slice (win2_4.rect t)).set ↔ _
  rw [View.set_slice_whole, Rect.mem_set_unit]
  exact Iff.rfl

/-- Every row of the loss array lies in the block written at the last column tile of its row block. -/
theorem covered3 (j : S4096x1.Idx) :
    ∃ t : Fin cfg2.N, (cfg2.win 3).flush t = true ∧ j ∈ ((cfg2.win 3).blk t).view.set := by
  have hj0 : (j 0).val < 4096 := (j 0).isLt
  have hj1 : (j 1).val < 1 := (j 1).isLt
  obtain ⟨t, ht⟩ : ∃ t : Fin cfg2.N, t.val = 4 * ((j 0).val / 512) + 3 :=
    ⟨⟨4 * ((j 0).val / 512) + 3, by rw [show cfg2.N = 32 from N_2]; omega⟩, rfl⟩
  obtain ⟨-, -, -, -, -, -, -, -, e0, e1, -⟩ := block_index2 t
  refine ⟨t, (flush2_3 t).mpr (by rw [ht]; omega), ?_⟩
  rw [mem_block3]
  intro a
  match a with
  | ⟨0, _⟩ =>
    show win2_3.index t (0 : Fin 2) * 512 ≤ (j 0).val ∧ (j 0).val < win2_3.index t (0 : Fin 2) * 512 + 512
    rw [e0, ht]; omega
  | ⟨1, _⟩ =>
    show win2_3.index t (1 : Fin 2) * 1 ≤ (j 1).val ∧ (j 1).val < win2_3.index t (1 : Fin 2) * 1 + 1
    rw [e1]; omega
theorem covered4 (j : S4096x1.Idx) :
    ∃ t : Fin cfg2.N, (cfg2.win 4).flush t = true ∧ j ∈ ((cfg2.win 4).blk t).view.set := by
  have hj0 : (j 0).val < 4096 := (j 0).isLt
  have hj1 : (j 1).val < 1 := (j 1).isLt
  obtain ⟨t, ht⟩ : ∃ t : Fin cfg2.N, t.val = 4 * ((j 0).val / 512) + 3 :=
    ⟨⟨4 * ((j 0).val / 512) + 3, by rw [show cfg2.N = 32 from N_2]; omega⟩, rfl⟩
  obtain ⟨-, -, -, -, -, -, -, -, -, -, e0, e1⟩ := block_index2 t
  refine ⟨t, (flush2_4 t).mpr (by rw [ht]; omega), ?_⟩
  rw [mem_block4]
  intro a
  match a with
  | ⟨0, _⟩ =>
    show win2_4.index t (0 : Fin 2) * 512 ≤ (j 0).val ∧ (j 0).val < win2_4.index t (0 : Fin 2) * 512 + 512
    rw [e0, ht]; omega
  | ⟨1, _⟩ =>
    show win2_4.index t (1 : Fin 2) * 1 ≤ (j 1).val ∧ (j 1).val < win2_4.index t (1 : Fin 2) * 1 + 1
    rw [e1]; omega

/-- The two result arrays after the region: the loss column and the count column. -/
theorem loss_array (c : Dev nD) : (dat2 (F := Ideal) V c).arrAt 3 cfg2.N = lossCol V c :=
  (dat2 V c).arrAt_eq_of_cover 3 (lossCol V c) (fun t hf => written_back3 V c t hf) covered3
theorem count_array (c : Dev nD) : (dat2 (F := Ideal) V c).arrAt 4 cfg2.N = cntCol V c :=
  (dat2 V c).arrAt_eq_of_cover 4 (cntCol V c) (fun t hf => written_back4 V c t hf) covered4

end Cert.KernelIdeal.Hand

end
-- ==== Proof.KernelInputs.lean ====
/-
  What the loss region is handed.

  The loss region is entered from the contents the two pooling regions left. Its first operand array is the first
  pooling region's result, which the second pooling region does not touch: the normalised rows of the first argument.
  Its second operand array is the second pooling region's result: the normalised rows of the second argument, which
  the first pooling region left as launched. The label array is written by neither pooling region.
  So the row losses and counts the loss region computes from what it is handed are the specification's, of the
  arguments as launched.
-/
import proofs.«105816_j90091234001463_2_alg».proof.Proof.KernelRunI
import proofs.«105816_j90091234001463_2_alg».proof.Proof.PoolValue
import proofs.«105816_j90091234001463_2_alg».proof.Proof.LossArrayI

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The loss region's first operand array: row i is the normalised row i of the first argument as launched. -/
theorem entry_rowsA (i : Fin 4096) (d : Fin 256) :
    E2 m c main_v0 (ValueIdx.ix2 i d) = Cert.Spec.rn (m ((c : Thread nD τ).loc main_arg0)) i d :=
  calc E2 m c main_v0 (ValueIdx.ix2 i d)
    _ = E1 m c main_v0 (ValueIdx.ix2 i d) := congrFun (W2_of_ne m c main_v0 (by decide)) _
    _ = (dat0 (F := Ideal) (E0 m) c).arrAt 1 cfg0.N (ValueIdx.ix2 i d) := congrFun (W1_arr m c 1) _
    _ = Cert.Spec.rn (E0 m c main_arg0) i d := pool0_value (E0 m) c i d
    _ = Cert.Spec.rn (m ((c : Thread nD τ).loc main_arg0)) i d := rfl

/-- The loss region's second operand array: row k is the normalised row k of the second argument as launched. -/
theorem entry_rowsB (k : Fin 4096) (d : Fin 256) :
    E2 m c main_v1 (ValueIdx.ix2 k d) = Cert.Spec.rn (m ((c : Thread nD τ).loc main_arg1)) k d :=
  calc E2 m c main_v1 (ValueIdx.ix2 k d)
    _ = (dat1 (F := Ideal) (E1 m) c).arrAt 1 cfg1.N (ValueIdx.ix2 k d) := congrFun (W2_arr m c 1) _
    _ = Cert.Spec.rn (E1 m c main_arg1) k d := pool1_value (E1 m) c k d
    _ = Cert.Spec.rn (E0 m c main_arg1) k d :=
        congrArg (fun X : Cert.Spec.SX.Idx → EReal => Cert.Spec.rn X k d) (W1_of_ne m c main_arg1 (by decide))
    _ = Cert.Spec.rn (m ((c : Thread nD τ).loc main_arg1)) k d := rfl

/-- The label array the loss region reads is the one launched. -/
theorem entry_labels : E2 m c main_arg2 = m ((c : Thread nD τ).loc main_arg2) :=
  (W2_of_ne m c main_arg2 (by decide)).trans (W1_of_ne m c main_arg2 (by decide))

/-- The two pooled arrays the loss region finds, by row and lane, are the normalised rows of the two arguments. -/
theorem entry_rowsA_fun : rowsA (E2 m) c = Cert.Spec.rn (m ((c : Thread nD τ).loc main_arg0)) :=
  funext fun i => funext fun d => entry_rowsA m c i d
theorem entry_rowsB_fun : rowsB (E2 m) c = Cert.Spec.rn (m ((c : Thread nD τ).loc main_arg1)) :=
  funext fun k => funext fun d => entry_rowsB m c k d

/-- The loss column of what the loss region is handed is the specification's row losses of the launched arguments. -/
theorem entry_lossCol (j : S4096x1.Idx) :
    lossCol (E2 m) c j
      = Cert.Spec.rowloss (m ((c : Thread nD τ).loc main_arg0)) (m ((c : Thread nD τ).loc main_arg1))
          (m ((c : Thread nD τ).loc main_arg2)) ⟨(j 0).val, (j 0).isLt⟩ := by
  show Cert.Spec.rowlossN (rowsA (E2 m) c) (rowsB (E2 m) c) (E2 m c main_arg2) ⟨(j 0).val, (j 0).isLt⟩ = _
  rw [entry_rowsA_fun, entry_rowsB_fun, entry_labels]
  exact (Cert.Spec.rowloss_eq_rowlossN _ _ _ _).symm

/-- The count column is the specification's positive counts of the launched labels. -/
theorem entry_cntCol (j : S4096x1.Idx) :
    cntCol (E2 m) c j = Cert.Spec.cnt (m ((c : Thread nD τ).loc main_arg2)) ⟨(j 0).val, (j 0).isLt⟩ := by
  show Cert.Spec.cnt (E2 m c main_arg2) ⟨(j 0).val, (j 0).isLt⟩ = _
  rw [entry_labels]

end Cert.KernelIdeal.Hand

end
-- ==== Proof.TailValue.lean ====
/- The kernel's host tail on the extended reals. From the two [4096, 1] arrays R (the row losses) and C (the row
   counts) the tail computes: tot = the sum of R over both axes from the zero word, cnt = the same of C,
   the bit cnt > 0, den = max(cnt, the word of 1.0), quot = tot / den, the select of quot or the zero word on that bit,
   and the product with the weight word. The sum over the index set of a [4096, 1] array is the sum over its 4096
   rows, so tot is Spec's total and cnt Spec's count; the bit is 1 exactly when the count is positive; the word of
   1.0 is 1; so the tail is Spec's loss. No finiteness is needed. -/
import proofs.«105816_j90091234001463_2_alg».proof.KernelIdeal
import proofs.«105816_j90091234001463_2_alg».proof.Proof.Spec
import Idealize.ShloMosaic.Lib.ValueIdx
import Idealize.ShloMosaic.PureOps.Ideal.Laws

noncomputable section

namespace Cert.KernelIdeal.Hand

open Cert.KernelIdeal Idealize.ShloMosaic Idealize.ShloMosaic.ValueIdx

/-- The zero word denotes 0. -/
theorem zero_word : Ideal.ofBits .f32 0x00000000#32 = 0 := by
  simp [Ideal.ofBits, Ideal.ieee]

/-- The word of 1.0 denotes 1. -/
theorem one_word : Ideal.ofBits .f32 0x3F800000#32 = 1 := by
  simp [Ideal.ofBits, Ideal.ieee, -EReal.coe_mul]; norm_num

/-- A host quotient at an index is the quotient of the elements. -/
theorem hostDivf_apply {s : Shape} {φ : FTy} (a b : FVec Ideal s φ) (i : s.Idx) :
    Host.divf a b i = Ideal.div (a i) (b i) := rfl

/-- The comparison "greater than 0" on the extended reals is the bit of 0 < a. -/
theorem cmp_ogt_zero (a : EReal) : Ideal.cmp .ogt a 0 = 1#1 ↔ 0 < a := by
  by_cases h : 0 < a <;> simp [Ideal.cmp, h]

/-- The sum of a [4096, 1] array over both axes, from the zero word, is the sum over its 4096 rows. -/
theorem reduce_rows (h : S4096x1.ReducesTo [0, 1] S_) (h0 : 0 < S_.numel) (X : FVec Ideal S4096x1 .f32) (j : S_.Idx) :
    Host.reduceAdd X (constant (F := Ideal) S_ .f32 0x00000000#32) h h0 j = ∑ a : Fin 4096, X (ix2 a (0 : Fin 1)) := by
  simp only [Host.reduceAdd, Ideal.hostReduceAdd_def]
  rw [Ideal.hostReduceAdd_total h (fun b => b.elim0), sum_idx2]
  simp only [Fin.sum_univ_one]
  rw [constant_apply, zero_word, zero_add]

/-- The host tail of the row losses and the row counts is the loss (the two shape facts as hypotheses). -/
theorem tail_loss_of (h : S4096x1.ReducesTo [0, 1] S_) (h0 : 0 < S_.numel)
    (x y : Cert.Spec.SX.Idx → EReal) (lab : Cert.Spec.SL.Idx → BitVec 32) (R C : FVec Ideal S4096x1 .f32)
    (hR : ∀ j : S4096x1.Idx, R j = Cert.Spec.rowloss x y lab ⟨(j 0).val, (j 0).isLt⟩)
    (hC : ∀ j : S4096x1.Idx, C j = Cert.Spec.cnt lab ⟨(j 0).val, (j 0).isLt⟩) :
    mulf (F := Ideal) (constant S_ .f32 0x3E99999A#32)
      (select (cmpf .ogt (Host.reduceAdd C (constant S_ .f32 0x00000000#32) h h0) (constant S_ .f32 0x00000000#32))
        (Host.divf (Host.reduceAdd R (constant S_ .f32 0x00000000#32) h h0)
          (maximumf (Host.reduceAdd C (constant S_ .f32 0x00000000#32) h h0) (constant S_ .f32 0x3F800000#32)))
        (constant S_ .f32 0x00000000#32))
      = fun _ => Cert.Spec.loss x y lab := by
  funext j
  have hT : Host.reduceAdd R (constant (F := Ideal) S_ .f32 0x00000000#32) h h0 j = Cert.Spec.total x y lab := by
    rw [reduce_rows]
    exact Finset.sum_congr rfl fun a _ => hR (ix2 a (0 : Fin 1))
  have hN : Host.reduceAdd C (constant (F := Ideal) S_ .f32 0x00000000#32) h h0 j = Cert.Spec.cntT lab := by
    rw [reduce_rows]
    exact Finset.sum_congr rfl fun a _ => hC (ix2 a (0 : Fin 1))
  rw [mulf_apply, select_apply, cmpf_apply, hostDivf_apply, maximumf_apply, hT, hN]
  simp only [constant_apply, zero_word, one_word]
  rw [Ideal.cmpf_def]
  unfold Cert.Spec.loss Cert.Spec.lam
  by_cases hc : 0 < Cert.Spec.cntT lab
  · rw [if_pos hc, (cmp_ogt_zero _).2 hc, select_one]
  · rw [if_neg hc, eq_zero_of_ne_one (mt (cmp_ogt_zero _).1 hc), select_zero]

variable [Cert.KernelIdeal.Facts₀]
open Cert.KernelIdeal.Facts₀

/-- The host tail of the row losses and the row counts is the loss. -/
theorem tail_loss (x y : Cert.Spec.SX.Idx → EReal) (lab : Cert.Spec.SL.Idx → BitVec 32) (R C : FVec Ideal S4096x1 .f32)
    (hR : ∀ j : S4096x1.Idx, R j = Cert.Spec.rowloss x y lab ⟨(j 0).val, (j 0).isLt⟩)
    (hC : ∀ j : S4096x1.Idx, C j = Cert.Spec.cnt lab ⟨(j 0).val, (j 0).isLt⟩) :
    mulf (F := Ideal) (constant S_ .f32 0x3E99999A#32)
      (select (cmpf .ogt (Host.reduceAdd C (constant S_ .f32 0x00000000#32) reducesTo_S4096x1_S_d0_1 h_S_)
          (constant S_ .f32 0x00000000#32))
        (Host.divf (Host.reduceAdd R (constant S_ .f32 0x00000000#32) reducesTo_S4096x1_S_d0_1 h_S_)
          (maximumf (Host.reduceAdd C (constant S_ .f32 0x00000000#32) reducesTo_S4096x1_S_d0_1 h_S_)
            (constant S_ .f32 0x3F800000#32)))
        (constant S_ .f32 0x00000000#32))
      = fun _ => Cert.Spec.loss x y lab :=
  tail_loss_of reducesTo_S4096x1_S_d0_1 h_S_ x y lab R C hR hC

end Cert.KernelIdeal.Hand

end
-- ==== Proof.KernelValue.lean ====
/-
  The idealized kernel's run with its result named: every weakly fair execution of its @main ends with the scalar result
  at the loss of Spec of the three argument arrays, and the arguments unchanged.

  The run over the six segments names every unscoped buffer's final contents. The result buffer holds the host tail's
  operations of the two [4096, 1] arrays the loss region leaves; those are the loss column and the count column of the two
  pooled arrays and the labels as the region finds them; the pooled arrays are the unit rows of the two arguments. So the tail
  is weight · (if 0 < count then total / max(count, 1) else 0) of Spec's row losses and counts.
-/
import proofs.«105816_j90091234001463_2_alg».proof.Proof.KernelTailI
import proofs.«105816_j90091234001463_2_alg».proof.Proof.KernelInputs
import proofs.«105816_j90091234001463_2_alg».proof.Proof.TailValue

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-- The result buffer after the run holds the loss of the argument arrays. -/
theorem result_is_loss (m : (ℓ : Loc nD τ sig) → Buf (Elt Ideal) ℓ) (c : Dev nD) :
    W6 m c main_v9 = fun _ => Cert.Spec.loss (m ((c.tc : Thread nD τ).loc main_arg0)) (m ((c.tc : Thread nD τ).loc main_arg1))
      (m ((c.tc : Thread nD τ).loc main_arg2)) := by
  rw [W6_main_v9 m c]
  unfold totSum cntSum
  rw [loss_array (E2 m) c, count_array (E2 m) c]
  exact tail_loss _ _ _ _ _ (fun j => entry_lossCol m c j) (fun j => entry_cntCol m c j)

/-- The run with the result named. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = (fun _ => Cert.Spec.loss (m ((c.tc : Thread nD τ).loc main_arg0))
          (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c _ (mem_unscoped main_v9 (by decide))).trans (result_is_loss m c),
       (h c _ (mem_unscoped main_arg0 (by decide))).trans (W6_main_arg0 m c),
       (h c _ (mem_unscoped main_arg1 (by decide))).trans (W6_main_arg1 m c),
       (h c _ (mem_unscoped main_arg2 (by decide))).trans (W6_main_arg2 m c)⟩)
    (kernel_run m ρ)

end Cert.KernelIdeal.Hand

end
-- ==== Proof.RefConsts.lean ====
/- The float words the reference prints, as the extended reals they denote: the zero word is 0, the word of 8.0 is 8,
   the word of 0.125 is 1/8, and the words of 1e-12, 0.07 and 1e-8 are positive reals. Each pattern is evaluated
   here once. -/
import proofs.«105816_j90091234001463_2_alg».proof.Proof.Spec

noncomputable section

namespace Cert.RefSide

open Idealize.ShloMosaic

/-- The zero word denotes 0. -/
theorem zero_word : Ideal.ofBits .f32 0x00000000#32 = 0 := by
  simp [Ideal.ofBits, Ideal.ieee]

/-- The word of 8.0 denotes the real 8. -/
theorem eight_word : Ideal.ofBits .f32 0x41000000#32 = ((8 : ℝ) : EReal) := by
  simp [Ideal.ofBits, Ideal.ieee, -EReal.coe_mul]; norm_num

/-- The word of 0.125 denotes the real 1/8. -/
theorem c8inv_eq : Cert.Spec.c8inv = ((1 / 8 : ℝ) : EReal) := by
  unfold Cert.Spec.c8inv
  simp [Ideal.ofBits, Ideal.ieee, -EReal.coe_mul]; norm_num

/-- The word of 1e-12 denotes a positive real. -/
theorem eps12_pos : ∃ r : ℝ, 0 < r ∧ Cert.Spec.eps12 = (r : EReal) := by
  unfold Cert.Spec.eps12
  refine ⟨_, ?_, by simp [Ideal.ofBits, Ideal.ieee, -EReal.coe_mul]; rfl⟩
  positivity

/-- The word of the temperature denotes a positive real. -/
theorem temp_pos : ∃ r : ℝ, 0 < r ∧ Cert.Spec.temp = (r : EReal) := by
  unfold Cert.Spec.temp
  refine ⟨_, ?_, by simp [Ideal.ofBits, Ideal.ieee, -EReal.coe_mul]; rfl⟩
  positivity

/-- The word of 1e-8 denotes a positive real. -/
theorem eps8_pos : ∃ r : ℝ, 0 < r ∧ Cert.Spec.eps8 = (r : EReal) := by
  unfold Cert.Spec.eps8
  refine ⟨_, ?_, by simp [Ideal.ofBits, Ideal.ieee, -EReal.coe_mul]; rfl⟩
  positivity

end Cert.RefSide

end
-- ==== Proof.RefRows.lean ====
/- The reference's first stages, read at an index: the slot mean, the squared length of a row of means, the row scaled
   to unit length, and the scaled inner product of a row of x with a row of y are the functions of Spec. The reference
   divides the slot sum by the word of 8.0 where Spec multiplies by the word of 0.125: on the extended reals a
   quotient by a nonzero real is the product with its reciprocal. -/
import proofs.«105816_j90091234001463_2_alg».proof.Proof.Spec
import proofs.«105816_j90091234001463_2_alg».proof.Proof.RefConsts
import proofs.«105816_j90091234001463_2_alg».proof.Proof.RefRead

noncomputable section

namespace Cert.RefSide

open Cert.ReferenceIdeal Cert.ReferenceIdeal.Gen Cert.ReferenceIdeal.Read Idealize.ShloMosaic Idealize.ShloMosaic.ValueIdx

/-- The slot mean of the first argument: the slot sum over the word of 8.0 is the slot sum times the word of 0.125. -/
theorem mean_x (x : FVec Ideal S4096x8x256 .f32) (i : Fin 4096) (d : Fin 256) :
    val_main_v2 (F := Ideal) x (ix2 i d) = Cert.Spec.mean x i d := by
  have e : ∀ k : Fin 8, idx_main_v0 (ix2 i d) k = ix3 i k d := fun k => funext fun a => Fin.ext (by
    match a with | ⟨0, _⟩ => rfl | ⟨1, _⟩ => rfl | ⟨2, _⟩ => rfl)
  rw [val_main_v2_apply, val_main_v0_apply, val_main_v1_apply, val_main_cst_apply, val_main_cst_0_apply]
  simp only [e, Ideal.hostDivf_def, Ideal.ofBits_def, zero_word, eight_word, zero_add,
    Ideal.div_coe (by norm_num : (8 : ℝ) ≠ 0)]
  rw [Cert.Spec.mean, c8inv_eq]

/-- The slot mean of the second argument. -/
theorem mean_y (y : FVec Ideal S4096x8x256 .f32) (i : Fin 4096) (d : Fin 256) :
    val_main_v5 (F := Ideal) y (ix2 i d) = Cert.Spec.mean y i d := by
  have e : ∀ k : Fin 8, idx_main_v3 (ix2 i d) k = ix3 i k d := fun k => funext fun a => Fin.ext (by
    match a with | ⟨0, _⟩ => rfl | ⟨1, _⟩ => rfl | ⟨2, _⟩ => rfl)
  rw [val_main_v5_apply, val_main_v3_apply, val_main_v4_apply, val_main_cst_1_apply, val_main_cst_2_apply]
  simp only [e, Ideal.hostDivf_def, Ideal.ofBits_def, zero_word, eight_word, zero_add,
    Ideal.div_coe (by norm_num : (8 : ℝ) ≠ 0)]
  rw [Cert.Spec.mean, c8inv_eq]

/-- The squared length of a row of means of the first argument. -/
theorem sq_x (x : FVec Ideal S4096x8x256 .f32) (i : Fin 4096) :
    val_main_call0_v1 (F := Ideal) x (ix1 i) = Cert.Spec.sq x i := by
  have e : ∀ k : Fin 256, idx_main_call0_v1 (ix1 i) k = ix2 i k := fun k => funext fun a => Fin.ext (by
    match a with | ⟨0, _⟩ => rfl | ⟨1, _⟩ => rfl)
  rw [val_main_call0_v1_apply, val_main_call0_cst_apply]
  simp only [e, val_main_call0_v0_apply, mean_x, Ideal.mulf_def, Ideal.ofBits_def, zero_word, zero_add]
  rfl

/-- The squared length of a row of means of the second argument. -/
theorem sq_y (y : FVec Ideal S4096x8x256 .f32) (i : Fin 4096) :
    val_main_call1_v1 (F := Ideal) y (ix1 i) = Cert.Spec.sq y i := by
  have e : ∀ k : Fin 256, idx_main_call1_v1 (ix1 i) k = ix2 i k := fun k => funext fun a => Fin.ext (by
    match a with | ⟨0, _⟩ => rfl | ⟨1, _⟩ => rfl)
  rw [val_main_call1_v1_apply, val_main_call1_cst_apply]
  simp only [e, val_main_call1_v0_apply, mean_y, Ideal.mulf_def, Ideal.ofBits_def, zero_word, zero_add]
  rfl

/-- The row of means of the first argument scaled to unit length. -/
theorem rn_x (x : FVec Ideal S4096x8x256 .f32) (i : Fin 4096) (d : Fin 256) :
    val_main_v10 (F := Ideal) x (ix2 i d) = Cert.Spec.rn x i d := by
  have e9 : idx_main_v9 (ix2 i d) = ix2 i (0 : Fin 1) := funext fun a => Fin.ext (by
    match a with | ⟨0, _⟩ => rfl | ⟨1, _⟩ => rfl)
  have e2 : idx_main_call0_v2 (ix2 i (0 : Fin 1)) = ix1 i := funext fun a => Fin.ext (by
    match a with | ⟨0, _⟩ => rfl)
  rw [val_main_v10_apply, val_main_v9_apply, e9, val_main_v8_apply, val_main_v6_apply, val_main_call0_v2_apply, e2,
    val_main_v7_apply, val_main_cst_3_apply, mean_x, sq_x]
  rfl

/-- The row of means of the second argument scaled to unit length. -/
theorem rn_y (y : FVec Ideal S4096x8x256 .f32) (i : Fin 4096) (d : Fin 256) :
    val_main_v15 (F := Ideal) y (ix2 i d) = Cert.Spec.rn y i d := by
  have e9 : idx_main_v14 (ix2 i d) = ix2 i (0 : Fin 1) := funext fun a => Fin.ext (by
    match a with | ⟨0, _⟩ => rfl | ⟨1, _⟩ => rfl)
  have e2 : idx_main_call1_v2 (ix2 i (0 : Fin 1)) = ix1 i := funext fun a => Fin.ext (by
    match a with | ⟨0, _⟩ => rfl)
  rw [val_main_v15_apply, val_main_v14_apply, e9, val_main_v13_apply, val_main_v11_apply, val_main_call1_v2_apply, e2,
    val_main_v12_apply, val_main_cst_4_apply, mean_y, sq_y]
  rfl

/-- The similarity of row i of the first argument and row k of the second: the inner product of the two unit rows over
    the temperature. -/
theorem sim_eq (x y : FVec Ideal S4096x8x256 .f32) (i k : Fin 4096) :
    val_main_v19 (F := Ideal) x y (ix2 i k) = Cert.Spec.sim x y i k := by
  have el : ∀ d : Fin 256, lidx_main_v17 (ix2 i k) d = ix2 i d := fun d => funext fun a => Fin.ext (by
    match a with | ⟨0, _⟩ => rfl | ⟨1, _⟩ => rfl)
  have er : ∀ d : Fin 256, idx_main_v16 (ridx_main_v17 (ix2 i k) d) = ix2 k d := fun d => funext fun a => Fin.ext (by
    match a with | ⟨0, _⟩ => rfl | ⟨1, _⟩ => rfl)
  rw [val_main_v19_apply, val_main_v17_apply, val_main_v18_apply, val_main_cst_5_apply]
  simp only [el, val_main_v16_apply, er, rn_x, rn_y]
  rfl

end Cert.RefSide

end
-- ==== Proof.RefDenom.lean ====
/- The reference's middle stages, read at an index: the diagonal bit, the bit of a positive pair off the diagonal, the
   exponentials with the diagonal zeroed, the row's denominator and its logarithm, the loss matrix
   log(denominator + ε₈) − similarity, and that matrix masked by the positive pairs. No finiteness is needed here: both
   sides stay on the extended reals. -/
import proofs.«105816_j90091234001463_2_alg».proof.Proof.RefRows
import Idealize.ShloMosaic.Lib.Affine

noncomputable section

namespace Cert.RefSide

open Cert.ReferenceIdeal Cert.ReferenceIdeal.Gen Cert.ReferenceIdeal.Read Idealize.ShloMosaic Idealize.ShloMosaic.ValueIdx

/-- Two row numbers below 4096 with the same 32-bit word are equal. -/
theorem ofNat_inj (i k : Fin 4096) (h : BitVec.ofNat 32 i.val = BitVec.ofNat 32 k.val) : i = k := by
  have h' := congrArg BitVec.toNat h
  simp only [BitVec.toNat_ofNat] at h'
  have hi := i.isLt
  have hk := k.isLt
  exact Fin.ext (by omega)

/-- The diagonal bit: the row number plus 0 equals the column number exactly on the diagonal. -/
theorem eye_bit (i k : Fin 4096) : val_main_v24 (F := Ideal) (ix2 i k) = 1#1 ↔ i = k := by
  rw [val_main_v24_apply, val_main_v23_apply, val_main_v20_apply, val_main_v21_apply, val_main_v22_apply,
    val_main_c_apply, IntOp.cmpi_eq]
  show BitVec.ofNat 32 i.val + 0#32 = BitVec.ofNat 32 k.val ↔ i = k
  rw [BitVec.add_zero]
  exact ⟨ofNat_inj i k, fun h => by rw [h]⟩

/-- The bit of a positive pair: the label is not 0 and the pair is off the diagonal. -/
theorem pos_bit (lab : IVec S4096x4096 32) (i k : Fin 4096) :
    val_main_v29 (F := Ideal) lab (ix2 i k) = 1#1 ↔ Cert.Spec.pos lab i k := by
  rw [val_main_v29_apply, val_main_v27_apply, val_main_v26_apply, val_main_v28_apply, val_main_v25_apply,
    val_main_c_6_apply, IntOp.andi_eq_one, IntOp.cmpi_ne, IntOp.not_eq_one, eye_bit]
  rfl

/-- The exponential of the similarity, the diagonal zeroed. -/
theorem expsim_eq (x y : FVec Ideal S4096x8x256 .f32) (i k : Fin 4096) :
    val_main_v31 (F := Ideal) x y (ix2 i k) = if i = k then 0 else Ideal.exp (Cert.Spec.sim x y i k) := by
  rw [val_main_v31_apply, val_main_call2_v1_apply, val_main_call2_v0_apply, val_main_cst_7_apply, val_main_v30_apply,
    sim_eq]
  by_cases h : i = k
  · rw [(eye_bit i k).2 h, select_one, if_pos h, Ideal.ofBits_def, zero_word]
  · rw [eq_zero_of_ne_one (mt (eye_bit i k).1 h), select_zero, if_neg h, Ideal.hostUnary_exp_def]

/-- The row's denominator. -/
theorem denom_eq (x y : FVec Ideal S4096x8x256 .f32) (i : Fin 4096) :
    val_main_v32 (F := Ideal) x y (ix1 i) = Cert.Spec.denom x y i := by
  have e : ∀ k : Fin 4096, idx_main_v32 (ix1 i) k = ix2 i k := fun k => funext fun a => Fin.ext (by
    match a with | ⟨0, _⟩ => rfl | ⟨1, _⟩ => rfl)
  rw [val_main_v32_apply, val_main_cst_8_apply, Ideal.ofBits_def, zero_word, zero_add]
  simp only [e, expsim_eq]
  rfl

/-- The logarithm of the row's denominator plus ε₈. -/
theorem logd_eq (x y : FVec Ideal S4096x8x256 .f32) (i : Fin 4096) :
    val_main_v35 (F := Ideal) x y (ix1 i) = Ideal.log (Cert.Spec.denom x y i + Cert.Spec.eps8) := by
  rw [val_main_v35_apply, val_main_v34_apply, val_main_v33_apply, val_main_cst_9_apply, denom_eq]
  rfl

/-- The loss matrix: the row's logarithm minus the similarity. -/
theorem lossmat_eq (x y : FVec Ideal S4096x8x256 .f32) (i k : Fin 4096) :
    val_main_v38 (F := Ideal) x y (ix2 i k)
      = Ideal.log (Cert.Spec.denom x y i + Cert.Spec.eps8) - Cert.Spec.sim x y i k := by
  have e37 : idx_main_v37 (ix2 i k) = ix2 i (0 : Fin 1) := funext fun a => Fin.ext (by
    match a with | ⟨0, _⟩ => rfl | ⟨1, _⟩ => rfl)
  have e36 : idx_main_v36 (ix2 i (0 : Fin 1)) = ix1 i := funext fun a => Fin.ext (by
    match a with | ⟨0, _⟩ => rfl)
  rw [val_main_v38_apply, val_main_v37_apply, e37, val_main_v36_apply, e36, logd_eq, sim_eq]
  rfl

/-- The loss matrix kept on the positive pairs, 0 elsewhere. -/
theorem masked_eq (x y : FVec Ideal S4096x8x256 .f32) (lab : IVec S4096x4096 32) (i k : Fin 4096) :
    val_main_v41 (F := Ideal) x y lab (ix2 i k)
      = if Cert.Spec.pos lab i k then Ideal.log (Cert.Spec.denom x y i + Cert.Spec.eps8) - Cert.Spec.sim x y i k
        else 0 := by
  rw [val_main_v41_apply, val_main_call3_v1_apply, val_main_call3_v0_apply, val_main_cst_11_apply, lossmat_eq]
  by_cases h : Cert.Spec.pos lab i k
  · rw [(pos_bit lab i k).2 h, select_one, if_pos h]
  · rw [eq_zero_of_ne_one (mt (pos_bit lab i k).1 h), select_zero, if_neg h, Ideal.ofBits_def, zero_word]

end Cert.RefSide

end
-- ==== Proof.RefReal.lean ====
/- On inputs whose every entry is a real number, every intermediate of the loss is a real number: the slot mean, the
   squared length (nonnegative), the clamped length (positive), the unit row, the similarity, the row's denominator
   (nonnegative, so that adding the positive ε₈ gives a positive real) and its logarithm.
   Also the row law that needs this: for a real L and reals s k,
     Σ_k [p k] (L − s k) = (Σ_k [p k] 1) · L − Σ_k [p k] s k,
   which fails on the extended reals at the infinities. -/
import proofs.«105816_j90091234001463_2_alg».proof.Proof.Spec
import proofs.«105816_j90091234001463_2_alg».proof.Proof.RefConsts

noncomputable section

namespace Cert.RefSide

open Idealize.ShloMosaic Idealize.ShloMosaic.ValueIdx Cert.Spec

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨t, ht⟩ := ih (fun i hi => h i (Finset.mem_insert_of_mem hi))
    exact ⟨r + t, by rw [Finset.sum_insert ha, hr, ht, EReal.coe_add]⟩

/-- A finite sum of nonnegative reals is a nonnegative real. -/
theorem real_sum_nonneg {ι : Type*} (s : Finset ι) (f : ι → EReal)
    (h : ∀ i ∈ s, ∃ r : ℝ, 0 ≤ r ∧ f i = (r : EReal)) : ∃ r : ℝ, 0 ≤ r ∧ ∑ i ∈ s, f i = (r : EReal) := by
  classical
  induction s using Finset.induction_on with
  | empty => exact ⟨0, le_rfl, by simp⟩
  | insert a s ha ih =>
    obtain ⟨r, hr0, hr⟩ := h a (Finset.mem_insert_self a s)
    obtain ⟨t, ht0, ht⟩ := ih (fun i hi => h i (Finset.mem_insert_of_mem hi))
    exact ⟨r + t, add_nonneg hr0 ht0, by rw [Finset.sum_insert ha, hr, ht, EReal.coe_add]⟩

/-- The row law, for a real L and reals s k: the sum over the selected k of L − s k is the number of selected k
    times L, minus the sum of the selected s k. -/
theorem row_law {n : ℕ} (p : Fin n → Prop) [DecidablePred p] (L : EReal) (s : Fin n → EReal)
    (hL : ∃ l : ℝ, L = (l : EReal)) (hs : ∀ k, ∃ r : ℝ, s k = (r : EReal)) :
    ∑ k, (if p k then L - s k else 0)
      = (∑ k, if p k then (1 : EReal) else 0) * L - ∑ k, if p k then s k else 0 := by
  obtain ⟨l, rfl⟩ := hL
  choose sr hsr using hs
  have e1 : ∀ k, (if p k then (l : EReal) - s k else 0) = ((if p k then l - sr k else 0 : ℝ) : EReal) := fun k => by
    rw [hsr k]; split_ifs <;> simp
  have e2 : ∀ k, (if p k then (1 : EReal) else 0) = ((if p k then 1 else 0 : ℝ) : EReal) := fun k => by
    split_ifs <;> simp
  have e3 : ∀ k, (if p k then s k else 0) = ((if p k then sr k else 0 : ℝ) : EReal) := fun k => by
    rw [hsr k]; split_ifs <;> simp
  simp only [e1, e2, e3]
  rw [← coe_sum, ← coe_sum, ← coe_sum, ← EReal.coe_mul, ← EReal.coe_sub]
  congr 1
  rw [Finset.sum_mul, ← Finset.sum_sub_distrib]
  refine Finset.sum_congr rfl fun k _ => ?_
  split_ifs <;> ring

variable {x y : SX.Idx → EReal}

/-- The slot mean of real entries is a real. -/
theorem mean_real (hx : ∀ j, ∃ r : ℝ, x j = (r : EReal)) (i : Fin 4096) (d : Fin 256) :
    ∃ r : ℝ, mean x i d = (r : EReal) := by
  obtain ⟨s, hs⟩ := real_sum Finset.univ (fun k : Fin 8 => x (ix3 i k d)) (fun k _ => hx _)
  exact ⟨s * (1 / 8), by rw [mean, hs, c8inv_eq, EReal.coe_mul]⟩

/-- The squared length of a row of real means is a nonnegative real. -/
theorem sq_real (hx : ∀ j, ∃ r : ℝ, x j = (r : EReal)) (i : Fin 4096) :
    ∃ r : ℝ, 0 ≤ r ∧ sq x i = (r : EReal) := by
  refine real_sum_nonneg Finset.univ _ (fun d _ => ?_)
  obtain ⟨m, hm⟩ := mean_real hx i d
  exact ⟨m * m, mul_self_nonneg m, by rw [hm, EReal.coe_mul]⟩

/-- The length of a row, clamped below by the positive ε₁₂, is a positive real. -/
theorem norm_real (hx : ∀ j, ∃ r : ℝ, x j = (r : EReal)) (i : Fin 4096) :
    ∃ r : ℝ, 0 < r ∧ max (Ideal.sqrt (sq x i)) eps12 = (r : EReal) := by
  obtain ⟨q, hq0, hq⟩ := sq_real hx i
  obtain ⟨e, he0, he⟩ := eps12_pos
  refine ⟨max (Real.sqrt q) e, lt_max_of_lt_right he0, ?_⟩
  rw [hq, he, Ideal.sqrt_coe, if_neg (not_lt.mpr hq0)]
  exact (EReal.coe_strictMono.monotone.map_max).symm

/-- The unit row's entries are reals. -/
theorem rn_real (hx : ∀ j, ∃ r : ℝ, x j = (r : EReal)) (i : Fin 4096) (d : Fin 256) :
    ∃ r : ℝ, rn x i d = (r : EReal) := by
  obtain ⟨m, hm⟩ := mean_real hx i d
  obtain ⟨n, hn0, hn⟩ := norm_real hx i
  exact ⟨m * (1 / n), by rw [rn, hm, hn, Ideal.div_coe hn0.ne', EReal.coe_mul]⟩

/-- The similarities are reals: the temperature is a nonzero real. -/
theorem sim_real (hx : ∀ j, ∃ r : ℝ, x j = (r : EReal)) (hy : ∀ j, ∃ r : ℝ, y j = (r : EReal)) (i k : Fin 4096) :
    ∃ r : ℝ, sim x y i k = (r : EReal) := by
  obtain ⟨t, ht0, ht⟩ := temp_pos
  obtain ⟨s, hs⟩ := real_sum Finset.univ (fun d : Fin 256 => rn x i d * rn y k d) (fun d _ => by
    obtain ⟨a, ha⟩ := rn_real hx i d
    obtain ⟨b, hb⟩ := rn_real hy k d
    exact ⟨a * b, by rw [ha, hb, EReal.coe_mul]⟩)
  exact ⟨s * (1 / t), by rw [sim, hs, ht, Ideal.div_coe ht0.ne', EReal.coe_mul]⟩

/-- The row's denominator, a sum of exponentials of reals and one 0, is a nonnegative real. -/
theorem denom_real (hx : ∀ j, ∃ r : ℝ, x j = (r : EReal)) (hy : ∀ j, ∃ r : ℝ, y j = (r : EReal)) (i : Fin 4096) :
    ∃ r : ℝ, 0 ≤ r ∧ denom x y i = (r : EReal) := by
  refine real_sum_nonneg Finset.univ _ (fun k _ => ?_)
  by_cases h : i = k
  · exact ⟨0, le_rfl, by rw [if_pos h, EReal.coe_zero]⟩
  · obtain ⟨s, hs⟩ := sim_real hx hy i k
    exact ⟨Real.exp s, (Real.exp_pos s).le, by rw [if_neg h, hs, Ideal.exp_coe]⟩

/-- The logarithm of the denominator plus the positive ε₈ is a real. -/
theorem logd_real (hx : ∀ j, ∃ r : ℝ, x j = (r : EReal)) (hy : ∀ j, ∃ r : ℝ, y j = (r : EReal)) (i : Fin 4096) :
    ∃ r : ℝ, Ideal.log (denom x y i + eps8) = (r : EReal) := by
  obtain ⟨d, hd0, hd⟩ := denom_real hx hy i
  obtain ⟨e, he0, he⟩ := eps8_pos
  exact ⟨Real.log (d + e), by
    rw [hd, he, ← EReal.coe_add, Ideal.log_coe, if_neg (not_le.mpr (add_pos_of_nonneg_of_pos hd0 he0))]⟩

end Cert.RefSide

end
-- ==== Proof.RefTotal.lean ====
/- The reference's float total is Spec's total, on inputs whose every entry is a real. The reference sums the masked
   loss matrix over all pairs (i, k); Spec sums, over the rows i, count · logarithm − the positive similarities. The
   sum over all pairs is the sum over i of the sum over k, and for each row the two agree by the row law, which needs
   the row's logarithm and every similarity to be real. -/
import proofs.«105816_j90091234001463_2_alg».proof.Proof.RefDenom
import proofs.«105816_j90091234001463_2_alg».proof.Proof.RefReal

noncomputable section

namespace Cert.RefSide

open Cert.ReferenceIdeal Cert.ReferenceIdeal.Gen Cert.ReferenceIdeal.Read Idealize.ShloMosaic Idealize.ShloMosaic.ValueIdx

/-- The float total of the reference is the sum of the row losses. -/
theorem ref_total (x y : FVec Ideal S4096x8x256 .f32) (lab : IVec S4096x4096 32)
    (hx : ∀ j, ∃ r : ℝ, x j = (r : EReal)) (hy : ∀ j, ∃ r : ℝ, y j = (r : EReal)) :
    val_main_v42 (F := Ideal) x y lab ix0 = Cert.Spec.total x y lab := by
  rw [val_main_v42_apply, val_main_cst_12_apply, Ideal.ofBits_def, zero_word, zero_add, sum_idx2]
  unfold Cert.Spec.total
  refine Finset.sum_congr rfl fun i _ => ?_
  simp only [masked_eq]
  exact row_law (fun k => Cert.Spec.pos lab i k) _ (fun k => Cert.Spec.sim x y i k) (logd_real hx hy i)
    (fun k => sim_real hx hy i k)

end Cert.RefSide

end
-- ==== Proof.RefLoss.lean ====
/- The reference's result is Spec's loss, on inputs whose every entry is a real, given what the integer count stages
   say: the count is positive exactly when Spec's count is, and the count clamped below by 1, as a float, is the
   maximum of Spec's count and 1. The last stages are a quotient, a select on the count's sign, and the product with
   the weight. -/
import proofs.«105816_j90091234001463_2_alg».proof.Proof.RefTotal

noncomputable section

namespace Cert.RefSide

open Cert.ReferenceIdeal Cert.ReferenceIdeal.Gen Cert.ReferenceIdeal.Read Idealize.ShloMosaic Idealize.ShloMosaic.ValueIdx

/-- The reference's result is the loss. -/
theorem ref_loss (x y : FVec Ideal S4096x8x256 .f32) (lab : IVec S4096x4096 32)
    (hx : ∀ j, ∃ r : ℝ, x j = (r : EReal)) (hy : ∀ j, ∃ r : ℝ, y j = (r : EReal))
    (hpos : val_main_v43 (F := Ideal) lab ix0 = 1#1 ↔ 0 < Cert.Spec.cntT lab)
    (hmax : val_main_v45 (F := Ideal) lab ix0 = max (Cert.Spec.cntT lab) 1) :
    val_main_v48 (F := Ideal) x y lab = fun _ => Cert.Spec.loss x y lab := by
  funext j
  obtain rfl : j = ix0 := eq_ix0 j
  rw [val_main_v48_apply, val_main_v47_apply, val_main_v46_apply, val_main_cst_16_apply, val_main_cst_15_apply,
    ref_total x y lab hx hy, hmax]
  unfold Cert.Spec.loss
  by_cases h : 0 < Cert.Spec.cntT lab
  · rw [hpos.2 h, select_one, if_pos h]
    rfl
  · rw [eq_zero_of_ne_one (mt hpos.1 h), select_zero, if_neg h, Ideal.ofBits_def, Ideal.ofBits_def, zero_word]
    rfl

end Cert.RefSide

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.RefFinite.lean ====
/- The precondition "every entry of both float arguments is finite" gives: every entry of both is a real number.
   The precondition is the conjunction of two bits, each the "and" over all entries of |entry| < +∞. A conjunction
   that is 1 has both bits 1; an "and" over all entries that is 1 has every entry's bit 1; and |a| < +∞ on the
   extended reals excludes both infinities. -/
import proofs.«105816_j90091234001463_2_alg».proof.Pre_finite_inputs
import proofs.«105816_j90091234001463_2_alg».proof.Proof.LibFiniteEntry
import Idealize.ShloMosaic.Lib.ReduceAll
import Idealize.ShloMosaic.Lib.ValueIdx

noncomputable section

namespace Cert.RefSide

open Idealize.ShloMosaic Cert.Lib.FiniteEntry

/-- From the finiteness precondition: every entry of the first and of the second argument is a real number. -/
theorem finite_of_pre [Cert.Pre_finite_inputs.Facts] (x y : FVec Ideal Cert.Pre_finite_inputs.S4096x8x256 .f32)
    (lab : IVec Cert.Pre_finite_inputs.S4096x4096 32)
    (h : Cert.Pre_finite_inputs.fn (F := Ideal) x y lab = fun _ => 1#1) :
    (∀ j, ∃ r : ℝ, x j = (r : EReal)) ∧ (∀ j, ∃ r : ℝ, y j = (r : EReal)) := by
  have h0 := congrFun h ValueIdx.ix0
  dsimp only [Cert.Pre_finite_inputs.fn] at h0
  obtain ⟨h1, h2⟩ := IntOp.andi_eq_one.1 h0
  exact ⟨fun j => entry_real _ x j (Host.reduce_andi_all _ _ _ _ _ h1 j),
    fun j => entry_real _ y j (Host.reduce_andi_all _ _ _ _ _ h2 j)⟩

end Cert.RefSide

end
-- ==== Proof.RefIs.lean ====
/- The reference side, float part, in one import: the reference's result, read one operation at a time, is the loss of
   Spec on inputs whose every entry is a real (ref_total, ref_loss), and the finiteness precondition gives such inputs
   (finite_of_pre). -/
import proofs.«105816_j90091234001463_2_alg».proof.Proof.RefLoss
import proofs.«105816_j90091234001463_2_alg».proof.Proof.RefFinite
-- ==== Proof.RefCountNum.lean ====
/-
  The number of positive pairs, as a natural number and as the extended real the specification sums.

  A pair (i, k) is positive when its label word is not 0 and i ≠ k. N = npos lab is the number of indices of the
  4096 × 4096 label array that are positive pairs; it is at most 4096 · 4096 = 2^24. The specification's count,
  Σ_i Σ_k [pos i k] 1 on the extended reals, is N as a real: a sum of zeros and ones is the size of the set of ones,
  and the sum over the index set is the double sum over the two coordinates.

  Then the three things the reference does with a 32-bit word n whose signed value is N: the signed comparison
  n > 0 comes out 1 exactly when 0 < N; the signed maximum of n and 1 has signed value max N 1; and that value as a
  real is max (Σ_i cnt i) 1.
-/
import proofs.«105816_j90091234001463_2_alg».proof.Proof.Spec
import Idealize.ShloMosaic.Lib.Affine
import Mathlib.Algebra.BigOperators.Ring.Finset

noncomputable section

namespace Cert.RefSide

open Idealize.ShloMosaic Idealize.ShloMosaic.ValueIdx Cert.Spec

/-- The index j of the label array is a positive pair: its label is not 0 and it is off the diagonal. -/
def posAt (lab : SL.Idx → BitVec 32) (j : SL.Idx) : Prop := lab j ≠ 0#32 ∧ (j 0).val ≠ (j 1).val

instance (lab : SL.Idx → BitVec 32) : DecidablePred (posAt lab) := fun j => by
  unfold posAt; infer_instance

/-- At the index built from the coordinates i and k this is the specification's pos lab i k. -/
theorem posAt_ix2 (lab : SL.Idx → BitVec 32) (i k : Fin 4096) : posAt lab (ix2 i k) ↔ pos lab i k := by
  unfold posAt pos
  refine and_congr Iff.rfl ?_
  show i.val ≠ k.val ↔ i ≠ k
  exact not_congr Fin.val_inj

/-- The number of positive pairs. -/
def npos (lab : SL.Idx → BitVec 32) : ℕ := (Finset.univ.filter (posAt lab)).card

/-- There are 2^24 indices in all, so twice the number of indices is below 2^32. -/
theorem card_idx : (Finset.univ : Finset SL.Idx).card = 4096 * 4096 := by
  rw [Finset.card_univ, Fintype.card_congr (idxEquiv2 (n0 := 4096) (n1 := 4096)), Fintype.card_prod, Fintype.card_fin]

theorem npos_le (lab : SL.Idx → BitVec 32) : npos lab ≤ 4096 * 4096 :=
  (Finset.card_filter_le _ _).trans (le_of_eq card_idx)

/-- The specification's count of positive pairs is N as a real. -/
theorem cntT_eq (lab : SL.Idx → BitVec 32) : cntT lab = ((npos lab : ℝ) : EReal) := by
  unfold cntT cnt npos
  rw [EReal.coe_coe_eq_natCast, Finset.natCast_card_filter, sum_idx2]
  refine Finset.sum_congr rfl fun i _ => Finset.sum_congr rfl fun k _ => ?_
  exact (if_congr (posAt_ix2 lab i k) rfl rfl).symm

/-- A one-bit word widened to 32 bits is 1 if the bit is 1 and 0 otherwise. -/
theorem setWidth_bit (b : BitVec 1) : b.setWidth 32 = if b = 1#1 then 1#32 else 0#32 := by
  revert b; decide

section Consumers

variable (n : BitVec 32) (N : ℕ)

/-- The signed comparison n > 0 is 1 exactly when the count is positive. -/
theorem sgt_zero_iff (hn : n.toInt = (N : Int)) : IntOp.cmpi .sgt n 0#32 = 1#1 ↔ 0 < N := by
  rw [IntOp.cmpi_sgt, hn]
  show (0 : Int) < (N : Int) ↔ 0 < N
  exact Int.natCast_pos

/-- The signed maximum of n and 1 has signed value max N 1. -/
theorem toInt_maxsi_one (hn : n.toInt = (N : Int)) : (IntOp.maxsi n 1#32).toInt = ((max N 1 : ℕ) : Int) := by
  unfold IntOp.maxsi
  have h1 : (1#32 : BitVec 32).toInt = 1 := by decide
  by_cases h : (1#32 : BitVec 32).slt n = true
  · rw [if_pos h, hn]
    rw [BitVec.slt_iff_toInt_lt, hn, h1] at h
    congr 1; omega
  · rw [if_neg h, h1]
    rw [BitVec.slt_iff_toInt_lt, hn, h1] at h
    have : max N 1 = 1 := by omega
    rw [this]; rfl

/-- max N 1, as an extended real, is the maximum of the specification's count and 1. -/
theorem coe_max_one (lab : SL.Idx → BitVec 32) :
    ((((max (npos lab) 1 : ℕ) : Int) : ℝ) : EReal) = max (cntT lab) 1 := by
  rw [cntT_eq, ← EReal.coe_one, ← EReal.coe_strictMono.monotone.map_max]
  congr 1
  push_cast
  rfl

end Consumers

end Cert.RefSide

end
-- ==== Proof.LibBitCount.lean ====
/-
  Counting with a wrap-around sum.

  A fold by addition of w-bit words over a finite set is the natural sum of the words' unsigned values, reduced
  modulo 2^w. When every word is 0 or 1 that natural sum is the number of ones, and it is at most the size of the
  set; so over a set of fewer than 2^w elements the fold's unsigned value IS the number of ones, and over a set of
  fewer than 2^(w-1) elements so is its signed value: the sum does not wrap and does not reach the sign bit.

  The operation is taken as a parameter op with a proof that it is addition, so that a fold stated with any name
  for the word addition can be read by these lemmas as it stands.
-/
import Mathlib.Data.Finset.Fold
import Mathlib.Algebra.BigOperators.Group.Finset.Piecewise

namespace Cert.LibBitCount

variable {w : Nat} {ι : Type*}

/-- The unsigned value of a fold by word addition: the initial word's value plus the natural sum of the values
    of the words, modulo 2^w. -/
theorem toNat_fold_add (op : BitVec w → BitVec w → BitVec w) [Std.Commutative op] [Std.Associative op]
    (hop : ∀ x y, op x y = x + y) (init : BitVec w) (S : Finset ι) (f : ι → BitVec w) :
    (S.fold op init f).toNat = (init.toNat + ∑ i ∈ S, (f i).toNat) % 2 ^ w := by
  induction S using Finset.cons_induction with
  | empty => rw [Finset.fold_empty, Finset.sum_empty, Nat.add_zero, Nat.mod_eq_of_lt init.isLt]
  | cons a S ha ih =>
    rw [Finset.fold_cons, hop, BitVec.toNat_add, ih, Finset.sum_cons, Nat.add_mod_mod]
    congr 1
    omega

/-- Over a set of fewer than 2^w elements, the fold from 0 of words that are each 0 or 1 (1 exactly where p holds)
    has the number of elements where p holds as its unsigned value. -/
theorem toNat_fold_add_indicator (hw : 0 < w) (op : BitVec w → BitVec w → BitVec w) [Std.Commutative op]
    [Std.Associative op] (hop : ∀ x y, op x y = x + y) (S : Finset ι) (f : ι → BitVec w) (p : ι → Prop)
    [DecidablePred p] (hf : ∀ i ∈ S, f i = if p i then 1#w else 0#w) (hS : S.card < 2 ^ w) :
    (S.fold op 0#w f).toNat = (S.filter p).card := by
  have h1 : (1#w).toNat = 1 := by
    rw [BitVec.toNat_ofNat]; exact Nat.mod_eq_of_lt (Nat.one_lt_two_pow (Nat.pos_iff_ne_zero.1 hw))
  have hsum : ∑ i ∈ S, (f i).toNat = ∑ i ∈ S, if p i then 1 else 0 :=
    Finset.sum_congr rfl fun i hi => by
      rw [hf i hi]; split_ifs
      · exact h1
      · rfl
  rw [toNat_fold_add op hop, hsum, ← Finset.card_filter, BitVec.toNat_zero, Nat.zero_add]
  exact Nat.mod_eq_of_lt (lt_of_le_of_lt (Finset.card_filter_le S p) hS)

/-- Over a set of fewer than 2^(w-1) elements the same fold has that number as its signed value too. -/
theorem toInt_fold_add_indicator (hw : 0 < w) (op : BitVec w → BitVec w → BitVec w) [Std.Commutative op]
    [Std.Associative op] (hop : ∀ x y, op x y = x + y) (S : Finset ι) (f : ι → BitVec w) (p : ι → Prop)
    [DecidablePred p] (hf : ∀ i ∈ S, f i = if p i then 1#w else 0#w) (hS : 2 * S.card < 2 ^ w) :
    (S.fold op 0#w f).toInt = ((S.filter p).card : Int) := by
  have hN := toNat_fold_add_indicator hw op hop S f p hf (by omega)
  have hle := Finset.card_filter_le S p
  rw [BitVec.toInt_eq_toNat_of_lt (by omega), hN]

end Cert.LibBitCount
-- ==== Proof.RefCountFold.lean ====
/-
  The reference's integer count, over abstract arrays.

  The reference marks each index j = (i, k) of the 4096 × 4096 label array with the bit
      (lab j ≠ 0) and not (i + 0 = k)            (i, k as 32-bit words; both are below 4096, so the words are equal
                                                  exactly when the coordinates are),
  widens the bit to a 32-bit word (0 or 1), and sums the words over both axes by 32-bit addition from 0. A reduction
  over all axes by a commutative associative operation is the fold over the whole index set; there are 2^24 indices,
  fewer than 2^31, so the wrap-around sum never wraps or reaches the sign bit and its signed value is the number N of
  positive pairs.
-/
import proofs.«105816_j90091234001463_2_alg».proof.Proof.RefCountNum
import proofs.«105816_j90091234001463_2_alg».proof.Proof.LibBitCount
import Idealize.ShloMosaic.PureOps.Reduce

noncomputable section

namespace Cert.RefSide

open Idealize.ShloMosaic Idealize.ShloMosaic.ValueIdx Cert.Spec

/-- The bit the reference computes at the index j is 1 exactly at the positive pairs. -/
theorem bit_iff (lab : SL.Idx → BitVec 32) (j : SL.Idx) :
    IntOp.andi (IntOp.cmpi .ne (lab j) 0#32)
        (~~~ IntOp.cmpi .eq (IntOp.addi (BitVec.ofNat 32 (j 0).val) 0#32) (BitVec.ofNat 32 (j 1).val)) = 1#1
      ↔ posAt lab j := by
  rw [IntOp.andi_eq_one, IntOp.cmpi_ne, IntOp.not_eq_one, IntOp.cmpi_eq]
  unfold posAt
  refine and_congr Iff.rfl (not_congr ?_)
  have h0 := idx2_lt0 j
  have h1 := idx2_lt1 j
  unfold IntOp.addi
  rw [BitVec.add_zero]
  constructor
  · intro e
    have := congrArg BitVec.toNat e
    rw [BitVec.toNat_ofNat, BitVec.toNat_ofNat, Nat.mod_eq_of_lt (by omega), Nat.mod_eq_of_lt (by omega)] at this
    exact this
  · intro e; rw [e]

/-- The widened bit is the word 1 at the positive pairs and the word 0 elsewhere. -/
theorem word_eq (lab : SL.Idx → BitVec 32) (j : SL.Idx) :
    (IntOp.andi (IntOp.cmpi .ne (lab j) 0#32)
        (~~~ IntOp.cmpi .eq (IntOp.addi (BitVec.ofNat 32 (j 0).val) 0#32) (BitVec.ofNat 32 (j 1).val))).setWidth 32
      = if posAt lab j then 1#32 else 0#32 := by
  rw [setWidth_bit]
  exact if_congr (bit_iff lab j) rfl rfl

/-- The sum over all axes, by 32-bit addition from 0, of words that are 1 at the positive pairs and 0 elsewhere has
    the number of positive pairs as its signed value. -/
theorem reduce_count {axes : List (Fin SL.rank)} {u : Shape} (lab : SL.Idx → BitVec 32) (x : IVec SL 32)
    (init : u.Idx → BitVec 32) (h : SL.ReducesTo axes (⟨0, ![]⟩ : Shape)) (hu : 0 < u.numel)
    (hinit : init (Shape.Idx.first hu) = 0#32) (hx : ∀ j, x j = if posAt lab j then 1#32 else 0#32)
    (j0 : (⟨0, ![]⟩ : Shape).Idx) :
    (Host.reduce IntOp.addi x init h hu j0).toInt = (npos lab : Int) := by
  rw [Host.reduce_eq_fold, hinit]
  have hall : (Finset.univ.filter fun i => h.drop i = j0) = Finset.univ :=
    Finset.filter_true_of_mem fun i _ => funext fun a => a.elim0
  rw [hall]
  exact Cert.LibBitCount.toInt_fold_add_indicator (by decide) IntOp.addi (fun _ _ => rfl) Finset.univ x (posAt lab)
    (fun j _ => hx j) (by rw [card_idx]; decide)

end Cert.RefSide

end
-- ==== Proof.RefCount.lean ====
/-
  The reference's integer count of the positive pairs, and what the reference does with it.

  The reference marks each index of the 4096 × 4096 label array with the bit "label ≠ 0 and off the diagonal", widens
  the bit to a 32-bit word and adds all the words up with 32-bit integer addition. There are 2^24 words, each 0 or 1,
  so the sum stays below 2^31: its signed value is the number N of positive pairs, which as a real is the
  specification's Σ_i cnt i. The test "count > 0" is therefore 0 < Σ_i cnt i, and the divisor max(count, 1),
  converted to a float (at the ideal instance: the signed integer exactly), is max (Σ_i cnt i) 1.
-/
import proofs.«105816_j90091234001463_2_alg».proof.Proof.RefRead
import proofs.«105816_j90091234001463_2_alg».proof.Proof.RefCountFold

noncomputable section

namespace Cert.RefSide

open Idealize.ShloMosaic Idealize.ShloMosaic.ValueIdx Cert.Spec Cert.ReferenceIdeal Cert.ReferenceIdeal.Read

/-- The word the reference sums at the index j: 1 at the positive pairs, 0 elsewhere. -/
theorem v39_eq (lab : IVec S4096x4096 32) (j : S4096x4096.Idx) :
    val_main_v39 (F := Ideal) lab j = if posAt lab j then 1#32 else 0#32 := by
  rw [val_main_v39_apply, val_main_v29_apply, val_main_v27_apply, val_main_v26_apply, val_main_v28_apply,
    val_main_v24_apply, val_main_v23_apply, val_main_v20_apply, val_main_v21_apply, val_main_v22_apply,
    val_main_v25_apply, val_main_c_apply, val_main_c_6_apply]
  exact word_eq lab j

/-- The reference's integer count has the number of positive pairs as its signed value. -/
theorem v40_toInt (lab : IVec S4096x4096 32) (i : S_.Idx) :
    (val_main_v40 (F := Ideal) lab i).toInt = (npos lab : Int) := by
  unfold val_main_v40
  exact reduce_count lab _ _ _ _ (val_main_c_10_apply _) (v39_eq lab) i

/-- The reference's test "count > 0" is the specification's 0 < Σ_i cnt i. -/
theorem count_pos (lab : IVec S4096x4096 32) :
    val_main_v43 (F := Ideal) lab ValueIdx.ix0 = 1#1 ↔ 0 < cntT lab := by
  rw [val_main_v43_apply, val_main_c_13_apply, sgt_zero_iff _ _ (v40_toInt lab ix0), cntT_eq, EReal.coe_pos,
    Nat.cast_pos]

/-- The reference's divisor, max(count, 1) as a float, is the specification's max (Σ_i cnt i) 1. -/
theorem count_max (lab : IVec S4096x4096 32) :
    val_main_v45 (F := Ideal) lab ValueIdx.ix0 = max (cntT lab) 1 := by
  rw [val_main_v45_apply, val_main_v44_apply, val_main_c_14_apply]
  show (((IntOp.maxsi (val_main_v40 (F := Ideal) lab ix0) 1#32).toInt : ℝ) : EReal) = _
  rw [toInt_maxsi_one _ _ (v40_toInt lab ix0), coe_max_one]

end Cert.RefSide

end
-- ==== Proof.RefRunEq.lean ====
/- The reference's run, read back: every weakly fair execution of the reference's 80 host operations terminates with the
   result buffer at the last stage of the reference read one operation at a time (the product of the weight with the
   select on the count's sign), of the three arguments' launch contents, and the arguments unchanged.
   The fold of the 80 operations over the launch contents, read at the result buffer, is the product of the weight
   constant with a rank-0 select. That term and the last stage are compared piece by piece: the weight constant, then
   the select's condition, its first branch and its second branch, each read off the fold on one side and the
   corresponding stage on the other. -/
import proofs.«105816_j90091234001463_2_alg».proof.Proof.RefRun
import proofs.«105816_j90091234001463_2_alg».proof.Proof.RefRead

noncomputable section

namespace Cert.RefSide

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo

variable {F : FTy → Type} [FloatOps F]

set_option maxHeartbeats 4000000 in
/-- After the 80 operations, from any contents, the result buffer holds the last stage of the three arguments'
    contents. -/
theorem after_ops_v48 (V : Valuation τ sig (Elt F)) :
    after ops V (Proc.devRef .tc main_v48)
      = val_main_v48 (F := F) (V (Proc.devRef .tc main_arg0)) (V (Proc.devRef .tc main_arg1))
          (V (Proc.devRef .tc main_arg2)) := by
  after_results_simp
  unfold val_main_v48 val_main_v47
  refine congrArg (mulf _) ?_
  refine (cast_eq _ _).trans ?_
  refine congr (congr (congrArg select ?_) ?_) ?_
  · exact (cast_eq _ _).trans rfl
  · exact (cast_eq _ _).trans rfl
  · exact (cast_eq _ _).trans rfl

set_option maxHeartbeats 4000000 in
/-- On every device, for any float values, from any memory with zero counters: every weakly fair execution of the
    reference terminates with the result at the last stage of the arguments' launch contents and the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = val_main_v48 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v48).trans (after_ops_v48 (launchContents m c)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.RefSide

end
-- ==== Proof.lean ====
/-
  The certificate: a pooled, unit-length, contrastive loss computed by three kernels and a short host tail, against the same
  loss written with whole-array operations.

  Both programs compute, for x, y : [4096, 8, 256] and labels lab : [4096, 4096]:
    λ · (if 0 < N then (Σ_i rowloss i) / max(N, 1) else 0),   N = Σ_i cnt i,
    rowloss i = cnt i · log(Σ_{k ≠ i} e^{sim i k} + ε₈) − Σ_{k pos} sim i k,   sim i k = ⟨rn x i, rn y k⟩ / T,
  rn the rows of slot means scaled to unit length (Spec). The kernel accumulates the three row sums tile by tile (eight row
  blocks by four column tiles), masking the diagonal only on the tiles it can cross, and sums the row losses on the host;
  the reference sums log-denominator minus similarity over all positive pairs at once and counts the pairs with an integer
  sum. On the extended reals the two arrangements agree when every input is a real number (a factor moves across a sum only
  then), which the precondition gives; the integer count of at most 2^24 ones does not wrap.

  The three frames: the kernels' runs over their six segments, at the word level and at the ideal instance, and the reference's
  run over its eighty host operations. The ideal pass rewrote nothing, so the idealization is the program's own text.
-/
import proofs.«105816_j90091234001463_2_alg».proof.Defs
import proofs.«105816_j90091234001463_2_alg».proof.Proof.Gen.Kernel
import proofs.«105816_j90091234001463_2_alg».proof.Proof.Gen.KernelIdeal
import proofs.«105816_j90091234001463_2_alg».proof.Proof.Gen.ReferenceIdeal
import proofs.«105816_j90091234001463_2_alg».proof.Proof.Gen.Pre_finite_inputs
import proofs.«105816_j90091234001463_2_alg».proof.Proof.KernelRunK
import proofs.«105816_j90091234001463_2_alg».proof.Proof.KernelValue
import proofs.«105816_j90091234001463_2_alg».proof.Proof.RefIs
import proofs.«105816_j90091234001463_2_alg».proof.Proof.RefCount
import proofs.«105816_j90091234001463_2_alg».proof.Proof.RefRunEq
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Hand.kernel_frame (F := Bits) m ρ

/-- So does the idealized one. -/
theorem frame_kernel_ideal : Cert.frame_KernelIdeal := fun m ρ _ => Cert.KernelIdeal.Hand.kernel_frame (F := Ideal) m ρ

/-- The reference's run, its result dropped. -/
theorem frame_reference : Cert.frame_ReferenceIdeal := fun m ρ _ =>
  (θ_run Cert.ReferenceIdeal.defs _ _).mono (fun _ h c => (h c).2) (Cert.RefSide.ref_run (F := Ideal) m ρ)

/-- Both idealized programs end at the loss of the argument arrays: the kernel on any input, the reference on inputs whose
    every entry is a real number, which the precondition says. -/
theorem algebraic : Cert.algebraic_KernelIdeal_ReferenceIdeal := by
  intro m ρ m' ρ' hpre hagree
  refine ⟨fun c => fun _ => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_value m ρ, ?_⟩
  refine (θ_run Cert.ReferenceIdeal.defs _ _).mono (fun _ h c => ⟨?_, (h c).2⟩) (Cert.RefSide.ref_run (F := Ideal) m' ρ')
  obtain ⟨hx, hy⟩ := Cert.RefSide.finite_of_pre _ _ _ (hpre c)
  rw [(h c).1, (hagree c).1, (hagree c).2.1, (hagree c).2.2]
  exact Cert.RefSide.ref_loss _ _ _ hx hy (Cert.RefSide.count_pos _) (Cert.RefSide.count_max _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
